-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S64 .f32) (main_arg18 : FVec F S128x64 .f32) (main_arg19 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg17
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg18
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg19
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg13 : FVec F S128 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_v33 : IVec S_ 1) : IVec S_ 1 :=
  let main_v34 : FVec F S128 .f32 := Host.absf main_arg13
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg14
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg15
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg16
  let main_cst_18 : FVec F S_ .f32 := constant S_ .f32 0x7F800000#32
  let main_v50 : FVec F S128x64 .f32 := broadcastInDim S128x64 ![] bcast_S_S128x64 main_cst_18
  fn_part3 (F := F) main_arg17 main_arg18 main_arg19 main_v48 main_v49 main_v50

def fn_part1 {F : FTy → Type} [FloatOps F] (main_arg10 : FVec F S128x128 .f32) (main_arg11 : FVec F S128 .f32) (main_arg12 : FVec F S256x128 .f32) (main_arg13 : FVec F S128 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg12
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : FVec F S100000x256 .f32) (main_arg1 : FVec F S100000x128 .f32) (main_arg2 : IVec S800000 32) (main_arg3 : IVec S800000 32) (main_arg4 : IVec S800000 32) (main_arg5 : IVec S800000 32) (main_arg6 : IVec S800000 32) (main_arg7 : IVec S800000 32) (main_arg8 : FVec F S256x128 .f32) (main_arg9 : FVec F S128 .f32) (main_arg10 : FVec F S128x128 .f32) (main_arg11 : FVec F S128 .f32) (main_arg12 : FVec F S256x128 .f32) (main_arg13 : FVec F S128 .f32) (main_arg14 : FVec F S128x64 .f32) (main_arg15 : FVec F S64 .f32) (main_arg16 : FVec F S128x64 .f32) (main_arg17 : FVec F S64 .f32) (main_arg18 : FVec F S128x64 .f32) (main_arg19 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg8
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg9
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg10 main_arg11 main_arg12 main_arg13 main_arg14 main_arg15 main_arg16 main_arg17 main_arg18 main_arg19 main_v13 main_v16
-- ==== Kernel.lean ====
abbrev S100000x256 : Shape := ⟨2, ![100000, 256]⟩
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x2 : Shape := ⟨2, ![100000, 2]⟩
abbrev S800000x128 : Shape := ⟨2, ![800000, 128]⟩
abbrev S1x128 : Shape := ⟨2, ![1, 128]⟩
abbrev S100000x64 : Shape := ⟨2, ![100000, 64]⟩
abbrev S800000x64 : Shape := ⟨2, ![800000, 64]⟩
abbrev S1x64 : Shape := ⟨2, ![1, 64]⟩
abbrev S1x100000x64 : Shape := ⟨3, ![1, 100000, 64]⟩
abbrev S2x100000x64 : Shape := ⟨3, ![2, 100000, 64]⟩
abbrev S4000x256 : Shape := ⟨2, ![4000, 256]⟩
abbrev S4000x2 : Shape := ⟨2, ![4000, 2]⟩
abbrev S4000x128 : Shape := ⟨2, ![4000, 128]⟩
abbrev S4000x1 : Shape := ⟨2, ![4000, 1]⟩
abbrev S4000x64 : Shape := ⟨2, ![4000, 64]⟩

abbrev nBuf : Space → Nat
  | .hbm => 211
  | .vmem => 68
  | .smem => 0
  | _ => 0

abbrev hbmTy0_0 (i : Nat) : BufTy := match i % 128 with
  | 0 => ⟨S100000x256, .f32⟩
  | 1 => ⟨S100000x128, .f32⟩
  | 2 => ⟨S800000, .i32⟩
  | 3 => ⟨S800000, .i32⟩
  | 4 => ⟨S800000, .i32⟩
  | 5 => ⟨S800000, .i32⟩
  | 6 => ⟨S800000, .i32⟩
  | 7 => ⟨S800000, .i32⟩
  | 8 => ⟨S256x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S128x64, .f32⟩
  | 15 => ⟨S64, .f32⟩
  | 16 => ⟨S128x64, .f32⟩
  | 17 => ⟨S64, .f32⟩
  | 18 => ⟨S128x64, .f32⟩
  | 19 => ⟨S64, .f32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .f32⟩
  | 27 => ⟨S800000, .f32⟩
  | 28 => ⟨S_, .f32⟩
  | 29 => ⟨S100000, .f32⟩
  | 30 => ⟨S800000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S_, .f32⟩
  | 45 => ⟨S800000, .f32⟩
  | 46 => ⟨S_, .f32⟩
  | 47 => ⟨S100000, .f32⟩
  | 48 => ⟨S800000x1, .i32⟩
  | 49 => ⟨S100000, .f32⟩
  | 50 => ⟨S_, .f32⟩
  | 51 => ⟨S800000, .f32⟩
  | 52 => ⟨S_, .f32⟩
  | 53 => ⟨S100000, .f32⟩
  | 54 => ⟨S800000x1, .i32⟩
  | 55 => ⟨S100000, .f32⟩
  | 56 => ⟨S_, .f32⟩
  | 57 => ⟨S100000, .f32⟩
  | 58 => ⟨S100000, .f32⟩
  | 59 => ⟨S_, .f32⟩
  | 60 => ⟨S100000, .f32⟩
  | 61 => ⟨S100000, .f32⟩
  | 62 => ⟨S_, .f32⟩
  | 63 => ⟨S100000, .f32⟩
  | 64 => ⟨S100000, .f32⟩
  | 65 => ⟨S_, .f32⟩
  | 66 => ⟨S100000, .f32⟩
  | 67 => ⟨S100000, .f32⟩
  | 68 => ⟨S_, .f32⟩
  | 69 => ⟨S800000, .f32⟩
  | 70 => ⟨S_, .f32⟩
  | 71 => ⟨S100000, .f32⟩
  | 72 => ⟨S800000x1, .i32⟩
  | 73 => ⟨S100000, .f32⟩
  | 74 => ⟨S_, .f32⟩
  | 75 => ⟨S800000, .f32⟩
  | 76 => ⟨S_, .f32⟩
  | 77 => ⟨S100000, .f32⟩
  | 78 => ⟨S800000x1, .i32⟩
  | 79 => ⟨S100000, .f32⟩
  | 80 => ⟨S_, .f32⟩
  | 81 => ⟨S100000, .f32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x1, .f32⟩
  | 94 => ⟨S100000x2, .f32⟩
  | 95 => ⟨S100000x128, .bf16⟩
  | 96 => ⟨S100000x128, .bf16⟩
  | 97 => ⟨S100000x1, .f32⟩
  | 98 => ⟨S100000x128, .bf16⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .bf16⟩
  | 108 => ⟨S800000x128, .f32⟩
  | 109 => ⟨S_, .f32⟩
  | 110 => ⟨S100000x128, .f32⟩
  | 111 => ⟨S800000x1, .i32⟩
  | 112 => ⟨S100000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .bf16⟩
  | 122 => ⟨S800000x128, .f32⟩
  | 123 => ⟨S_, .f32⟩
  | 124 => ⟨S100000x128, .f32⟩
  | 125 => ⟨S800000x1, .i32⟩
  | 126 => ⟨S100000x128, .f32⟩
  | 127 => ⟨S_, .i32⟩
  | _ => ⟨S100000x256, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .bf16⟩
  | 8 => ⟨S800000x128, .f32⟩
  | 9 => ⟨S_, .f32⟩
  | 10 => ⟨S100000x128, .f32⟩
  | 11 => ⟨S800000x1, .i32⟩
  | 12 => ⟨S100000x128, .f32⟩
  | 13 => ⟨S100000x1, .f32⟩
  | 14 => ⟨S1x128, .f32⟩
  | 15 => ⟨S100000x128, .f32⟩
  | 16 => ⟨S100000x1, .f32⟩
  | 17 => ⟨S100000x1, .f32⟩
  | 18 => ⟨S100000x2, .f32⟩
  | 19 => ⟨S1x128, .f32⟩
  | 20 => ⟨S1x128, .f32⟩
  | 21 => ⟨S100000x128, .f32⟩
  | 22 => ⟨S100000x1, .f32⟩
  | 23 => ⟨S100000x1, .f32⟩
  | 24 => ⟨S100000x2, .f32⟩
  | 25 => ⟨S100000x64, .bf16⟩
  | 26 => ⟨S100000x64, .bf16⟩
  | 27 => ⟨S100000x1, .f32⟩
  | 28 => ⟨S100000x64, .bf16⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .bf16⟩
  | 38 => ⟨S800000x64, .f32⟩
  | 39 => ⟨S_, .f32⟩
  | 40 => ⟨S100000x64, .f32⟩
  | 41 => ⟨S800000x1, .i32⟩
  | 42 => ⟨S100000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .bf16⟩
  | 52 => ⟨S800000x64, .f32⟩
  | 53 => ⟨S_, .f32⟩
  | 54 => ⟨S100000x64, .f32⟩
  | 55 => ⟨S800000x1, .i32⟩
  | 56 => ⟨S100000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .bf16⟩
  | 66 => ⟨S800000x64, .f32⟩
  | 67 => ⟨S_, .f32⟩
  | 68 => ⟨S100000x64, .f32⟩
  | 69 => ⟨S800000x1, .i32⟩
  | 70 => ⟨S100000x64, .f32⟩
  | 71 => ⟨S100000x1, .f32⟩
  | 72 => ⟨S1x64, .f32⟩
  | 73 => ⟨S100000x64, .f32⟩
  | 74 => ⟨S100000x1, .f32⟩
  | 75 => ⟨S100000x1, .f32⟩
  | 76 => ⟨S100000x2, .f32⟩
  | 77 => ⟨S1x64, .f32⟩
  | 78 => ⟨S1x64, .f32⟩
  | 79 => ⟨S100000x64, .f32⟩
  | 80 => ⟨S1x100000x64, .f32⟩
  | 81 => ⟨S1x100000x64, .f32⟩
  | 82 => ⟨S2x100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S256x128, .f32⟩
  | .local _ .vmem, ⟨4, _⟩ => ⟨S4000x2, .f32⟩
  | .local _ .vmem, ⟨5, _⟩ => ⟨S4000x2, .f32⟩
  | .local _ .vmem, ⟨6, _⟩ => ⟨S4000x128, .bf16⟩
  | .local _ .vmem, ⟨7, _⟩ => ⟨S4000x128, .bf16⟩
  | .local _ .vmem, ⟨8, _⟩ => ⟨S4000x128, .bf16⟩
  | .local _ .vmem, ⟨9, _⟩ => ⟨S4000x128, .bf16⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S4000x1, .f32⟩
  | .local _ .vmem, ⟨14, _⟩ => ⟨S4000x1, .f32⟩
  | .local _ .vmem, ⟨15, _⟩ => ⟨S4000x128, .bf16⟩
  | .local _ .vmem, ⟨16, _⟩ => ⟨S4000x128, .bf16⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x2, .f32⟩
  | .local _ .vmem, ⟨29, _⟩ => ⟨S4000x2, .f32⟩
  | .local _ .vmem, ⟨30, _⟩ => ⟨S1x128, .f32⟩
  | .local _ .vmem, ⟨31, _⟩ => ⟨S1x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S128x64, .f32⟩
  | .local _ .vmem, ⟨37, _⟩ => ⟨S128x64, .f32⟩
  | .local _ .vmem, ⟨38, _⟩ => ⟨S4000x2, .f32⟩
  | .local _ .vmem, ⟨39, _⟩ => ⟨S4000x2, .f32⟩
  | .local _ .vmem, ⟨40, _⟩ => ⟨S4000x64, .bf16⟩
  | .local _ .vmem, ⟨41, _⟩ => ⟨S4000x64, .bf16⟩
  | .local _ .vmem, ⟨42, _⟩ => ⟨S4000x64, .bf16⟩
  | .local _ .vmem, ⟨43, _⟩ => ⟨S4000x64, .bf16⟩
  | .local _ .vmem, ⟨44, _⟩ => ⟨S4000x128, .f32⟩
  | .local _ .vmem, ⟨45, _⟩ => ⟨S4000x128, .f32⟩
  | .local _ .vmem, ⟨46, _⟩ => ⟨S128x64, .f32⟩
  | .local _ .vmem, ⟨47, _⟩ => ⟨S4000x1, .f32⟩
  | .local _ .vmem, ⟨48, _⟩ => ⟨S4000x1, .f32⟩
  | .local _ .vmem, ⟨49, _⟩ => ⟨S4000x64, .bf16⟩
  | .local _ .vmem, ⟨50, _⟩ => ⟨S4000x64, .bf16⟩
  | .local _ .vmem, ⟨51, _⟩ => ⟨S4000x64, .f32⟩
  | .local _ .vmem, ⟨52, _⟩ => ⟨S4000x64, .f32⟩
  | .local _ .vmem, ⟨53, _⟩ => ⟨S4000x1, .f32⟩
  | .local _ .vmem, ⟨54, _⟩ => ⟨S4000x1, .f32⟩
  | .local _ .vmem, ⟨55, _⟩ => ⟨S1x64, .f32⟩
  | .local _ .vmem, ⟨56, _⟩ => ⟨S4000x64, .f32⟩
  | .local _ .vmem, ⟨57, _⟩ => ⟨S4000x64, .f32⟩
  | .local _ .vmem, ⟨58, _⟩ => ⟨S4000x64, .f32⟩
  | .local _ .vmem, ⟨59, _⟩ => ⟨S4000x64, .f32⟩
  | .local _ .vmem, ⟨60, _⟩ => ⟨S4000x64, .f32⟩
  | .local _ .vmem, ⟨61, _⟩ => ⟨S4000x64, .f32⟩
  | .local _ .vmem, ⟨62, _⟩ => ⟨S4000x2, .f32⟩
  | .local _ .vmem, ⟨63, _⟩ => ⟨S4000x2, .f32⟩
  | .local _ .vmem, ⟨64, _⟩ => ⟨S1x64, .f32⟩
  | .local _ .vmem, ⟨65, _⟩ => ⟨S1x64, .f32⟩
  | .local _ .vmem, ⟨66, _⟩ => ⟨S4000x64, .f32⟩
  | .local _ .vmem, ⟨67, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_cst_1 : Ref sig .tc := ⟨.hbm, 26, rfl⟩
abbrev main_call0_v4 : Ref sig .tc := ⟨.hbm, 27, rfl⟩
abbrev main_call0_cst_2 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_3 : Ref sig .tc := ⟨.hbm, 32, rfl⟩
abbrev main_call0_v8 : Ref sig .tc := ⟨.hbm, 33, rfl⟩
abbrev main_call0_v9 : Ref sig .tc := ⟨.hbm, 34, rfl⟩
abbrev main_call0_cst_4 : Ref sig .tc := ⟨.hbm, 35, rfl⟩
abbrev main_call0_v10 : Ref sig .tc := ⟨.hbm, 36, rfl⟩
abbrev main_call0_v11 : Ref sig .tc := ⟨.hbm, 37, rfl⟩
abbrev main_call0_cst_5 : Ref sig .tc := ⟨.hbm, 38, rfl⟩
abbrev main_call0_v12 : Ref sig .tc := ⟨.hbm, 39, rfl⟩
abbrev main_call0_v13 : Ref sig .tc := ⟨.hbm, 40, rfl⟩
abbrev main_call0_cst_6 : Ref sig .tc := ⟨.hbm, 41, rfl⟩
abbrev main_call0_v14 : Ref sig .tc := ⟨.hbm, 42, rfl⟩
abbrev main_call0_v15 : Ref sig .tc := ⟨.hbm, 43, rfl⟩
abbrev main_call0_cst_7 : Ref sig .tc := ⟨.hbm, 44, rfl⟩
abbrev main_call0_v16 : Ref sig .tc := ⟨.hbm, 45, rfl⟩
abbrev main_call0_cst_8 : Ref sig .tc := ⟨.hbm, 46, rfl⟩
abbrev main_call0_v17 : Ref sig .tc := ⟨.hbm, 47, rfl⟩
abbrev main_call0_v18 : Ref sig .tc := ⟨.hbm, 48, rfl⟩
abbrev main_call0_v19 : Ref sig .tc := ⟨.hbm, 49, rfl⟩
abbrev main_call0_cst_9 : Ref sig .tc := ⟨.hbm, 50, rfl⟩
abbrev main_call0_v20 : Ref sig .tc := ⟨.hbm, 51, rfl⟩
abbrev main_call0_cst_10 : Ref sig .tc := ⟨.hbm, 52, rfl⟩
abbrev main_call0_v21 : Ref sig .tc := ⟨.hbm, 53, rfl⟩
abbrev main_call0_v22 : Ref sig .tc := ⟨.hbm, 54, rfl⟩
abbrev main_call0_v23 : Ref sig .tc := ⟨.hbm, 55, rfl⟩
abbrev main_call0_cst_11 : Ref sig .tc := ⟨.hbm, 56, rfl⟩
abbrev main_call0_v24 : Ref sig .tc := ⟨.hbm, 57, rfl⟩
abbrev main_call0_v25 : Ref sig .tc := ⟨.hbm, 58, rfl⟩
abbrev main_call0_cst_12 : Ref sig .tc := ⟨.hbm, 59, rfl⟩
abbrev main_call0_v26 : Ref sig .tc := ⟨.hbm, 60, rfl⟩
abbrev main_call0_v27 : Ref sig .tc := ⟨.hbm, 61, rfl⟩
abbrev main_call0_cst_13 : Ref sig .tc := ⟨.hbm, 62, rfl⟩
abbrev main_call0_v28 : Ref sig .tc := ⟨.hbm, 63, rfl⟩
abbrev main_call0_v29 : Ref sig .tc := ⟨.hbm, 64, rfl⟩
abbrev main_call0_cst_14 : Ref sig .tc := ⟨.hbm, 65, rfl⟩
abbrev main_call0_v30 : Ref sig .tc := ⟨.hbm, 66, rfl⟩
abbrev main_call0_v31 : Ref sig .tc := ⟨.hbm, 67, rfl⟩
abbrev main_call0_cst_15 : Ref sig .tc := ⟨.hbm, 68, rfl⟩
abbrev main_call0_v32 : Ref sig .tc := ⟨.hbm, 69, rfl⟩
abbrev main_call0_cst_16 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_cst_17 : Ref sig .tc := ⟨.hbm, 74, rfl⟩
abbrev main_call0_v36 : Ref sig .tc := ⟨.hbm, 75, rfl⟩
abbrev main_call0_cst_18 : Ref sig .tc := ⟨.hbm, 76, rfl⟩
abbrev main_call0_v37 : Ref sig .tc := ⟨.hbm, 77, rfl⟩
abbrev main_call0_v38 : Ref sig .tc := ⟨.hbm, 78, rfl⟩
abbrev main_call0_v39 : Ref sig .tc := ⟨.hbm, 79, rfl⟩
abbrev main_call0_cst_19 : Ref sig .tc := ⟨.hbm, 80, rfl⟩
abbrev main_call0_v40 : Ref sig .tc := ⟨.hbm, 81, rfl⟩
abbrev main_call0_v41 : Ref sig .tc := ⟨.hbm, 82, rfl⟩
abbrev main_call0_cst_20 : Ref sig .tc := ⟨.hbm, 83, rfl⟩
abbrev main_call0_v42 : Ref sig .tc := ⟨.hbm, 84, rfl⟩
abbrev main_call0_v43 : Ref sig .tc := ⟨.hbm, 85, rfl⟩
abbrev main_call0_cst_21 : Ref sig .tc := ⟨.hbm, 86, rfl⟩
abbrev main_call0_v44 : Ref sig .tc := ⟨.hbm, 87, rfl⟩
abbrev main_call0_v45 : Ref sig .tc := ⟨.hbm, 88, rfl⟩
abbrev main_call0_cst_22 : Ref sig .tc := ⟨.hbm, 89, rfl⟩
abbrev main_call0_v46 : Ref sig .tc := ⟨.hbm, 90, rfl⟩
abbrev main_call0_v47 : Ref sig .tc := ⟨.hbm, 91, rfl⟩
abbrev main_call0_v48 : Ref sig .tc := ⟨.hbm, 92, rfl⟩
abbrev main_call0_v49 : Ref sig .tc := ⟨.hbm, 93, rfl⟩
abbrev main_call0_v50 : Ref sig .tc := ⟨.hbm, 94, rfl⟩
abbrev main_call0_v51_0 : Ref sig .tc := ⟨.hbm, 95, rfl⟩
abbrev main_call0_v51_1 : Ref sig .tc := ⟨.hbm, 96, rfl⟩
abbrev main_call0_v52 : Ref sig .tc := ⟨.hbm, 97, rfl⟩
abbrev main_call0_v53 : Ref sig .tc := ⟨.hbm, 98, rfl⟩
abbrev main_call0_c : Ref sig .tc := ⟨.hbm, 99, rfl⟩
abbrev main_call0_v54 : Ref sig .tc := ⟨.hbm, 100, rfl⟩
abbrev main_call0_v55 : Ref sig .tc := ⟨.hbm, 101, rfl⟩
abbrev main_call0_c_23 : Ref sig .tc := ⟨.hbm, 102, rfl⟩
abbrev main_call0_v56 : Ref sig .tc := ⟨.hbm, 103, rfl⟩
abbrev main_call0_v57 : Ref sig .tc := ⟨.hbm, 104, rfl⟩
abbrev main_call0_v58 : Ref sig .tc := ⟨.hbm, 105, rfl⟩
abbrev main_call0_v59 : Ref sig .tc := ⟨.hbm, 106, rfl⟩
abbrev main_call0_v60 : Ref sig .tc := ⟨.hbm, 107, rfl⟩
abbrev main_call0_v61 : Ref sig .tc := ⟨.hbm, 108, rfl⟩
abbrev main_call0_cst_24 : Ref sig .tc := ⟨.hbm, 109, rfl⟩
abbrev main_call0_v62 : Ref sig .tc := ⟨.hbm, 110, rfl⟩
abbrev main_call0_v63 : Ref sig .tc := ⟨.hbm, 111, rfl⟩
abbrev main_call0_v64 : Ref sig .tc := ⟨.hbm, 112, rfl⟩
abbrev main_call0_c_25 : Ref sig .tc := ⟨.hbm, 113, rfl⟩
abbrev main_call0_v65 : Ref sig .tc := ⟨.hbm, 114, rfl⟩
abbrev main_call0_v66 : Ref sig .tc := ⟨.hbm, 115, rfl⟩
abbrev main_call0_c_26 : Ref sig .tc := ⟨.hbm, 116, rfl⟩
abbrev main_call0_v67 : Ref sig .tc := ⟨.hbm, 117, rfl⟩
abbrev main_call0_v68 : Ref sig .tc := ⟨.hbm, 118, rfl⟩
abbrev main_call0_v69 : Ref sig .tc := ⟨.hbm, 119, rfl⟩
abbrev main_call0_v70 : Ref sig .tc := ⟨.hbm, 120, rfl⟩
abbrev main_call0_v71 : Ref sig .tc := ⟨.hbm, 121, rfl⟩
abbrev main_call0_v72 : Ref sig .tc := ⟨.hbm, 122, rfl⟩
abbrev main_call0_cst_27 : Ref sig .tc := ⟨.hbm, 123, rfl⟩
abbrev main_call0_v73 : Ref sig .tc := ⟨.hbm, 124, rfl⟩
abbrev main_call0_v74 : Ref sig .tc := ⟨.hbm, 125, rfl⟩
abbrev main_call0_v75 : Ref sig .tc := ⟨.hbm, 126, rfl⟩
abbrev main_call0_c_28 : Ref sig .tc := ⟨.hbm, 127, rfl⟩
abbrev main_call0_v76 : Ref sig .tc := ⟨.hbm, 128, rfl⟩
abbrev main_call0_v77 : Ref sig .tc := ⟨.hbm, 129, rfl⟩
abbrev main_call0_c_29 : Ref sig .tc := ⟨.hbm, 130, rfl⟩
abbrev main_call0_v78 : Ref sig .tc := ⟨.hbm, 131, rfl⟩
abbrev main_call0_v79 : Ref sig .tc := ⟨.hbm, 132, rfl⟩
abbrev main_call0_v80 : Ref sig .tc := ⟨.hbm, 133, rfl⟩
abbrev main_call0_v81 : Ref sig .tc := ⟨.hbm, 134, rfl⟩
abbrev main_call0_v82 : Ref sig .tc := ⟨.hbm, 135, rfl⟩
abbrev main_call0_v83 : Ref sig .tc := ⟨.hbm, 136, rfl⟩
abbrev main_call0_cst_30 : Ref sig .tc := ⟨.hbm, 137, rfl⟩
abbrev main_call0_v84 : Ref sig .tc := ⟨.hbm, 138, rfl⟩
abbrev main_call0_v85 : Ref sig .tc := ⟨.hbm, 139, rfl⟩
abbrev main_call0_v86 : Ref sig .tc := ⟨.hbm, 140, rfl⟩
abbrev main_call0_v87 : Ref sig .tc := ⟨.hbm, 141, rfl⟩
abbrev main_call0_v88 : Ref sig .tc := ⟨.hbm, 142, rfl⟩
abbrev main_call0_v89 : Ref sig .tc := ⟨.hbm, 143, rfl⟩
abbrev main_call0_v90 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_v96 : Ref sig .tc := ⟨.hbm, 150, rfl⟩
abbrev main_call0_v97 : Ref sig .tc := ⟨.hbm, 151, rfl⟩
abbrev main_call0_v98 : Ref sig .tc := ⟨.hbm, 152, rfl⟩
abbrev main_call0_v99_0 : Ref sig .tc := ⟨.hbm, 153, rfl⟩
abbrev main_call0_v99_1 : Ref sig .tc := ⟨.hbm, 154, rfl⟩
abbrev main_call0_v100 : Ref sig .tc := ⟨.hbm, 155, rfl⟩
abbrev main_call0_v101 : Ref sig .tc := ⟨.hbm, 156, rfl⟩
abbrev main_call0_c_31 : Ref sig .tc := ⟨.hbm, 157, rfl⟩
abbrev main_call0_v102 : Ref sig .tc := ⟨.hbm, 158, rfl⟩
abbrev main_call0_v103 : Ref sig .tc := ⟨.hbm, 159, rfl⟩
abbrev main_call0_c_32 : Ref sig .tc := ⟨.hbm, 160, rfl⟩
abbrev main_call0_v104 : Ref sig .tc := ⟨.hbm, 161, rfl⟩
abbrev main_call0_v105 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_v109 : Ref sig .tc := ⟨.hbm, 166, rfl⟩
abbrev main_call0_cst_33 : Ref sig .tc := ⟨.hbm, 167, rfl⟩
abbrev main_call0_v110 : Ref sig .tc := ⟨.hbm, 168, rfl⟩
abbrev main_call0_v111 : Ref sig .tc := ⟨.hbm, 169, rfl⟩
abbrev main_call0_v112 : Ref sig .tc := ⟨.hbm, 170, rfl⟩
abbrev main_call0_c_34 : Ref sig .tc := ⟨.hbm, 171, rfl⟩
abbrev main_call0_v113 : Ref sig .tc := ⟨.hbm, 172, rfl⟩
abbrev main_call0_v114 : Ref sig .tc := ⟨.hbm, 173, rfl⟩
abbrev main_call0_c_35 : Ref sig .tc := ⟨.hbm, 174, rfl⟩
abbrev main_call0_v115 : Ref sig .tc := ⟨.hbm, 175, rfl⟩
abbrev main_call0_v116 : Ref sig .tc := ⟨.hbm, 176, rfl⟩
abbrev main_call0_v117 : Ref sig .tc := ⟨.hbm, 177, rfl⟩
abbrev main_call0_v118 : Ref sig .tc := ⟨.hbm, 178, rfl⟩
abbrev main_call0_v119 : Ref sig .tc := ⟨.hbm, 179, rfl⟩
abbrev main_call0_v120 : Ref sig .tc := ⟨.hbm, 180, rfl⟩
abbrev main_call0_cst_36 : Ref sig .tc := ⟨.hbm, 181, rfl⟩
abbrev main_call0_v121 : Ref sig .tc := ⟨.hbm, 182, rfl⟩
abbrev main_call0_v122 : Ref sig .tc := ⟨.hbm, 183, rfl⟩
abbrev main_call0_v123 : Ref sig .tc := ⟨.hbm, 184, rfl⟩
abbrev main_call0_c_37 : Ref sig .tc := ⟨.hbm, 185, rfl⟩
abbrev main_call0_v124 : Ref sig .tc := ⟨.hbm, 186, rfl⟩
abbrev main_call0_v125 : Ref sig .tc := ⟨.hbm, 187, rfl⟩
abbrev main_call0_c_38 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_v130 : Ref sig .tc := ⟨.hbm, 193, rfl⟩
abbrev main_call0_v131 : Ref sig .tc := ⟨.hbm, 194, rfl⟩
abbrev main_call0_cst_39 : Ref sig .tc := ⟨.hbm, 195, rfl⟩
abbrev main_call0_v132 : Ref sig .tc := ⟨.hbm, 196, rfl⟩
abbrev main_call0_v133 : Ref sig .tc := ⟨.hbm, 197, rfl⟩
abbrev main_call0_v134 : Ref sig .tc := ⟨.hbm, 198, rfl⟩
abbrev main_call0_v135 : Ref sig .tc := ⟨.hbm, 199, rfl⟩
abbrev main_call0_v136 : Ref sig .tc := ⟨.hbm, 200, rfl⟩
abbrev main_call0_v137 : Ref sig .tc := ⟨.hbm, 201, rfl⟩
abbrev main_call0_v138 : Ref sig .tc := ⟨.hbm, 202, rfl⟩
abbrev main_call0_v139 : Ref sig .tc := ⟨.hbm, 203, rfl⟩
abbrev main_call0_v140 : Ref sig .tc := ⟨.hbm, 204, rfl⟩
abbrev main_call0_v141 : Ref sig .tc := ⟨.hbm, 205, rfl⟩
abbrev main_call0_v142 : Ref sig .tc := ⟨.hbm, 206, rfl⟩
abbrev main_call0_v143 : Ref sig .tc := ⟨.hbm, 207, rfl⟩
abbrev main_call0_v144 : Ref sig .tc := ⟨.hbm, 208, rfl⟩
abbrev main_call0_v145 : Ref sig .tc := ⟨.hbm, 209, rfl⟩
abbrev main_v0 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg3_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem4_1 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem2_1 : DmaSem sig := 48
abbrev cc5_sem3_0 : DmaSem sig := 49
abbrev cc5_sem3_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem3_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc7_sem3_0 : DmaSem sig := 64
abbrev cc7_sem4_0 : DmaSem sig := 65
abbrev cc7_sem5_0 : DmaSem sig := 66
abbrev cc7_sem5_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S4000x64 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x64 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x2 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S4000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  bcast_S_S100000x64 : S_.BroadcastsInDim S100000x64 (![] : Fin 0 → Fin S100000x64.rank)
  shapeCasts_S64_S1x64 : S64.ShapeCasts S1x64
  bcast_S100000x64_S1x100000x64_1_2 : S100000x64.BroadcastsInDim S1x100000x64 (![1, 2] : Fin 2 → Fin S1x100000x64.rank)
  concatenates_S1x100000x64_S1x100000x64_S2x100000x64_d0 : Shape.Concatenates [S1x100000x64, S1x100000x64] S2x100000x64 0
  inb_S4000x256_S4000x256_0_0 : ∀ a, (![0, 0] : Fin 2 → Nat) a + S4000x256.size a ≤ S4000x256.size a
  h_S4000x256 : 0 < S4000x256.numel
  inb_S256x128_S256x128_0_0 : ∀ a, (![0, 0] : Fin 2 → Nat) a + S256x128.size a ≤ S256x128.size a
  h_S256x128 : 0 < S256x128.numel
  inb_S4000x2_S4000x1_0_0 : ∀ a, (![0, 0] : Fin 2 → Nat) a + S4000x1.size a ≤ S4000x2.size a
  h_S4000x1 : 0 < S4000x1.numel
  shapeCasts_S4000x1_S4000x1 : S4000x1.ShapeCasts S4000x1
  inb_S4000x2_S4000x1_0_1 : ∀ a, (![0, 1] : Fin 2 → Nat) a + S4000x1.size a ≤ S4000x2.size a
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x2.size a ≤ S100000x2.size a
  hwx0_3 : ∀ i : grid0.Coords, EltTy.bits .f32 = 32 ∨ (Rect.block (s := S100000x2) S4000x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .bf16 = 32 ∨ (Rect.block (s := S100000x128) S4000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x2.size a ≤ S100000x2.size a
  hwx3_2 : ∀ i : grid3.Coords, EltTy.bits .f32 = 32 ∨ (Rect.block (s := S100000x2) S4000x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x2.size a ≤ S100000x2.size a
  hwx4_3 : ∀ i : grid4.Coords, EltTy.bits .f32 = 32 ∨ (Rect.block (s := S100000x2) S4000x2.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S100000x64.size a
  hwx4_4 : ∀ i : grid4.Coords, EltTy.bits .bf16 = 32 ∨ (Rect.block (s := S100000x64) S4000x64.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x64.size a ≤ S100000x64.size a
  hwx4_5 : ∀ i : grid4.Coords, EltTy.bits .bf16 = 32 ∨ (Rect.block (s := S100000x64) S4000x64.size (cc4_transform_5 i) (hinb4_5 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S100000x64.size a
  hwx5_3 : ∀ i : grid5.Coords, EltTy.bits .bf16 = 32 ∨ (Rect.block (s := S100000x64) S4000x64.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S100000x1.size a
  hwx6_1 : ∀ i : grid6.Coords, EltTy.bits .f32 = 32 ∨ (Rect.block (s := S100000x1) S4000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S100000x64.size a
  hwx6_3 : ∀ i : grid6.Coords, EltTy.bits .f32 = 32 ∨ (Rect.block (s := S100000x64) S4000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S100000x64.size a
  hwx7_0 : ∀ i : grid7.Coords, EltTy.bits .f32 = 32 ∨ (Rect.block (s := S100000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x64.size a ≤ S100000x64.size a
  hwx7_1 : ∀ i : grid7.Coords, EltTy.bits .f32 = 32 ∨ (Rect.block (s := S100000x64) S4000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x2.size a ≤ S100000x2.size a
  hwx7_2 : ∀ i : grid7.Coords, EltTy.bits .f32 = 32 ∨ (Rect.block (s := S100000x2) S4000x2.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x64.size a ≤ S100000x64.size a
  hwx7_5 : ∀ i : grid7.Coords, EltTy.bits .f32 = 32 ∨ (Rect.block (s := S100000x64) S4000x64.size (cc7_transform_5 i) (hinb7_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v50) S4000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v51_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v51_1) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v52) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v53) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v64) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v87) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v88) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v89) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v75) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v86) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v92) S4000x2.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v93) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v94) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v95) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v95) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v98) S4000x2.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_call0_v99_0) S4000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_call0_v99_1) S4000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_call0_v89) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg16) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v100) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_call0_v101) S4000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_call0_v112) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v135) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v136) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v137) S4000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_call0_v123) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v134) S4000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v140) S4000x2.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_call0_v141) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v142) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call0_v143) S4000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x256 : Shape := ⟨2, ![100000, 256]⟩
abbrev S100000x128 : Shape := ⟨2, ![100000, 128]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩
abbrev S100000x64 : Shape := ⟨2, ![100000, 64]⟩
abbrev S800000x64 : Shape := ⟨2, ![800000, 64]⟩
abbrev S1x64 : Shape := ⟨2, ![1, 64]⟩
abbrev S1x100000x64 : Shape := ⟨3, ![1, 100000, 64]⟩
abbrev S2x100000x64 : Shape := ⟨3, ![2, 100000, 64]⟩

abbrev nBuf : Space → Nat
  | .hbm => 301
  | .vmem => 0
  | .smem => 0
  | _ => 0

abbrev hbmTy0_0 (i : Nat) : BufTy := match i % 128 with
  | 0 => ⟨S100000x256, .f32⟩
  | 1 => ⟨S100000x128, .f32⟩
  | 2 => ⟨S800000, .i32⟩
  | 3 => ⟨S800000, .i32⟩
  | 4 => ⟨S800000, .i32⟩
  | 5 => ⟨S800000, .i32⟩
  | 6 => ⟨S800000, .i32⟩
  | 7 => ⟨S800000, .i32⟩
  | 8 => ⟨S256x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S128x64, .f32⟩
  | 15 => ⟨S64, .f32⟩
  | 16 => ⟨S128x64, .f32⟩
  | 17 => ⟨S64, .f32⟩
  | 18 => ⟨S128x64, .f32⟩
  | 19 => ⟨S64, .f32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .f32⟩
  | 27 => ⟨S100000, .f32⟩
  | 28 => ⟨S800000x1, .i32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000x128, .f32⟩
  | 43 => ⟨S100000x1, .f32⟩
  | 44 => ⟨S100000x128, .f32⟩
  | 45 => ⟨S100000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .f32⟩
  | 56 => ⟨S100000x128, .f32⟩
  | 57 => ⟨S800000x1, .i32⟩
  | 58 => ⟨S100000x128, .f32⟩
  | 59 => ⟨S100000x1, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S800000, .f32⟩
  | 67 => ⟨S_, .f32⟩
  | 68 => ⟨S100000, .f32⟩
  | 69 => ⟨S800000x1, .i32⟩
  | 70 => ⟨S100000, .f32⟩
  | 71 => ⟨S_, .f32⟩
  | 72 => ⟨S100000, .f32⟩
  | 73 => ⟨S800000x1, .i32⟩
  | 74 => ⟨S100000, .f32⟩
  | 75 => ⟨S_, .f32⟩
  | 76 => ⟨S100000, .f32⟩
  | 77 => ⟨S100000, .f32⟩
  | 78 => ⟨S_, .f32⟩
  | 79 => ⟨S100000, .f32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S100000, .f32⟩
  | 87 => ⟨S100000x128, .f32⟩
  | 88 => ⟨S100000x1, .f32⟩
  | 89 => ⟨S100000x128, .f32⟩
  | 90 => ⟨S100000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S100000x128, .f32⟩
  | 102 => ⟨S800000x1, .i32⟩
  | 103 => ⟨S100000x128, .f32⟩
  | 104 => ⟨S100000x1, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S800000, .f32⟩
  | 112 => ⟨S_, .f32⟩
  | 113 => ⟨S100000, .f32⟩
  | 114 => ⟨S800000x1, .i32⟩
  | 115 => ⟨S100000, .f32⟩
  | 116 => ⟨S_, .f32⟩
  | 117 => ⟨S100000, .f32⟩
  | 118 => ⟨S800000x1, .i32⟩
  | 119 => ⟨S100000, .f32⟩
  | 120 => ⟨S_, .f32⟩
  | 121 => ⟨S100000, .f32⟩
  | 122 => ⟨S100000, .f32⟩
  | 123 => ⟨S_, .f32⟩
  | 124 => ⟨S100000, .f32⟩
  | 125 => ⟨S100000, .f32⟩
  | 126 => ⟨S_, .f32⟩
  | 127 => ⟨S100000, .f32⟩
  | _ => ⟨S100000x256, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x128, .f32⟩
  | 5 => ⟨S100000x1, .f32⟩
  | 6 => ⟨S100000x128, .f32⟩
  | 7 => ⟨S100000x128, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S_, .f32⟩
  | 18 => ⟨S100000x128, .f32⟩
  | 19 => ⟨S800000x1, .i32⟩
  | 20 => ⟨S100000x128, .f32⟩
  | 21 => ⟨S100000x1, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S_, .f32⟩
  | 35 => ⟨S800000, .f32⟩
  | 36 => ⟨S_, .f32⟩
  | 37 => ⟨S100000, .f32⟩
  | 38 => ⟨S800000x1, .i32⟩
  | 39 => ⟨S100000, .f32⟩
  | 40 => ⟨S_, .f32⟩
  | 41 => ⟨S100000, .f32⟩
  | 42 => ⟨S800000x1, .i32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S_, .f32⟩
  | 54 => ⟨S100000, .f32⟩
  | 55 => ⟨S100000, .f32⟩
  | 56 => ⟨S100000x64, .f32⟩
  | 57 => ⟨S100000x1, .f32⟩
  | 58 => ⟨S100000x64, .f32⟩
  | 59 => ⟨S100000x64, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S_, .f32⟩
  | 70 => ⟨S100000x64, .f32⟩
  | 71 => ⟨S800000x1, .i32⟩
  | 72 => ⟨S100000x64, .f32⟩
  | 73 => ⟨S100000x1, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S800000, .f32⟩
  | 81 => ⟨S_, .f32⟩
  | 82 => ⟨S100000, .f32⟩
  | 83 => ⟨S800000x1, .i32⟩
  | 84 => ⟨S100000, .f32⟩
  | 85 => ⟨S_, .f32⟩
  | 86 => ⟨S100000, .f32⟩
  | 87 => ⟨S800000x1, .i32⟩
  | 88 => ⟨S100000, .f32⟩
  | 89 => ⟨S_, .f32⟩
  | 90 => ⟨S100000, .f32⟩
  | 91 => ⟨S100000, .f32⟩
  | 92 => ⟨S_, .f32⟩
  | 93 => ⟨S100000, .f32⟩
  | 94 => ⟨S100000, .f32⟩
  | 95 => ⟨S_, .f32⟩
  | 96 => ⟨S100000, .f32⟩
  | 97 => ⟨S100000, .f32⟩
  | 98 => ⟨S_, .f32⟩
  | 99 => ⟨S100000, .f32⟩
  | 100 => ⟨S100000, .f32⟩
  | 101 => ⟨S100000x64, .f32⟩
  | 102 => ⟨S100000x1, .f32⟩
  | 103 => ⟨S100000x64, .f32⟩
  | 104 => ⟨S100000x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S_, .f32⟩
  | 115 => ⟨S100000x64, .f32⟩
  | 116 => ⟨S800000x1, .i32⟩
  | 117 => ⟨S100000x64, .f32⟩
  | 118 => ⟨S100000x1, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S800000, .f32⟩
  | 126 => ⟨S_, .f32⟩
  | 127 => ⟨S100000, .f32⟩
  | _ => ⟨S100000x256, .f32⟩

abbrev hbmTy0_2 (i : Nat) : BufTy := match i % 128 with
  | 0 => ⟨S800000x1, .i32⟩
  | 1 => ⟨S100000, .f32⟩
  | 2 => ⟨S_, .f32⟩
  | 3 => ⟨S100000, .f32⟩
  | 4 => ⟨S800000x1, .i32⟩
  | 5 => ⟨S100000, .f32⟩
  | 6 => ⟨S_, .f32⟩
  | 7 => ⟨S100000, .f32⟩
  | 8 => ⟨S100000, .f32⟩
  | 9 => ⟨S_, .f32⟩
  | 10 => ⟨S100000, .f32⟩
  | 11 => ⟨S100000, .f32⟩
  | 12 => ⟨S_, .f32⟩
  | 13 => ⟨S100000, .f32⟩
  | 14 => ⟨S100000, .f32⟩
  | 15 => ⟨S_, .f32⟩
  | 16 => ⟨S100000, .f32⟩
  | 17 => ⟨S100000, .f32⟩
  | 18 => ⟨S100000x64, .f32⟩
  | 19 => ⟨S100000x1, .f32⟩
  | 20 => ⟨S100000x64, .f32⟩
  | 21 => ⟨S100000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S100000x64, .f32⟩
  | 33 => ⟨S800000x1, .i32⟩
  | 34 => ⟨S100000x64, .f32⟩
  | 35 => ⟨S100000x1, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S100000x64, .f32⟩
  | 42 => ⟨S1x100000x64, .f32⟩
  | 43 => ⟨S1x100000x64, .f32⟩
  | 44 => ⟨S2x100000x64, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_cst_3 : Ref sig .tc := ⟨.hbm, 33, rfl⟩
abbrev main_v9 : Ref sig .tc := ⟨.hbm, 34, rfl⟩
abbrev main_v10 : Ref sig .tc := ⟨.hbm, 35, rfl⟩
abbrev main_cst_4 : Ref sig .tc := ⟨.hbm, 36, rfl⟩
abbrev main_v11 : Ref sig .tc := ⟨.hbm, 37, rfl⟩
abbrev main_v12 : Ref sig .tc := ⟨.hbm, 38, rfl⟩
abbrev main_cst_5 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_6 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_8 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_11 : Ref sig .tc := ⟨.hbm, 75, rfl⟩
abbrev main_v42 : Ref sig .tc := ⟨.hbm, 76, rfl⟩
abbrev main_v43 : Ref sig .tc := ⟨.hbm, 77, rfl⟩
abbrev main_cst_12 : Ref sig .tc := ⟨.hbm, 78, rfl⟩
abbrev main_v44 : Ref sig .tc := ⟨.hbm, 79, rfl⟩
abbrev main_v45 : Ref sig .tc := ⟨.hbm, 80, rfl⟩
abbrev main_cst_13 : Ref sig .tc := ⟨.hbm, 81, rfl⟩
abbrev main_v46 : Ref sig .tc := ⟨.hbm, 82, rfl⟩
abbrev main_v47 : Ref sig .tc := ⟨.hbm, 83, rfl⟩
abbrev main_cst_14 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_15 : Ref sig .tc := ⟨.hbm, 91, rfl⟩
abbrev main_v54 : Ref sig .tc := ⟨.hbm, 92, rfl⟩
abbrev main_v55 : Ref sig .tc := ⟨.hbm, 93, rfl⟩
abbrev main_c_16 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_17 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_v70 : Ref sig .tc := ⟨.hbm, 111, rfl⟩
abbrev main_cst_19 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_20 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_21 : Ref sig .tc := ⟨.hbm, 120, rfl⟩
abbrev main_v77 : Ref sig .tc := ⟨.hbm, 121, rfl⟩
abbrev main_v78 : Ref sig .tc := ⟨.hbm, 122, rfl⟩
abbrev main_cst_22 : Ref sig .tc := ⟨.hbm, 123, rfl⟩
abbrev main_v79 : Ref sig .tc := ⟨.hbm, 124, rfl⟩
abbrev main_v80 : Ref sig .tc := ⟨.hbm, 125, rfl⟩
abbrev main_cst_23 : Ref sig .tc := ⟨.hbm, 126, rfl⟩
abbrev main_v81 : Ref sig .tc := ⟨.hbm, 127, rfl⟩
abbrev main_v82 : Ref sig .tc := ⟨.hbm, 128, rfl⟩
abbrev main_cst_24 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_25 : Ref sig .tc := ⟨.hbm, 136, rfl⟩
abbrev main_v89 : Ref sig .tc := ⟨.hbm, 137, rfl⟩
abbrev main_v90 : Ref sig .tc := ⟨.hbm, 138, rfl⟩
abbrev main_c_26 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_27 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call0_cst : Ref sig .tc := ⟨.hbm, 156, rfl⟩
abbrev main_call0_v0 : Ref sig .tc := ⟨.hbm, 157, rfl⟩
abbrev main_v106 : Ref sig .tc := ⟨.hbm, 158, rfl⟩
abbrev main_call1_cst : Ref sig .tc := ⟨.hbm, 159, rfl⟩
abbrev main_call1_v0 : Ref sig .tc := ⟨.hbm, 160, rfl⟩
abbrev main_v107 : Ref sig .tc := ⟨.hbm, 161, rfl⟩
abbrev main_cst_28 : Ref sig .tc := ⟨.hbm, 162, rfl⟩
abbrev main_v108 : Ref sig .tc := ⟨.hbm, 163, rfl⟩
abbrev main_cst_29 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_30 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_31 : Ref sig .tc := ⟨.hbm, 172, rfl⟩
abbrev main_v115 : Ref sig .tc := ⟨.hbm, 173, rfl⟩
abbrev main_v116 : Ref sig .tc := ⟨.hbm, 174, rfl⟩
abbrev main_cst_32 : Ref sig .tc := ⟨.hbm, 175, rfl⟩
abbrev main_v117 : Ref sig .tc := ⟨.hbm, 176, rfl⟩
abbrev main_v118 : Ref sig .tc := ⟨.hbm, 177, rfl⟩
abbrev main_cst_33 : Ref sig .tc := ⟨.hbm, 178, rfl⟩
abbrev main_v119 : Ref sig .tc := ⟨.hbm, 179, rfl⟩
abbrev main_v120 : Ref sig .tc := ⟨.hbm, 180, rfl⟩
abbrev main_cst_34 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_c_35 : Ref sig .tc := ⟨.hbm, 188, rfl⟩
abbrev main_v127 : Ref sig .tc := ⟨.hbm, 189, rfl⟩
abbrev main_v128 : Ref sig .tc := ⟨.hbm, 190, rfl⟩
abbrev main_c_36 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_37 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_38 : Ref sig .tc := ⟨.hbm, 207, rfl⟩
abbrev main_v143 : Ref sig .tc := ⟨.hbm, 208, rfl⟩
abbrev main_cst_39 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_40 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_41 : Ref sig .tc := ⟨.hbm, 217, rfl⟩
abbrev main_v150 : Ref sig .tc := ⟨.hbm, 218, rfl⟩
abbrev main_v151 : Ref sig .tc := ⟨.hbm, 219, rfl⟩
abbrev main_cst_42 : Ref sig .tc := ⟨.hbm, 220, rfl⟩
abbrev main_v152 : Ref sig .tc := ⟨.hbm, 221, rfl⟩
abbrev main_v153 : Ref sig .tc := ⟨.hbm, 222, rfl⟩
abbrev main_cst_43 : Ref sig .tc := ⟨.hbm, 223, rfl⟩
abbrev main_v154 : Ref sig .tc := ⟨.hbm, 224, rfl⟩
abbrev main_v155 : Ref sig .tc := ⟨.hbm, 225, rfl⟩
abbrev main_cst_44 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_c_45 : Ref sig .tc := ⟨.hbm, 233, rfl⟩
abbrev main_v162 : Ref sig .tc := ⟨.hbm, 234, rfl⟩
abbrev main_v163 : Ref sig .tc := ⟨.hbm, 235, rfl⟩
abbrev main_c_46 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_cst_47 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_48 : Ref sig .tc := ⟨.hbm, 252, rfl⟩
abbrev main_v178 : Ref sig .tc := ⟨.hbm, 253, rfl⟩
abbrev main_cst_49 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_cst_50 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_cst_51 : Ref sig .tc := ⟨.hbm, 262, rfl⟩
abbrev main_v185 : Ref sig .tc := ⟨.hbm, 263, rfl⟩
abbrev main_v186 : Ref sig .tc := ⟨.hbm, 264, rfl⟩
abbrev main_cst_52 : Ref sig .tc := ⟨.hbm, 265, rfl⟩
abbrev main_v187 : Ref sig .tc := ⟨.hbm, 266, rfl⟩
abbrev main_v188 : Ref sig .tc := ⟨.hbm, 267, rfl⟩
abbrev main_cst_53 : Ref sig .tc := ⟨.hbm, 268, rfl⟩
abbrev main_v189 : Ref sig .tc := ⟨.hbm, 269, rfl⟩
abbrev main_v190 : Ref sig .tc := ⟨.hbm, 270, rfl⟩
abbrev main_cst_54 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_c_55 : Ref sig .tc := ⟨.hbm, 278, rfl⟩
abbrev main_v197 : Ref sig .tc := ⟨.hbm, 279, rfl⟩
abbrev main_v198 : Ref sig .tc := ⟨.hbm, 280, rfl⟩
abbrev main_c_56 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_cst_57 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x64_S1x100000x64_1_2 : S100000x64.BroadcastsInDim S1x100000x64 (![1, 2] : Fin 2 → Fin S1x100000x64.rank)
  concatenates_S1x100000x64_S1x100000x64_S2x100000x64_d0 : Shape.Concatenates [S1x100000x64, S1x100000x64] S2x100000x64 0
  scatter_S100000_S800000x1_S800000_n_0_0_1_wf : ScatterDims.WF S100000 S800000x1 S800000 [] [0] [0] 1
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.KernelRun.lean ====
/-
  The idealized kernel program's run with its result named. The program is nine stretches of host operations around
  eight grid regions; every weakly fair execution from a launch memory `m` terminates, and in its final state the
  result array holds what the last stretch leaves of it, `W17 m ρ c` at the result's buffer — the fold of the nine
  stretches and the eight regions' write-backs over `m` — while the twenty argument arrays hold what they were launched
  with. The argument's form is the frame's: the same segments, the same chain of thread states, with the result's
  buffer read off the last thread state beside the arguments'.
-/
import proofs.«181625_j69492570849588_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and every argument array as launched. -/
theorem run_result : θ_run defs (onTc (τ := τ) (main (F := F))) ⟨m, fun _ => 0, ρ⟩ (fun r => ∀ c : Dev nD,
      r.2.mem ((c.tc : Thread nD τ).loc main_v0) = W17 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v0 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c)⟩)

end Cert.KernelIdeal.Hand

end
-- ==== Proof.LibGraphConv.lean ====
/-
  The four whole-array functions a two-layer graph convolution is made of, each stated entry by entry on the extended
  reals, over arrays of literal rank 2 whose extents are parameters. Nothing here depends on a program.

  * `colOf p q`        : column `q` of an `M × 2` array, kept as an `M × 1` array;
  * `scaledProd x w d` : the dense transform scaled row by row, entry `(i, j)` is `(∑ₖ x(i,k) · w(k,j)) · d(i,0)`;
  * `scaleBias a d b`  : the aggregate scaled row by row plus a bias row, entry `(i, j)` is `a(i,j) · d(i,0) + b(0,j)`;
  * `scaleBias2 …`     : two such terms summed from left to right,
                          `((a₁(i,j) · p(i,0) + b₁(0,j)) + a₂(i,j) · p(i,1)) + b₂(0,j)`;
  * `reluOf y`         : the entrywise maximum with zero.
  The two-term sum regrouped as a sum of two one-term sums is `scaleBias2_eq_add`: addition of extended reals is
  associative, so no finiteness is needed.
-/
import Idealize.ShloMosaic.Lib.ValueIdx
import Idealize.ShloMosaic.PureOps.Ideal.Laws

noncomputable section

open scoped BigOperators

namespace Cert.KernelIdeal.Hand

open Idealize.ShloMosaic Idealize.ShloMosaic.ValueIdx

/-- Column `q` of an `M × 2` array, as an `M × 1` array. -/
def colOf {M : Nat} (p : (⟨2, ![M, 2]⟩ : Shape).Idx → EReal) (q : Fin 2) : (⟨2, ![M, 1]⟩ : Shape).Idx → EReal :=
  fun i => p (ix2 (i 0) q)

/-- The product `x · w` with row `i` scaled by `d(i, 0)`. -/
def scaledProd {M K N : Nat} (x : (⟨2, ![M, K]⟩ : Shape).Idx → EReal) (w : (⟨2, ![K, N]⟩ : Shape).Idx → EReal)
    (d : (⟨2, ![M, 1]⟩ : Shape).Idx → EReal) : (⟨2, ![M, N]⟩ : Shape).Idx → EReal :=
  fun j => (∑ k : Fin K, x (ix2 (j 0) k) * w (ix2 k (j 1))) * d (ix2 (j 0) 0)

/-- Row `i` of `a` scaled by `d(i, 0)`, plus the bias row `b`. -/
def scaleBias {M N : Nat} (a : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun j => a j * d (ix2 (j 0) 0) + b (ix2 0 (j 1))

/-- Two scaled aggregates and their bias rows, summed from left to right; `p` packs the two scale columns. -/
def scaleBias2 {M N : Nat} (a₁ a₂ : (⟨2, ![M, N]⟩ : Shape).Idx → EReal) (p : (⟨2, ![M, 2]⟩ : Shape).Idx → EReal)
    (b₁ b₂ : (⟨2, ![1, N]⟩ : Shape).Idx → EReal) : (⟨2, ![M, N]⟩ : Shape).Idx → EReal :=
  fun j => ((a₁ j * p (ix2 (j 0) 0) + b₁ (ix2 0 (j 1))) + a₂ j * p (ix2 (j 0) 1)) + b₂ (ix2 0 (j 1))

/-- The entrywise maximum with zero. -/
def reluOf {s : Shape} (y : s.Idx → EReal) : s.Idx → EReal := fun j => max (y j) 0

/-- Summing left to right is summing the two one-term expressions: associativity of `+` on the extended reals. -/
theorem scaleBias2_eq_add {M N : Nat} (a₁ a₂ : (⟨2, ![M, N]⟩ : Shape).Idx → EReal) (p : (⟨2, ![M, 2]⟩ : Shape).Idx → EReal)
    (b₁ b₂ : (⟨2, ![1, N]⟩ : Shape).Idx → EReal) :
    scaleBias2 a₁ a₂ p b₁ b₂ = fun j => scaleBias a₁ (colOf p 0) b₁ j + scaleBias a₂ (colOf p 1) b₂ j := by
  funext j
  show ((a₁ j * p (ix2 (j 0) 0) + b₁ (ix2 0 (j 1))) + a₂ j * p (ix2 (j 0) 1)) + b₂ (ix2 0 (j 1))
     = (a₁ j * p (ix2 (j 0) 0) + b₁ (ix2 0 (j 1))) + (a₂ j * p (ix2 (j 0) 1) + b₂ (ix2 0 (j 1)))
  exact add_assoc _ _ _

end Cert.KernelIdeal.Hand

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibHostForms.lean ====
/-
  The host's whole-array operations, composed as a two-layer graph convolution composes them and read entry by entry on
  the extended reals. Each lemma says that one such composition is one of the entrywise functions `colOf`, `scaledProd`,
  `scaleBias`, `scaleBias2`, `reluOf`; nothing here depends on a program, and every side condition of an operation is a
  variable of the lemma that uses it.

  * a vector of `M` entries reshaped to an `M × 1` column, or of `N` entries to a `1 × N` row, is the broadcast of the
    vector along that axis (`shapeCast_col_eq`, `shapeCast_row_eq`), and the column broadcast reads the vector's entry
    at the row (`broadcastInDim_col_apply`);
  * an `M × 1` column broadcast across `N` columns reads the column's entry at the row (`broadcastInDim_oneCol_apply`);
  * the matrix product times a broadcast column is `scaledProd` (`hostScaledProd_eq`);
  * an array times a broadcast column plus a broadcast row is `scaleBias` (`hostScaleBias_eq`), and the sum of two such
    terms whose columns are the two columns of one `M × 2` array is `scaleBias2` (`hostSum2_eq`);
  * the maximum with the broadcast zero constant is `reluOf` (`hostRelu_eq`);
  * two `M × 1` columns concatenated along axis 1 are read back by `colOf` (`colOf_concat_zero`, `colOf_concat_one`);
  * widening a format is the identity on extended reals (`extf_bf16_id`).
-/
import proofs.«181625_j69492570849588_2_alg».proof.Proof.LibGraphConv
import proofs.«181625_j69492570849588_2_alg».proof.Proof.LibMatmulAt
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

open scoped BigOperators

namespace Cert.KernelIdeal.Hand

open Idealize.ShloMosaic Idealize.ShloMosaic.ValueIdx

/-- Widening a 16-bit format to the 32-bit one is the identity on extended reals. -/
theorem extf_bf16_id {s : Shape} (x : FVec Ideal s .bf16) (h : FTy.bf16.bits < FTy.f32.bits) :
    (extf .f32 x h : FVec Ideal s .f32) = x := rfl

/-- The entrywise maximum with the broadcast zero constant is the entrywise maximum with zero: the zero word denotes 0. -/
theorem hostRelu_eq {s : Shape} (y : FVec Ideal s .f32) (h : (⟨0, ![]⟩ : Shape).BroadcastsInDim s ![]) :
    maximumf y (broadcastInDim s ![] h (constant (F := Ideal) ⟨0, ![]⟩ .f32 0x00000000#32)) = reluOf y := by
  funext j
  show max (y j) (Ideal.ofBits .f32 0x00000000#32) = max (y j) 0
  rw [Ideal.ofBits_zero_f32]

/-- A vector of `M` entries broadcast to an `M × 1` column along axis 0, read at `(a, z)`, is the vector's entry `a`. -/
theorem broadcastInDim_col_apply {α : Type} {M : Nat}
    (h : (⟨1, ![M]⟩ : Shape).BroadcastsInDim ⟨2, ![M, 1]⟩ ![0]) (v : (⟨1, ![M]⟩ : Shape).Idx → α) (a : Fin M) (z : Fin 1) :
    broadcastInDim ⟨2, ![M, 1]⟩ ![0] h v (ix2 a z) = v (ix1 a) := by
  refine broadcastInDim_apply ![0] h v (ix2 a z) (ix1 a) ?_
  intro c
  match c with
  | ⟨0, _⟩ =>
    show a.val = if M = 1 then 0 else a.val
    split
    · have := a.isLt; omega
    · rfl

/-- A reshape of a vector of `M` entries to an `M × 1` column is the broadcast of the vector along axis 0. -/
theorem shapeCast_col_eq {α : Type} {M : Nat} (hc : (⟨1, ![M]⟩ : Shape).ShapeCasts ⟨2, ![M, 1]⟩)
    (h : (⟨1, ![M]⟩ : Shape).BroadcastsInDim ⟨2, ![M, 1]⟩ ![0]) (v : (⟨1, ![M]⟩ : Shape).Idx → α) :
    shapeCast ⟨2, ![M, 1]⟩ v hc = broadcastInDim ⟨2, ![M, 1]⟩ ![0] h v := by
  funext j
  obtain ⟨a, z, rfl⟩ : ∃ (a : Fin M) (z : Fin 1), j = ix2 a z := ⟨j 0, j 1, eq_ix2 j⟩
  have e1 := shapeCast_apply v hc (ix2 a z) (ix1 a) (by
    rw [Shape.rowMajor_val_one, Shape.rowMajor_val_two]
    show a.val = a.val * 1 + z.val
    have := z.isLt; omega)
  exact e1.trans (broadcastInDim_col_apply h v a z).symm

/-- A reshape of a vector of `N` entries to a `1 × N` row is the broadcast of the vector along axis 1. -/
theorem shapeCast_row_eq {α : Type} {N : Nat} (hc : (⟨1, ![N]⟩ : Shape).ShapeCasts ⟨2, ![1, N]⟩)
    (h : (⟨1, ![N]⟩ : Shape).BroadcastsInDim ⟨2, ![1, N]⟩ ![1]) (b : (⟨1, ![N]⟩ : Shape).Idx → α) :
    shapeCast ⟨2, ![1, N]⟩ b hc = broadcastInDim ⟨2, ![1, N]⟩ ![1] h b := by
  funext j
  obtain ⟨z, c, rfl⟩ : ∃ (z : Fin 1) (c : Fin N), j = ix2 z c := ⟨j 0, j 1, eq_ix2 j⟩
  obtain rfl : z = 0 := Subsingleton.elim _ _
  have e1 := shapeCast_apply b hc (ix2 (0 : Fin 1) c) (ix1 c) (by
    rw [Shape.rowMajor_val_one, Shape.rowMajor_val_two]
    show c.val = 0 * N + c.val
    omega)
  have e2 := broadcastInDim_apply ![1] h b (ix2 (0 : Fin 1) c) (ix1 c) (by
    intro d
    match d with
    | ⟨0, _⟩ =>
      show c.val = if N = 1 then 0 else c.val
      split
      · have := c.isLt; omega
      · rfl)
  exact e1.trans e2.symm

/-- An `M × 1` column broadcast across `N` columns, read at `(a, c)`, is the column's entry at row `a`. -/
theorem broadcastInDim_oneCol_apply {α : Type} {M N : Nat}
    (h : (⟨2, ![M, 1]⟩ : Shape).BroadcastsInDim ⟨2, ![M, N]⟩ ![0, 1]) (col : (⟨2, ![M, 1]⟩ : Shape).Idx → α)
    (a : Fin M) (c : Fin N) :
    broadcastInDim ⟨2, ![M, N]⟩ ![0, 1] h col (ix2 a c) = col (ix2 a (0 : Fin 1)) := by
  refine broadcastInDim_apply ![0, 1] h col (ix2 a c) (ix2 a (0 : Fin 1)) ?_
  intro d
  match d with
  | ⟨0, _⟩ =>
    show a.val = if M = 1 then 0 else a.val
    split
    · have := a.isLt; omega
    · rfl
  | ⟨1, _⟩ =>
    show (0 : ℕ) = if (1 : ℕ) = 1 then 0 else c.val
    simp

/-- An array times a column broadcast across its columns, plus a row broadcast down its rows, is `scaleBias`. -/
theorem hostScaleBias_eq {M N : Nat} (a : FVec Ideal ⟨2, ![M, N]⟩ .f32)
    (h : (⟨2, ![M, 1]⟩ : Shape).BroadcastsInDim ⟨2, ![M, N]⟩ ![0, 1]) (col : FVec Ideal ⟨2, ![M, 1]⟩ .f32)
    (hb : (⟨2, ![1, N]⟩ : Shape).BroadcastsInDim ⟨2, ![M, N]⟩ ![0, 1]) (brow : FVec Ideal ⟨2, ![1, N]⟩ .f32) :
    addf (mulf a (broadcastInDim ⟨2, ![M, N]⟩ ![0, 1] h col)) (broadcastInDim ⟨2, ![M, N]⟩ ![0, 1] hb brow)
      = scaleBias a col brow := by
  funext j
  obtain ⟨r, c, rfl⟩ : ∃ (r : Fin M) (c : Fin N), j = ix2 r c := ⟨j 0, j 1, eq_ix2 j⟩
  show a (ix2 r c) * broadcastInDim ⟨2, ![M, N]⟩ ![0, 1] h col (ix2 r c)
      + broadcastInDim ⟨2, ![M, N]⟩ ![0, 1] hb brow (ix2 r c)
    = a (ix2 r c) * col (ix2 r (0 : Fin 1)) + brow (ix2 (0 : Fin 1) c)
  rw [broadcastInDim_oneCol_apply h col r c, broadcastInDim_oneRow_apply hb brow r c]

/-- The matrix product times a column broadcast across its columns is `scaledProd`. -/
theorem hostScaledProd_eq {M K N : Nat} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (h : (⟨2, ![M, 1]⟩ : Shape).BroadcastsInDim ⟨2, ![M, N]⟩ ![0, 1]) (col : FVec Ideal ⟨2, ![M, 1]⟩ .f32) :
    mulf (Host.dotGeneral d prec x w) (broadcastInDim ⟨2, ![M, N]⟩ ![0, 1] h col) = scaledProd x w col := by
  funext j
  obtain ⟨r, c, rfl⟩ : ∃ (r : Fin M) (c : Fin N), j = ix2 r c := ⟨j 0, j 1, eq_ix2 j⟩
  show Host.dotGeneral d prec x w (ix2 r c) * broadcastInDim ⟨2, ![M, N]⟩ ![0, 1] h col (ix2 r c)
    = (∑ k : Fin K, x (ix2 r k) * w (ix2 k c)) * col (ix2 r (0 : Fin 1))
  rw [broadcastInDim_oneCol_apply h col r c, dotGeneral_plain_apply' d hd prec x w (ix2 r c)]
  rfl

/-- Two `scaleBias` terms whose scale columns are the two columns of one `M × 2` array, added, are `scaleBias2`. -/
theorem hostSum2_eq {M N : Nat} (a₁ a₂ : FVec Ideal ⟨2, ![M, N]⟩ .f32) (p : FVec Ideal ⟨2, ![M, 2]⟩ .f32)
    (b₁ b₂ : FVec Ideal ⟨2, ![1, N]⟩ .f32) :
    addf (F := Ideal) (s := ⟨2, ![M, N]⟩) (φ := .f32) (scaleBias a₁ (colOf p 0) b₁) (scaleBias a₂ (colOf p 1) b₂)
      = scaleBias2 a₁ a₂ p b₁ b₂ :=
  (scaleBias2_eq_add a₁ a₂ p b₁ b₂).symm

/-- Two `M × 1` columns concatenated along axis 1: column 0 of the result is the first. -/
theorem colOf_concat_zero {M : Nat} (a b : (⟨2, ![M, 1]⟩ : Shape).Idx → EReal)
    (hc : Shape.Concatenates (([⟨⟨2, ![M, 1]⟩, a⟩, ⟨⟨2, ![M, 1]⟩, b⟩] : List ((s : Shape) × (s.Idx → EReal))).map (·.1))
      ⟨2, ![M, 2]⟩ 1) :
    colOf (concatenate ⟨2, ![M, 2]⟩ 1 [⟨⟨2, ![M, 1]⟩, a⟩, ⟨⟨2, ![M, 1]⟩, b⟩] hc) 0 = a := by
  funext i
  obtain ⟨r, z, rfl⟩ : ∃ (r : Fin M) (z : Fin 1), i = ix2 r z := ⟨i 0, i 1, eq_ix2 i⟩
  show concatenate ⟨2, ![M, 2]⟩ 1 [⟨⟨2, ![M, 1]⟩, a⟩, ⟨⟨2, ![M, 1]⟩, b⟩] hc (ix2 r (0 : Fin 2)) = a (ix2 r z)
  have hc' : Shape.Concatenates [⟨2, ![M, 1]⟩, ⟨2, ![M, 1]⟩] ⟨2, ![M, 2]⟩ 1 := hc
  refine concatenate_pair_apply_left (t := ⟨2, ![M, 2]⟩) 1 a b hc' (ix2 r (0 : Fin 2)) rfl (ix2 r z) ?_
  intro c
  match c with
  | ⟨0, _⟩ => rfl
  | ⟨1, _⟩ =>
    show z.val = 0
    have := z.isLt; omega

/-- Two `M × 1` columns concatenated along axis 1: column 1 of the result is the second. -/
theorem colOf_concat_one {M : Nat} (a b : (⟨2, ![M, 1]⟩ : Shape).Idx → EReal)
    (hc : Shape.Concatenates (([⟨⟨2, ![M, 1]⟩, a⟩, ⟨⟨2, ![M, 1]⟩, b⟩] : List ((s : Shape) × (s.Idx → EReal))).map (·.1))
      ⟨2, ![M, 2]⟩ 1) :
    colOf (concatenate ⟨2, ![M, 2]⟩ 1 [⟨⟨2, ![M, 1]⟩, a⟩, ⟨⟨2, ![M, 1]⟩, b⟩] hc) 1 = b := by
  funext i
  obtain ⟨r, z, rfl⟩ : ∃ (r : Fin M) (z : Fin 1), i = ix2 r z := ⟨i 0, i 1, eq_ix2 i⟩
  show concatenate ⟨2, ![M, 2]⟩ 1 [⟨⟨2, ![M, 1]⟩, a⟩, ⟨⟨2, ![M, 1]⟩, b⟩] hc (ix2 r (1 : Fin 2)) = b (ix2 r z)
  have hc' : Shape.Concatenates [⟨2, ![M, 1]⟩, ⟨2, ![M, 1]⟩] ⟨2, ![M, 2]⟩ 1 := hc
  refine concatenate_pair_apply_right (t := ⟨2, ![M, 2]⟩) 1 a b hc' (ix2 r (1 : Fin 2)) rfl rfl (ix2 r z) ?_ ?_
  · intro c hne
    match c, hne with
    | ⟨0, _⟩, _ => rfl
    | ⟨1, _⟩, hne => exact absurd rfl hne
  · show z.val + 1 = 1
    have := z.isLt; omega

end Cert.KernelIdeal.Hand

end
-- ==== Proof.Region0.lean ====
/-
  Region 0: the dual dense transform of the first layer. Row block t (rows 4000·t … 4000·t + 3999) of the two outputs is
  computed from row block t of x (all 256 columns), the whole of the two 256 × 128 weight matrices, and row block t of the
  packed 100000 × 2 scale array: entry (i, j) of the first output is (∑ₖ x(i,k) · w₁(k,j)) · p(i,0), of the second
  (∑ₖ x(i,k) · w₂(k,j)) · p(i,1). So an entry of an output depends on row i of x, column j of its weight matrix and
  row i of the packed scales only; the 25 row blocks tile the 100000 rows.
-/
import proofs.«181625_j69492570849588_2_alg».proof.Proof.Gen.KernelIdeal.Frame
import proofs.«181625_j69492570849588_2_alg».proof.Proof.LibGraphConv
import proofs.«181625_j69492570849588_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

/-- An `[a, 1]` column broadcast to `[a, b]` reads, at `(p, c)`, the column's entry of row `p`. -/
theorem region0_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem region0_zero_offsets : (![0, 0] : Fin 2 → Nat) = fun _ => 0 := funext fun a => by fin_cases a <;> rfl

/-- The first output's payload at an index: the row of the x block against the column of w₁, times the row's scale. -/
theorem region0_pay2_apply (x0 : Vec Ideal S4000x256 .f32) (x1 : Vec Ideal S256x128 .f32) (x2 : Vec Ideal S4000x1 .f32)
    (p : Fin 4000) (q : Fin 128) :
    k0_pay2 x0 x1 x2 (ix2 p q) = (∑ k : Fin 256, x0 (ix2 p k) * x1 (ix2 k q)) * x2 (ix2 p (0 : Fin 1)) := by
  unfold k0_pay2 k0_pay1
  show matmul dot_S4000x256_S256x128_S4000x128_1_0_0_1_n_n none (truncf .bf16 x0 bitsLt_bf16_f32) (truncf .bf16 x1 bitsLt_bf16_f32)
        (constant (F := Ideal) S4000x128 .f32 0x00000000#32) (ix2 p q)
      * broadcastTo S4000x128 (shapeCast S4000x1 x2 shapeCasts_S4000x1_S4000x1) broadcasts_S4000x1_S4000x128 (ix2 p q) = _
  refine congrArg₂ (fun a b : EReal => a * b) ?_ ?_
  · exact matmul_zero_plain_apply dot_S4000x256_S256x128_S4000x128_1_0_0_1_n_n rfl none
      (truncf .bf16 x0 bitsLt_bf16_f32) (truncf .bf16 x1 bitsLt_bf16_f32) (ix2 p q)
  · refine (region0_broadcastTo_a1_ab_apply _ broadcasts_S4000x1_S4000x128 p q).trans ?_
    exact congrFun (shapeCast_self x2 shapeCasts_S4000x1_S4000x1) (ix2 p (0 : Fin 1))

/-- The second output's payload at an index: the same row against the column of w₂, times the row's second scale. -/
theorem region0_pay3_apply (x0 : Vec Ideal S4000x256 .f32) (x1 : Vec Ideal S256x128 .f32) (x2 : Vec Ideal S4000x1 .f32)
    (p : Fin 4000) (q : Fin 128) :
    k0_pay3 x0 x1 x2 (ix2 p q) = (∑ k : Fin 256, x0 (ix2 p k) * x1 (ix2 k q)) * x2 (ix2 p (0 : Fin 1)) := by
  unfold k0_pay3 k0_pay1
  show matmul dot_S4000x256_S256x128_S4000x128_1_0_0_1_n_n none (truncf .bf16 x0 bitsLt_bf16_f32) (truncf .bf16 x1 bitsLt_bf16_f32)
        (constant (F := Ideal) S4000x128 .f32 0x00000000#32) (ix2 p q)
      * broadcastTo S4000x128 (shapeCast S4000x1 x2 shapeCasts_S4000x1_S4000x1) broadcasts_S4000x1_S4000x128 (ix2 p q) = _
  refine congrArg₂ (fun a b : EReal => a * b) ?_ ?_
  · exact matmul_zero_plain_apply dot_S4000x256_S256x128_S4000x128_1_0_0_1_n_n rfl none
      (truncf .bf16 x0 bitsLt_bf16_f32) (truncf .bf16 x1 bitsLt_bf16_f32) (ix2 p q)
  · refine (region0_broadcastTo_a1_ab_apply _ broadcasts_S4000x1_S4000x128 p q).trans ?_
    exact congrFun (shapeCast_self x2 shapeCasts_S4000x1_S4000x1) (ix2 p (0 : Fin 1))

variable (V : (c : Dev nD) → (b : Ref sig .tc) → Buf (Elt Ideal) ((c : Thread nD τ).loc b)) (c : Dev nD)

/-- The printed index maps over the 25 grid points: the x block, the packed scale block and the two output blocks sit at
    row block `t`, column block 0; the weight matrices are their one block. -/
theorem region0_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back to the first output is row block `t` of the scaled product of x and w₁. -/
theorem region0_flushed4_eq (t : Fin cfg0.N) :
    (dat0 (F := Ideal) V c).flushed 4 t = ((cfg0.win 4).blk t).view.read (Elt Ideal)
      (scaledProd (V c (Pipeline.arrRef spec0 0)) (V c (Pipeline.arrRef spec0 1)) (colOf (V c (Pipeline.arrRef spec0 3)) 0)) := by
  show (cfg0.win 4).cut (grid0.coords t) ((dat0 V c).after 4 t) = _
  rw [after0_4]
  unfold out0_4
  rw [View.canon_unit_zero region0_zero_offsets]
  simp only [View.ld_unit_zero (S := S4000x256) region0_zero_offsets, View.ld_unit_zero (S := S256x128) region0_zero_offsets]
  obtain ⟨e00, e01, e10, e11, e20, e21, e30, e31, e40, e41, e50, e51⟩ := region0_index_facts t
  funext j
  obtain ⟨p, q, rfl⟩ : ∃ (p : Fin 4000) (q : Fin 128), j = ix2 p q := ⟨j 0, j 1, eq_ix2 j⟩
  show k0_pay2 (iblk0 V c 0 t) (iblk0 V c 1 t) (View.ld (iblk0 V c 3 t) r0_2) (ix2 p q)
     = scaledProd (V c (Pipeline.arrRef spec0 0)) (V c (Pipeline.arrRef spec0 1)) (colOf (V c (Pipeline.arrRef spec0 3)) 0)
        (((cfg0.win 4).blk t).view.emb (ix2 p q))
  refine (region0_pay2_apply (iblk0 V c 0 t) (iblk0 V c 1 t) (View.ld (iblk0 V c 3 t) r0_2) p q).trans ?_
  refine congrArg₂ (fun a b : EReal => a * b)
    (Finset.sum_congr rfl fun k _ => congrArg₂ (fun a b : EReal => a * b) ?_ ?_) ?_
  · show (V c (Pipeline.arrRef spec0 0) : S100000x256.Idx → EReal) (((cfg0.win 0).blk t).view.emb (ix2 p k)) = _
    refine congrArg _ (funext fun a => Fin.ext ?_)
    match a with
    | ⟨0, _⟩ => show win0_0.index t (0 : Fin 2) * 4000 + 1 * p.val = win0_4.index t (0 : Fin 2) * 4000 + 1 * p.val; omega
    | ⟨1, _⟩ => show win0_0.index t (1 : Fin 2) * 256 + 1 * k.val = k.val; omega
  · show (V c (Pipeline.arrRef spec0 1) : S256x128.Idx → EReal) (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = win0_4.index t (1 : Fin 2) * 128 + 1 * q.val; omega
  · show (V c (Pipeline.arrRef spec0 3) : S100000x2.Idx → EReal) (((cfg0.win 3).blk t).view.emb (r0_2.idx (ix2 p (0 : Fin 1)))) = _
    refine congrArg _ (funext fun a => Fin.ext ?_)
    match a with
    | ⟨0, _⟩ => show win0_3.index t (0 : Fin 2) * 4000 + 1 * (0 + 1 * p.val) = win0_4.index t (0 : Fin 2) * 4000 + 1 * p.val; omega
    | ⟨1, _⟩ => show win0_3.index t (1 : Fin 2) * 2 + 1 * (0 + 1 * 0) = 0; omega

/-- What point `t` writes back to the second output is row block `t` of the scaled product of x and w₂. -/
theorem region0_flushed5_eq (t : Fin cfg0.N) :
    (dat0 (F := Ideal) V c).flushed 5 t = ((cfg0.win 5).blk t).view.read (Elt Ideal)
      (scaledProd (V c (Pipeline.arrRef spec0 0)) (V c (Pipeline.arrRef spec0 2)) (colOf (V c (Pipeline.arrRef spec0 3)) 1)) := by
  show (cfg0.win 5).cut (grid0.coords t) ((dat0 V c).after 5 t) = _
  rw [after0_5]
  unfold out0_5
  rw [View.canon_unit_zero region0_zero_offsets]
  simp only [View.ld_unit_zero (S := S4000x256) region0_zero_offsets, View.ld_unit_zero (S := S256x128) region0_zero_offsets]
  obtain ⟨e00, e01, e10, e11, e20, e21, e30, e31, e40, e41, e50, e51⟩ := region0_index_facts t
  funext j
  obtain ⟨p, q, rfl⟩ : ∃ (p : Fin 4000) (q : Fin 128), j = ix2 p q := ⟨j 0, j 1, eq_ix2 j⟩
  show k0_pay3 (iblk0 V c 0 t) (iblk0 V c 2 t) (View.ld (iblk0 V c 3 t) r0_3) (ix2 p q)
     = scaledProd (V c (Pipeline.arrRef spec0 0)) (V c (Pipeline.arrRef spec0 2)) (colOf (V c (Pipeline.arrRef spec0 3)) 1)
        (((cfg0.win 5).blk t).view.emb (ix2 p q))
  refine (region0_pay3_apply (iblk0 V c 0 t) (iblk0 V c 2 t) (View.ld (iblk0 V c 3 t) r0_3) p q).trans ?_
  refine congrArg₂ (fun a b : EReal => a * b)
    (Finset.sum_congr rfl fun k _ => congrArg₂ (fun a b : EReal => a * b) ?_ ?_) ?_
  · show (V c (Pipeline.arrRef spec0 0) : S100000x256.Idx → EReal) (((cfg0.win 0).blk t).view.emb (ix2 p k)) = _
    refine congrArg _ (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 256 + 1 * k.val = k.val; omega
  · show (V c (Pipeline.arrRef spec0 2) : S256x128.Idx → EReal) (((cfg0.win 2).blk t).view.emb (ix2 k q)) = _
    refine congrArg _ (funext fun a => Fin.ext ?_)
    match a with
    | ⟨0, _⟩ => show win0_2.index t (0 : Fin 2) * 256 + 1 * k.val = k.val; omega
    | ⟨1, _⟩ => show win0_2.index t (1 : Fin 2) * 128 + 1 * q.val = win0_5.index t (1 : Fin 2) * 128 + 1 * q.val; omega
  · show (V c (Pipeline.arrRef spec0 3) : S100000x2.Idx → EReal) (((cfg0.win 3).blk t).view.emb (r0_3.idx (ix2 p (0 : Fin 1)))) = _
    refine congrArg _ (funext fun a => Fin.ext ?_)
    match a with
    | ⟨0, _⟩ => show win0_3.index t (0 : Fin 2) * 4000 + 1 * (0 + 1 * p.val) = win0_5.index t (0 : Fin 2) * 4000 + 1 * p.val; omega
    | ⟨1, _⟩ => show win0_3.index t (1 : Fin 2) * 2 + 1 * (1 + 1 * 0) = 1; omega

/-- An index of the first output is in point `t`'s block iff each coordinate is in the block's range on its axis. -/
theorem region0_mem_blk4 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_call0_v51_0).slice (win0_4.rect t)).set ↔ _
  rw [View.set_slice_whole, Rect.mem_set_unit]
  exact Iff.rfl

/-- The same for the second output. -/
theorem region0_mem_blk5 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_call0_v51_1).slice (win0_5.rect t)).set ↔ _
  rw [View.set_slice_whole, Rect.mem_set_unit]
  exact Iff.rfl

/-- Row `r` of the first output is in the block of point `r / 4000`: the 25 row blocks tile the array. -/
theorem region0_cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨-, -, -, -, -, -, -, -, e40, e41, -, -⟩ := region0_index_facts t
  refine ⟨t, flush0_4 t, ?_⟩
  rw [region0_mem_blk4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The same for the second output. -/
theorem region0_cover5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show (i 0).val / 4000 < grid0.N; rw [N_0]; omega⟩, rfl⟩
  obtain ⟨-, -, -, -, -, -, -, -, -, -, e50, e51⟩ := region0_index_facts t
  refine ⟨t, flush0_5 t, ?_⟩
  rw [region0_mem_blk5]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- After the region the first output array is the product of x and w₁ with row `i` scaled by the packed scales' column 0. -/
theorem region0_out4 : (dat0 (F := Ideal) V c).arrAt 4 cfg0.N
    = scaledProd (V c (Pipeline.arrRef spec0 0)) (V c (Pipeline.arrRef spec0 1)) (colOf (V c (Pipeline.arrRef spec0 3)) 0) :=
  (dat0 V c).arrAt_eq_of_cover 4 _ (fun t _ => region0_flushed4_eq V c t) region0_cover4

/-- After the region the second output array is the product of x and w₂ with row `i` scaled by the packed scales' column 1. -/
theorem region0_out5 : (dat0 (F := Ideal) V c).arrAt 5 cfg0.N
    = scaledProd (V c (Pipeline.arrRef spec0 0)) (V c (Pipeline.arrRef spec0 2)) (colOf (V c (Pipeline.arrRef spec0 3)) 1) :=
  (dat0 V c).arrAt_eq_of_cover 5 _ (fun t _ => region0_flushed5_eq V c t) region0_cover5

end Cert.KernelIdeal.Hand

end
-- ==== Proof.Region1.lean ====
/-
  Region 1, the dense transform of the first layer. The grid has 25 points; point `t` holds rows `4000 t … 4000 t + 3999` of
  the first operand `x` (100000 × 128), the whole second operand `w` (128 × 128), and the same rows of the scale column `d`
  (100000 × 1), and writes the same rows of the output (100000 × 128). Entry `(r, q)` of the output depends on row `r` of `x`,
  column `q` of `w` and entry `(r, 0)` of `d` only: it is `(∑ₖ x(r,k) · w(k,q)) · d(r,0)`, the sum over the 128 contracted
  coordinates. The 25 row blocks tile the 100000 rows (row `r` is in block `r / 4000`), so after the region the output array
  is that one function of the three input arrays.
-/
import proofs.«181625_j69492570849588_2_alg».proof.Proof.Gen.KernelIdeal.Frame
import proofs.«181625_j69492570849588_2_alg».proof.Proof.LibGraphConv
import proofs.«181625_j69492570849588_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen

/-- The body's payload read at an entry: row `j 0` of the first operand against column `j 1` of the second, summed over the
    128 contracted coordinates, times the scale column's entry of row `j 0`. -/
theorem region1_payload (x0 : Vec Ideal S4000x128 .f32) (x1 : Vec Ideal S128x128 .f32) (x2 : Vec Ideal S4000x1 .f32)
    (j : S4000x128.Idx) :
    k1_pay1 x0 x1 x2 j = (∑ k : Fin 128, x0 (ix2 (j 0) k) * x1 (ix2 k (j 1))) * x2 (ix2 (j 0) 0) := by
  unfold k1_pay1
  show (matmul dot_S4000x128_S128x128_S4000x128_1_0_0_1_n_n none (truncf .bf16 x0 bitsLt_bf16_f32) (truncf .bf16 x1 bitsLt_bf16_f32)
          (constant (F := Ideal) S4000x128 .f32 0x00000000#32) j)
        * (broadcastTo S4000x128 (shapeCast S4000x1 x2 shapeCasts_S4000x1_S4000x1) broadcasts_S4000x1_S4000x128 j) = _
  rw [shapeCast_self]
  have hb : broadcastTo S4000x128 x2 broadcasts_S4000x1_S4000x128 j = x2 (ix2 (j 0) 0) := by
    refine broadcastTo_apply x2 broadcasts_S4000x1_S4000x128 j (ix2 (j 0) 0) fun ax => ?_
    match ax with
    | ⟨0, _⟩ => rfl
    | ⟨1, _⟩ => rfl
  rw [hb]
  refine congrArg (· * x2 (ix2 (j 0) 0)) ?_
  exact matmul_zero_plain_apply dot_S4000x128_S128x128_S4000x128_1_0_0_1_n_n rfl none (truncf .bf16 x0 bitsLt_bf16_f32) (truncf .bf16 x1 bitsLt_bf16_f32) j

variable (V : (c : Dev nD) → (b : Ref sig .tc) → Buf (Elt Ideal) ((c : Thread nD τ).loc b)) (c : Dev nD)

/-- The blocks' offsets are all zero. -/
theorem region1_zero_offsets : (![0, 0] : Fin 2 → Nat) = fun _ => 0 := funext fun a => by fin_cases a <;> rfl

/-- The printed index maps over the grid: the row blocks of the first operand, of the scale column and of the output move with
    the grid point; the second operand is one block; no window moves along the columns. -/
theorem region1_index : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = t.val ∧ win1_2.index t (1 : Fin 2) = 0
  ∧ win1_3.index t (0 : Fin 2) = t.val ∧ win1_3.index t (1 : Fin 2) = 0 :=
  (by decide +kernel : ∀ t : Fin grid1.N, _)

/-- The four blocks at point `t` sit where the output's block says: entry `j` of the product of the blocks, scaled, is the
    whole-array function at the output block's entry `j` (row `4000 t + j 0`, column `j 1`). -/
theorem region1_reads (X : S100000x128.Idx → EReal) (W : S128x128.Idx → EReal) (D : S100000x1.Idx → EReal)
    (t : Fin cfg1.N) (j : S4000x128.Idx) :
    (∑ k : Fin 128, X (((cfg1.win 0).blk t).view.emb (ix2 (j 0) k : S4000x128.Idx))
          * W (((cfg1.win 1).blk t).view.emb (ix2 k (j 1) : S128x128.Idx)))
        * D (((cfg1.win 2).blk t).view.emb (ix2 (j 0) (0 : Fin 1) : S4000x1.Idx))
      = scaledProd X W D (((cfg1.win 3).blk t).view.emb j) := by
  obtain ⟨a0, a1, b0, b1, d0, d1, o0, o1⟩ := region1_index t
  have e0 : ∀ k : Fin 128, (((cfg1.win 0).blk t).view.emb (ix2 (j 0) k : S4000x128.Idx) : S100000x128.Idx)
      = ix2 ((((cfg1.win 3).blk t).view.emb j : S100000x128.Idx) 0) k := fun k => by
    funext a; apply Fin.ext
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 128 + 1 * k.val = k.val; omega
  have e1 : ∀ k : Fin 128, (((cfg1.win 1).blk t).view.emb (ix2 k (j 1) : S128x128.Idx) : S128x128.Idx)
      = ix2 k ((((cfg1.win 3).blk t).view.emb j : S100000x128.Idx) 1) := fun k => by
    funext a; apply Fin.ext
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  have e2 : (((cfg1.win 2).blk t).view.emb (ix2 (j 0) (0 : Fin 1) : S4000x1.Idx) : S100000x1.Idx)
      = ix2 ((((cfg1.win 3).blk t).view.emb j : S100000x128.Idx) 0) (0 : Fin 1) := by
    funext a; apply Fin.ext
    match a with
    | ⟨0, _⟩ => show win1_2.index t (0 : Fin 2) * 4000 + 1 * (j 0).val = win1_3.index t (0 : Fin 2) * 4000 + 1 * (j 0).val; omega
    | ⟨1, _⟩ => show win1_2.index t (1 : Fin 2) * 1 + 1 * 0 = 0; omega
  show _ = (∑ k : Fin 128, X (ix2 ((((cfg1.win 3).blk t).view.emb j : S100000x128.Idx) 0) k)
          * W (ix2 k ((((cfg1.win 3).blk t).view.emb j : S100000x128.Idx) 1)))
        * D (ix2 ((((cfg1.win 3).blk t).view.emb j : S100000x128.Idx) 0) (0 : Fin 1))
  rw [e2]
  refine congrArg (· * _) (Finset.sum_congr rfl fun k _ => ?_)
  exact congrArg₂ (· * ·) (congrArg X (e0 k)) (congrArg W (e1 k))

/-- Entry `j` of what point `t` computes from its blocks. -/
theorem region1_block_entry (t : Fin cfg1.N) (j : S4000x128.Idx) :
    k1_pay1 (iblk1 V c 0 t) (iblk1 V c 1 t) (iblk1 V c 2 t) j
      = scaledProd (V c (Pipeline.arrRef spec1 0)) (V c (Pipeline.arrRef spec1 1)) (V c (Pipeline.arrRef spec1 2))
          (((cfg1.win 3).blk t).view.emb j) :=
  (region1_payload (iblk1 V c 0 t) (iblk1 V c 1 t) (iblk1 V c 2 t) j).trans
    (region1_reads (V c (Pipeline.arrRef spec1 0)) (V c (Pipeline.arrRef spec1 1)) (V c (Pipeline.arrRef spec1 2)) t j)

/-- What point `t` writes back is block `t` of the whole-array function. -/
theorem region1_flushed (t : Fin cfg1.N) :
    (dat1 (F := Ideal) V c).flushed 3 t = ((cfg1.win 3).blk t).view.read (Elt Ideal)
      (scaledProd (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero region1_zero_offsets]
  simp only [View.ld_unit_zero (S := S4000x128) region1_zero_offsets, View.ld_unit_zero (S := S128x128) region1_zero_offsets,
    View.ld_unit_zero (S := S4000x1) region1_zero_offsets]
  funext j
  exact region1_block_entry V c t j

/-- An index of the output array is in point `t`'s block iff each coordinate is in the block's range on its axis. -/
theorem region1_mem_blk (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_call0_v53).slice (win1_3.rect t)).set ↔ _
  rw [View.set_slice_whole, Rect.mem_set_unit]
  exact Iff.rfl

/-- Every index of the output array is in the block of the point its row falls to: row `r` is in block `r / 4000`. -/
theorem region1_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 25 := N_1
  obtain ⟨t, ht⟩ : ∃ t : Fin cfg1.N, t.val = (i 0).val / 4000 :=
    ⟨⟨(i 0).val / 4000, by show (i 0).val / 4000 < grid1.N; omega⟩, rfl⟩
  obtain ⟨-, -, -, -, -, -, o0, o1⟩ := region1_index t
  refine ⟨t, flush1_3 t, ?_⟩
  rw [region1_mem_blk]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 128 ≤ (i 1).val ∧ (i 1).val < win1_3.index t (1 : Fin 2) * 128 + 128
    omega

/-- The output array after the region: the first operand times the second, each row scaled by the scale column's entry. -/
theorem region1_out3 : (dat1 (F := Ideal) V c).arrAt 3 cfg1.N
    = scaledProd (V c (Pipeline.arrRef spec1 0)) (V c (Pipeline.arrRef spec1 1)) (V c (Pipeline.arrRef spec1 2)) :=
  (dat1 (F := Ideal) V c).arrAt_eq_of_cover 3 _ (fun t _ => region1_flushed V c t) region1_cover

end Cert.KernelIdeal.Hand

end
-- ==== Proof.Region2.lean ====
/-
  Region 2, the first layer's scale-and-bias step with the maximum against zero, as one function of its three input
  arrays. The aggregate `a` is 100000 × 128, the scale column `d` is 100000 × 1, the bias row `b` is 1 × 128, and
  the output `y` is 100000 × 128. The 25 grid points each take one block of 4000 consecutive rows of `a`, of `d` and
  of `y` (point `t` takes rows `4000 t … 4000 t + 3999`) and the whole of `b`. Entry `(R, q)` of the output depends
  on entry `(R, q)` of `a`, on entry `(R, 0)` of `d` and on entry `(0, q)` of `b` only:

      y(R, q) = max (a(R, q) · d(R, 0) + b(0, q)) 0.

  The steps: the body's value at an entry of its block (`region2_relu_apply`, `region2_relu_point`); each input block as
  rows of its array (`region2_agg_block_apply`, `region2_scale_block_apply`, `region2_bias_block_apply`); what a point writes back is its block
  of the function (`region2_flushed`); the 25 blocks tile the rows (`region2_cover`); the array after the run
  (`region2_out3`).
-/
import proofs.«181625_j69492570849588_2_alg».proof.Proof.Gen.KernelIdeal.Frame
import proofs.«181625_j69492570849588_2_alg».proof.Proof.LibGraphConv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

theorem region2_zero_offsets : (![0, 0] : Fin 2 → Nat) = fun _ => 0 := funext fun a => by fin_cases a <;> rfl

/-- A column of 4000 entries spread over 128 columns reads its row's entry. -/
theorem region2_col_spread_apply (h : S4000x1.Broadcasts S4000x128) (x : Vec Ideal S4000x1 .f32) (r : Fin 4000) (q : Fin 128) :
    broadcastTo S4000x128 x h (ix2 r q) = x (ix2 r 0) := by
  refine broadcastTo_apply x h (ix2 r q) (ix2 r 0) fun a => ?_
  match a with
  | ⟨0, _⟩ => rfl
  | ⟨1, _⟩ => rfl

/-- A row of 128 entries spread over 4000 rows reads its column's entry. -/
theorem region2_row_spread_apply (h : S1x128.Broadcasts S4000x128) (x : Vec Ideal S1x128 .f32) (r : Fin 4000) (q : Fin 128) :
    broadcastTo S4000x128 x h (ix2 r q) = x (ix2 0 q) := by
  refine broadcastTo_apply x h (ix2 r q) (ix2 0 q) fun a => ?_
  match a with
  | ⟨0, _⟩ => rfl
  | ⟨1, _⟩ => rfl

/-- The body's value at row `r`, column `q` of its block: the aggregate entry times the row's scale plus the column's
    bias, then the maximum with zero. -/
theorem region2_relu_apply (x0 : Vec Ideal S4000x128 .f32) (x1 : Vec Ideal S4000x1 .f32) (x2 : Vec Ideal S1x128 .f32) (r : Fin 4000) (q : Fin 128) :
    k2_pay1 x0 x1 x2 (ix2 r q) = max (x0 (ix2 r q) * x1 (ix2 r 0) + x2 (ix2 0 q)) 0 := by
  unfold k2_pay1
  rw [shapeCast_self, shapeCast_self, shapeCast_self]
  show max (x0 (ix2 r q) * broadcastTo S4000x128 x1 _ (ix2 r q) + broadcastTo S4000x128 x2 _ (ix2 r q)) (Ideal.ofBits .f32 0x00000000#32) = _
  rw [region2_col_spread_apply, region2_row_spread_apply, Ideal.ofBits_zero_f32]

/-- When the three blocks hold row `R` of the aggregate and of the scale column and the bias row, the body's value at
    `(r, q)` is the whole-array function at `(R, q)`. -/
theorem region2_relu_point (A : S100000x128.Idx → EReal) (D : S100000x1.Idx → EReal) (B : S1x128.Idx → EReal)
    (x0 : Vec Ideal S4000x128 .f32) (x1 : Vec Ideal S4000x1 .f32) (x2 : Vec Ideal S1x128 .f32) (r : Fin 4000) (q : Fin 128) (R : Fin 100000)
    (h0 : x0 (ix2 r q) = A (ix2 R q)) (h1 : x1 (ix2 r 0) = D (ix2 R 0)) (h2 : x2 (ix2 0 q) = B (ix2 0 q)) :
    k2_pay1 x0 x1 x2 (ix2 r q) = reluOf (scaleBias A D B) (ix2 R q) := by
  refine (region2_relu_apply x0 x1 x2 r q).trans ?_
  rw [h0, h1, h2]
  rfl

/-- The index maps over the 25 grid points: the aggregate, the scale column and the output move together, one block of
    4000 rows per point; the bias row stays. -/
theorem region2_index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregate's block at point `t` holds rows `4000 t … 4000 t + 3999`. -/
theorem region2_agg_block_apply (t : Fin cfg2.N) (r : Fin 4000) (q : Fin 128) (R : Fin 100000) (hR : R.val = t.val * 4000 + r.val) :
    (iblk2 V c 0 t : Vec Ideal S4000x128 .f32) (ix2 r q) = (V c (Pipeline.arrRef spec2 0) : S100000x128.Idx → EReal) (ix2 R q) := by
  obtain ⟨e0, e1, -⟩ := region2_index_facts t
  unfold iblk2
  rw [View.read_apply]
  show (V c (Pipeline.arrRef spec2 0) : S100000x128.Idx → EReal) _ = _
  congr 1
  funext a
  apply Fin.ext
  match a with
  | ⟨0, _⟩ => show win2_0.index t (0 : Fin 2) * 4000 + 1 * r.val = R.val; rw [e0, hR]; omega
  | ⟨1, _⟩ => show win2_0.index t (1 : Fin 2) * 128 + 1 * q.val = q.val; rw [e1]; omega

/-- The scale column's block at point `t` holds the same rows. -/
theorem region2_scale_block_apply (t : Fin cfg2.N) (r : Fin 4000) (R : Fin 100000) (hR : R.val = t.val * 4000 + r.val) :
    (iblk2 V c 1 t : Vec Ideal S4000x1 .f32) (ix2 r 0) = (V c (Pipeline.arrRef spec2 1) : S100000x1.Idx → EReal) (ix2 R 0) := by
  obtain ⟨-, -, e2, e3, -⟩ := region2_index_facts t
  unfold iblk2
  rw [View.read_apply]
  show (V c (Pipeline.arrRef spec2 1) : S100000x1.Idx → EReal) _ = _
  congr 1
  funext a
  apply Fin.ext
  match a with
  | ⟨0, _⟩ => show win2_1.index t (0 : Fin 2) * 4000 + 1 * r.val = R.val; rw [e2, hR]; omega
  | ⟨1, _⟩ => show win2_1.index t (1 : Fin 2) * 1 + 1 * 0 = 0; rw [e3]

/-- The bias row's block at every point is the whole row. -/
theorem region2_bias_block_apply (t : Fin cfg2.N) (q : Fin 128) :
    (iblk2 V c 2 t : Vec Ideal S1x128 .f32) (ix2 0 q) = (V c (Pipeline.arrRef spec2 2) : S1x128.Idx → EReal) (ix2 0 q) := by
  obtain ⟨-, -, -, -, e4, e5, -⟩ := region2_index_facts t
  unfold iblk2
  rw [View.read_apply]
  show (V c (Pipeline.arrRef spec2 2) : S1x128.Idx → EReal) _ = _
  congr 1
  funext a
  apply Fin.ext
  match a with
  | ⟨0, _⟩ => show win2_2.index t (0 : Fin 2) * 1 + 1 * 0 = 0; rw [e4]
  | ⟨1, _⟩ => show win2_2.index t (1 : Fin 2) * 128 + 1 * q.val = q.val; rw [e5]; omega

/-- What grid point `t` writes back is block `t` of the whole-array function. -/
theorem region2_flushed (t : Fin cfg2.N) :
    (dat2 (F := Ideal) V c).flushed 3 t = ((cfg2.win 3).blk t).view.read (Elt Ideal)
      (reluOf (scaleBias (V c (Pipeline.arrRef spec2 0) : S100000x128.Idx → EReal) (V c (Pipeline.arrRef spec2 1) : S100000x1.Idx → EReal)
        (V c (Pipeline.arrRef spec2 2) : S1x128.Idx → EReal))) := by
  show (cfg2.win 3).cut (grid2.coords t) ((dat2 V c).after 3 t) = _
  rw [after2_3]
  unfold out2_3
  rw [View.canon_unit_zero region2_zero_offsets]
  simp only [View.ld_unit_zero (S := S4000x128) region2_zero_offsets, View.ld_unit_zero (S := S4000x1) region2_zero_offsets,
    View.ld_unit_zero (S := S1x128) region2_zero_offsets]
  obtain ⟨-, -, -, -, -, -, e6, e7⟩ := region2_index_facts t
  have ht : t.val < 25 := lt_of_lt_of_eq t.isLt (N_2 : cfg2.N = 25)
  refine funext fun (j : S4000x128.Idx) => ?_
  obtain ⟨r, q, rfl⟩ : ∃ (r : Fin 4000) (q : Fin 128), j = ix2 r q := ⟨j 0, j 1, eq_ix2 j⟩
  have hr : r.val < 4000 := r.isLt
  have hemb : ((cfg2.win 3).blk t).view.emb (ix2 r q) = (ix2 (⟨t.val * 4000 + r.val, by omega⟩ : Fin 100000) q : S100000x128.Idx) := by
    funext a; apply Fin.ext
    match a with
    | ⟨0, _⟩ => show win2_3.index t (0 : Fin 2) * 4000 + 1 * r.val = t.val * 4000 + r.val; rw [e6]; omega
    | ⟨1, _⟩ => show win2_3.index t (1 : Fin 2) * 128 + 1 * q.val = q.val; rw [e7]; omega
  exact (region2_relu_point _ _ _ _ _ _ r q _ (region2_agg_block_apply V c t r q _ rfl) (region2_scale_block_apply V c t r _ rfl) (region2_bias_block_apply V c t q)).trans
    (congrArg (reluOf (scaleBias (V c (Pipeline.arrRef spec2 0) : S100000x128.Idx → EReal) (V c (Pipeline.arrRef spec2 1) : S100000x1.Idx → EReal)
        (V c (Pipeline.arrRef spec2 2) : S1x128.Idx → EReal))) hemb).symm

/-- An index of the array is in point `t`'s block iff each coordinate is in the block's range on its axis. -/
theorem region2_mem_blk (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_call0_v89).slice (win2_3.rect t)).set ↔ _
  rw [View.set_slice_whole, Rect.mem_set_unit]
  exact Iff.rfl

/-- Row `R` of the array is in the block of point `R / 4000`: the 25 blocks of 4000 rows tile the 100000 rows. -/
theorem region2_cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 4000 :=
    ⟨⟨(i 0).val / 4000, lt_of_lt_of_eq (by omega : (i 0).val / 4000 < 25) (N_2 : cfg2.N = 25).symm⟩, rfl⟩
  obtain ⟨-, -, -, -, -, -, e6, e7⟩ := region2_index_facts t
  refine ⟨t, flush2_3 t, ?_⟩
  rw [region2_mem_blk]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-- After the run the output array holds, at row `R` and column `q`, the maximum with zero of the aggregate's entry
    `(R, q)` times the scale of row `R` plus the bias of column `q`. -/
theorem region2_out3 : (dat2 (F := Ideal) V c).arrAt 3 cfg2.N
    = reluOf (scaleBias (V c (Pipeline.arrRef spec2 0)) (V c (Pipeline.arrRef spec2 1)) (V c (Pipeline.arrRef spec2 2))) :=
  (dat2 (F := Ideal) V c).arrAt_eq_of_cover 3 _ (fun t _ => region2_flushed V c t) region2_cover

end Cert.KernelIdeal.Hand

end
-- ==== Proof.Region3.lean ====
/-
  Region 3 of the two-layer graph convolution: the second post-aggregation step of layer one.

  The output array has 100000 rows of 128 entries. Entry (i, j) depends on row i of the two aggregate arrays (at
  column j), on row i of the packed scale array (its two columns 0 and 1), and on column j of the two bias rows:

      out(i, j) = max ( ((a₁(i,j) · p(i,0) + b₁(0,j)) + a₂(i,j) · p(i,1)) + b₂(0,j) , 0 ).

  The run visits 25 grid points; point t computes rows 4000·t … 4000·t + 3999 from the same rows of the aggregates and of
  the packed scales and from the whole bias rows, and the 25 row blocks tile the array.
-/
import proofs.«181625_j69492570849588_2_alg».proof.Proof.Gen.KernelIdeal.Frame
import proofs.«181625_j69492570849588_2_alg».proof.Proof.LibGraphConv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Cert.KernelIdeal Cert.KernelIdeal.Gen
open Idealize.ShloMosaic.Pipeline (Dat)

/-! ## The body's arithmetic at one entry of a block -/

/-- The offsets of a whole-block rectangle are zero on both axes. -/
theorem region3_zero_offsets : (![0, 0] : Fin 2 → Nat) = fun _ => 0 := funext fun a => by fin_cases a <;> rfl

/-- A scale column [4000,1] broadcast along the 128 columns, read at (r, q), is the column at row r. -/
theorem region3_bcast_col (x : Vec Ideal S4000x1 .f32) (r : Fin 4000) (q : Fin 128) :
    broadcastTo S4000x128 x broadcasts_S4000x1_S4000x128 (ix2 r q) = x (ix2 r 0) :=
  broadcastTo_apply x broadcasts_S4000x1_S4000x128 (ix2 r q) (ix2 r 0) (fun a => match a with
    | ⟨0, _⟩ => rfl
    | ⟨1, _⟩ => rfl)

/-- A bias row [1,128] broadcast along the 4000 rows, read at (r, q), is the row at column q. -/
theorem region3_bcast_row (x : Vec Ideal S1x128 .f32) (r : Fin 4000) (q : Fin 128) :
    broadcastTo S4000x128 x broadcasts_S1x128_S4000x128 (ix2 r q) = x (ix2 0 q) :=
  broadcastTo_apply x broadcasts_S1x128_S4000x128 (ix2 r q) (ix2 0 q) (fun a => match a with
    | ⟨0, _⟩ => rfl
    | ⟨1, _⟩ => rfl)

/-- The stored value at entry (r, q) of a block: the two scaled aggregates and their bias rows summed from left to
    right, then the maximum with zero. -/
theorem region3_payload (p0 p1 : Vec Ideal S4000x1 .f32) (a1 : Vec Ideal S4000x128 .f32) (b1 : Vec Ideal S1x128 .f32)
    (a2 : Vec Ideal S4000x128 .f32) (b2 : Vec Ideal S1x128 .f32) (r : Fin 4000) (q : Fin 128) :
    k3_pay1 p0 p1 a1 b1 a2 b2 (ix2 r q)
      = max (((a1 (ix2 r q) * p0 (ix2 r 0) + b1 (ix2 0 q)) + a2 (ix2 r q) * p1 (ix2 r 0)) + b2 (ix2 0 q)) 0 := by
  unfold k3_pay1
  simp only [shapeCast_self]
  show max (((a1 (ix2 r q) * broadcastTo S4000x128 p0 broadcasts_S4000x1_S4000x128 (ix2 r q)
        + broadcastTo S4000x128 b1 broadcasts_S1x128_S4000x128 (ix2 r q))
        + a2 (ix2 r q) * broadcastTo S4000x128 p1 broadcasts_S4000x1_S4000x128 (ix2 r q))
        + broadcastTo S4000x128 b2 broadcasts_S1x128_S4000x128 (ix2 r q)) (Ideal.ofBits .f32 0x00000000#32) = _
  rw [region3_bcast_col p0 r q, region3_bcast_col p1 r q, region3_bcast_row b1 r q, region3_bcast_row b2 r q, Ideal.ofBits_zero_f32]

/-- Column q of the packed [4000,2] block, loaded as a [4000,1] column, read at row r. -/
theorem region3_ld_col0 (x : Vec Ideal S4000x2 .f32) (r : Fin 4000) : View.ld x r3_0 (ix2 r 0) = x (ix2 r 0) := by
  show x (r3_0.idx (ix2 r 0)) = x (ix2 r 0)
  refine congrArg x (funext fun a => Fin.ext ?_)
  match a with
  | ⟨0, _⟩ => show 0 + 1 * r.val = r.val; omega
  | ⟨1, _⟩ => rfl

theorem region3_ld_col1 (x : Vec Ideal S4000x2 .f32) (r : Fin 4000) : View.ld x r3_1 (ix2 r 0) = x (ix2 r 1) := by
  show x (r3_1.idx (ix2 r 0)) = x (ix2 r 1)
  refine congrArg x (funext fun a => Fin.ext ?_)
  match a with
  | ⟨0, _⟩ => show 0 + 1 * r.val = r.val; omega
  | ⟨1, _⟩ => rfl

/-- What the body leaves in the output block, entry by entry, from the five input blocks. -/
theorem region3_out_apply (x0 x1 : Vec Ideal S4000x128 .f32) (x2 : Vec Ideal S4000x2 .f32) (x3 x4 : Vec Ideal S1x128 .f32)
    (r : Fin 4000) (q : Fin 128) :
    out3_5 x0 x1 x2 x3 x4 (ix2 r q)
      = max (((x0 (ix2 r q) * x2 (ix2 r 0) + x3 (ix2 0 q)) + x1 (ix2 r q) * x2 (ix2 r 1)) + x4 (ix2 0 q)) 0 := by
  unfold out3_5
  rw [View.canon_unit_zero region3_zero_offsets]
  simp only [View.ld_unit_zero (S := S4000x128) region3_zero_offsets, View.ld_unit_zero (S := S1x128) region3_zero_offsets]
  refine (region3_payload (View.ld x2 r3_0) (View.ld x2 r3_1) x0 x3 x1 x4 r q).trans ?_
  rw [region3_ld_col0 x2 r, region3_ld_col1 x2 r]

/-! ## From blocks to the array -/

section Blocks

variable (V : (c : Dev nD) → (b : Ref sig .tc) → Buf (Elt Ideal) ((c : Thread nD τ).loc b)) (c : Dev nD)

/-- The printed index maps over the grid: the two aggregate windows, the packed scale window and the output window are at
    row block t of point t and column block 0; the two bias windows stay at block (0, 0). -/
theorem region3_index_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0) :=
  (by decide +kernel : ∀ t : Fin grid3.N, _)

/-- Aggregate 1's block at point t is rows 4000·t … 4000·t + 3999 of its array. -/
theorem region3_blk0 (t : Fin cfg3.N) (x : S4000x128.Idx) (k : S100000x128.Idx)
    (hk0 : (k 0).val = 4000 * t.val + (x 0).val) (hk1 : (k 1).val = (x 1).val) :
    (iblk3 V c 0 t : Vec Ideal S4000x128 .f32) x = (V c (Pipeline.arrRef spec3 0) : S100000x128.Idx → EReal) k := by
  obtain ⟨⟨e0, e1⟩, -⟩ := region3_index_facts t
  unfold iblk3
  rw [View.read_apply]
  refine congrArg (V c (Pipeline.arrRef spec3 0) : S100000x128.Idx → EReal) (funext fun a => Fin.ext ?_)
  match a with
  | ⟨0, _⟩ => show win3_0.index t 0 * 4000 + 1 * (x 0).val = (k 0).val; rw [e0, hk0]; omega
  | ⟨1, _⟩ => show win3_0.index t 1 * 128 + 1 * (x 1).val = (k 1).val; rw [e1, hk1]; omega

/-- Aggregate 2's block at point t is the same rows of its array. -/
theorem region3_blk1 (t : Fin cfg3.N) (x : S4000x128.Idx) (k : S100000x128.Idx)
    (hk0 : (k 0).val = 4000 * t.val + (x 0).val) (hk1 : (k 1).val = (x 1).val) :
    (iblk3 V c 1 t : Vec Ideal S4000x128 .f32) x = (V c (Pipeline.arrRef spec3 1) : S100000x128.Idx → EReal) k := by
  obtain ⟨-, ⟨e0, e1⟩, -⟩ := region3_index_facts t
  unfold iblk3
  rw [View.read_apply]
  refine congrArg (V c (Pipeline.arrRef spec3 1) : S100000x128.Idx → EReal) (funext fun a => Fin.ext ?_)
  match a with
  | ⟨0, _⟩ => show win3_1.index t 0 * 4000 + 1 * (x 0).val = (k 0).val; rw [e0, hk0]; omega
  | ⟨1, _⟩ => show win3_1.index t 1 * 128 + 1 * (x 1).val = (k 1).val; rw [e1, hk1]; omega

/-- The packed scales' block at point t is the same rows of the [100000,2] array, both columns. -/
theorem region3_blk2 (t : Fin cfg3.N) (x : S4000x2.Idx) (k : S100000x2.Idx)
    (hk0 : (k 0).val = 4000 * t.val + (x 0).val) (hk1 : (k 1).val = (x 1).val) :
    (iblk3 V c 2 t : Vec Ideal S4000x2 .f32) x = (V c (Pipeline.arrRef spec3 2) : S100000x2.Idx → EReal) k := by
  obtain ⟨-, -, ⟨e0, e1⟩, -⟩ := region3_index_facts t
  unfold iblk3
  rw [View.read_apply]
  refine congrArg (V c (Pipeline.arrRef spec3 2) : S100000x2.Idx → EReal) (funext fun a => Fin.ext ?_)
  match a with
  | ⟨0, _⟩ => show win3_2.index t 0 * 4000 + 1 * (x 0).val = (k 0).val; rw [e0, hk0]; omega
  | ⟨1, _⟩ => show win3_2.index t 1 * 2 + 1 * (x 1).val = (k 1).val; rw [e1, hk1]; omega

/-- Each bias window's block at every point is the whole bias row. -/
theorem region3_blk3 (t : Fin cfg3.N) (x : S1x128.Idx) :
    (iblk3 V c 3 t : Vec Ideal S1x128 .f32) x = (V c (Pipeline.arrRef spec3 3) : S1x128.Idx → EReal) x := by
  obtain ⟨-, -, -, ⟨e0, e1⟩, -⟩ := region3_index_facts t
  unfold iblk3
  rw [View.read_apply]
  refine congrArg (V c (Pipeline.arrRef spec3 3) : S1x128.Idx → EReal) (funext fun a => Fin.ext ?_)
  match a with
  | ⟨0, _⟩ => show win3_3.index t 0 * 1 + 1 * (x 0).val = (x 0).val; rw [e0]; omega
  | ⟨1, _⟩ => show win3_3.index t 1 * 128 + 1 * (x 1).val = (x 1).val; rw [e1]; omega

theorem region3_blk4 (t : Fin cfg3.N) (x : S1x128.Idx) :
    (iblk3 V c 4 t : Vec Ideal S1x128 .f32) x = (V c (Pipeline.arrRef spec3 4) : S1x128.Idx → EReal) x := by
  obtain ⟨-, -, -, -, ⟨e0, e1⟩, -⟩ := region3_index_facts t
  unfold iblk3
  rw [View.read_apply]
  refine congrArg (V c (Pipeline.arrRef spec3 4) : S1x128.Idx → EReal) (funext fun a => Fin.ext ?_)
  match a with
  | ⟨0, _⟩ => show win3_4.index t 0 * 1 + 1 * (x 0).val = (x 0).val; rw [e0]; omega
  | ⟨1, _⟩ => show win3_4.index t 1 * 128 + 1 * (x 1).val = (x 1).val; rw [e1]; omega

/-- The whole output array as one function of the five input arrays. -/
abbrev region3_G : S100000x128.Idx → EReal :=
  reluOf (scaleBias2 (M := 100000) (N := 128)
    (V c (Pipeline.arrRef spec3 0) : S100000x128.Idx → EReal) (V c (Pipeline.arrRef spec3 1) : S100000x128.Idx → EReal)
    (V c (Pipeline.arrRef spec3 2) : S100000x2.Idx → EReal)
    (V c (Pipeline.arrRef spec3 3) : S1x128.Idx → EReal) (V c (Pipeline.arrRef spec3 4) : S1x128.Idx → EReal))

/-- Two functions on a [4000,128] block agree when they agree at every (r, q). -/
theorem region3_funext {α : Type} (f g : S4000x128.Idx → α) (h : ∀ (r : Fin 4000) (q : Fin 128), f (ix2 r q) = g (ix2 r q)) :
    f = g := funext fun j => by rw [eq_ix2 j]; exact h (j 0) (j 1)

/-- What point t writes back is block t of the whole-array function. -/
theorem region3_flushed_eq (t : Fin cfg3.N) :
    (dat3 (F := Ideal) V c).flushed 5 t = ((cfg3.win 5).blk t).view.read (Elt Ideal) (region3_G V c) := by
  show (cfg3.win 5).cut (grid3.coords t) ((dat3 (F := Ideal) V c).after 5 t) = _
  rw [after3_5]
  obtain ⟨-, -, -, -, -, ⟨e0, e1⟩⟩ := region3_index_facts t
  refine region3_funext _ _ (fun r q => ?_)
  refine (region3_out_apply (iblk3 V c 0 t) (iblk3 V c 1 t) (iblk3 V c 2 t) (iblk3 V c 3 t) (iblk3 V c 4 t) r q).trans ?_
  rw [View.read_apply]
  have hr : r.val < 4000 := r.isLt
  have ht : t.val < 25 := Nat.lt_of_lt_of_eq t.isLt N_3
  have hi0 : ((((cfg3.win 5).blk t).view.emb (ix2 r q) : S100000x128.Idx) 0).val = 4000 * t.val + r.val := by
    show win3_5.index t 0 * 4000 + 1 * r.val = _; rw [e0]; omega
  have hi1 : ((((cfg3.win 5).blk t).view.emb (ix2 r q) : S100000x128.Idx) 1).val = q.val := by
    show win3_5.index t 1 * 128 + 1 * q.val = _; rw [e1]; omega
  generalize (((cfg3.win 5).blk t).view.emb (ix2 r q) : S100000x128.Idx) = i at hi0 hi1
  rw [region3_blk0 V c t (ix2 r q) i hi0 hi1, region3_blk1 V c t (ix2 r q) i hi0 hi1,
    region3_blk2 V c t (ix2 r 0) (ix2 (i 0) 0) hi0 rfl, region3_blk2 V c t (ix2 r 1) (ix2 (i 0) 1) hi0 rfl,
    region3_blk3 V c t (ix2 0 q), region3_blk4 V c t (ix2 0 q)]
  have hq : (ix2 0 q : S1x128.Idx) = ix2 0 (i 1) := by
    funext a; apply Fin.ext
    match a with
    | ⟨0, _⟩ => rfl
    | ⟨1, _⟩ => exact hi1.symm
  rw [hq]
  rfl

/-- An index of the array is in point t's block iff each coordinate is in the block's range on its axis. -/
theorem region3_mem_blk (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_call0_v95).slice (win3_5.rect t)).set ↔ _
  rw [View.set_slice_whole, Rect.mem_set_unit]
  exact Iff.rfl

/-- Every row block is some point's. -/
theorem region3_index_onto : ∀ (q0 : Fin 25), ∃ t : Fin cfg3.N, win3_5.index t = ![q0.val, 0] :=
  (by decide +kernel : ∀ (q0 : Fin 25), ∃ t : Fin grid3.N, win3_5.index t = ![q0.val, 0])

/-- The 25 row blocks cover the array: row i is in the block of point i / 4000. -/
theorem region3_cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := region3_index_onto ⟨(i 0).val / 4000, by omega⟩
  have q0 : win3_5.index t (0 : Fin 2) = (i 0).val / 4000 := congrFun ht 0
  have q1 : win3_5.index t (1 : Fin 2) = 0 := congrFun ht 1
  refine ⟨t, flush3_5 t, ?_⟩
  rw [region3_mem_blk]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- THE ARRAY after the run of region 3: the two scaled aggregates and their biases summed, then the maximum with zero. -/
theorem region3_out5 : (dat3 (F := Ideal) V c).arrAt 5 cfg3.N
    = reluOf (scaleBias2 (M := 100000) (N := 128)
        (V c (Pipeline.arrRef spec3 0) : S100000x128.Idx → EReal) (V c (Pipeline.arrRef spec3 1) : S100000x128.Idx → EReal)
        (V c (Pipeline.arrRef spec3 2) : S100000x2.Idx → EReal)
        (V c (Pipeline.arrRef spec3 3) : S1x128.Idx → EReal) (V c (Pipeline.arrRef spec3 4) : S1x128.Idx → EReal)) :=
  (dat3 (F := Ideal) V c).arrAt_eq_of_cover 5 (region3_G V c) (fun t _ => region3_flushed_eq V c t) region3_cover

end Blocks

end Cert.KernelIdeal.Hand

end
-- ==== Proof.Region4.lean ====
/-
  Region 4: the dual dense transform of the second layer. Row block t (rows 4000·t … 4000·t + 3999) of the two outputs is
  computed from row block t of x (all 128 columns), the whole of the two 128 × 64 weight matrices, and row block t of the
  packed 100000 × 2 scale array: entry (i, j) of the first output is (∑ₖ x(i,k) · w₁(k,j)) · p(i,0), of the second
  (∑ₖ x(i,k) · w₂(k,j)) · p(i,1). So an entry of an output depends on row i of x, column j of its weight matrix and
  row i of the packed scales only; the 25 row blocks tile the 100000 rows.
-/
import proofs.«181625_j69492570849588_2_alg».proof.Proof.Gen.KernelIdeal.Frame
import proofs.«181625_j69492570849588_2_alg».proof.Proof.LibGraphConv
import proofs.«181625_j69492570849588_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

/-- An `[a, 1]` column broadcast to `[a, b]` reads, at `(p, c)`, the column's entry of row `p`. -/
theorem region4_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem region4_zero_offsets : (![0, 0] : Fin 2 → Nat) = fun _ => 0 := funext fun a => by fin_cases a <;> rfl

/-- The first output's payload at an index: the row of the x block against the column of w₁, times the row's scale. -/
theorem region4_pay2_apply (x0 : Vec Ideal S4000x128 .f32) (x1 : Vec Ideal S128x64 .f32) (x2 : Vec Ideal S4000x1 .f32)
    (p : Fin 4000) (q : Fin 64) :
    k4_pay2 x0 x1 x2 (ix2 p q) = (∑ k : Fin 128, x0 (ix2 p k) * x1 (ix2 k q)) * x2 (ix2 p (0 : Fin 1)) := by
  unfold k4_pay2 k4_pay1
  show matmul dot_S4000x128_S128x64_S4000x64_1_0_0_1_n_n none (truncf .bf16 (shapeCast S4000x128 x0 shapeCasts_S4000x128_S4000x128) bitsLt_bf16_f32) (truncf .bf16 x1 bitsLt_bf16_f32)
        (constant (F := Ideal) S4000x64 .f32 0x00000000#32) (ix2 p q)
      * broadcastTo S4000x64 (shapeCast S4000x1 x2 shapeCasts_S4000x1_S4000x1) broadcasts_S4000x1_S4000x64 (ix2 p q) = _
  refine congrArg₂ (fun a b : EReal => a * b) ?_ ?_
  · refine (matmul_zero_plain_apply dot_S4000x128_S128x64_S4000x64_1_0_0_1_n_n rfl none
      (truncf .bf16 (shapeCast S4000x128 x0 shapeCasts_S4000x128_S4000x128) bitsLt_bf16_f32) (truncf .bf16 x1 bitsLt_bf16_f32) (ix2 p q)).trans ?_
    refine Finset.sum_congr rfl fun k _ => congrArg₂ (fun a b : EReal => a * b) ?_ rfl
    exact congrFun (shapeCast_self x0 shapeCasts_S4000x128_S4000x128) (ix2 p k)
  · refine (region4_broadcastTo_a1_ab_apply _ broadcasts_S4000x1_S4000x64 p q).trans ?_
    exact congrFun (shapeCast_self x2 shapeCasts_S4000x1_S4000x1) (ix2 p (0 : Fin 1))

/-- The second output's payload at an index: the same row against the column of w₂, times the row's second scale. -/
theorem region4_pay3_apply (x0 : Vec Ideal S4000x128 .f32) (x1 : Vec Ideal S128x64 .f32) (x2 : Vec Ideal S4000x1 .f32)
    (p : Fin 4000) (q : Fin 64) :
    k4_pay3 x0 x1 x2 (ix2 p q) = (∑ k : Fin 128, x0 (ix2 p k) * x1 (ix2 k q)) * x2 (ix2 p (0 : Fin 1)) := by
  unfold k4_pay3 k4_pay1
  show matmul dot_S4000x128_S128x64_S4000x64_1_0_0_1_n_n none (truncf .bf16 (shapeCast S4000x128 x0 shapeCasts_S4000x128_S4000x128) bitsLt_bf16_f32) (truncf .bf16 x1 bitsLt_bf16_f32)
        (constant (F := Ideal) S4000x64 .f32 0x00000000#32) (ix2 p q)
      * broadcastTo S4000x64 (shapeCast S4000x1 x2 shapeCasts_S4000x1_S4000x1) broadcasts_S4000x1_S4000x64 (ix2 p q) = _
  refine congrArg₂ (fun a b : EReal => a * b) ?_ ?_
  · refine (matmul_zero_plain_apply dot_S4000x128_S128x64_S4000x64_1_0_0_1_n_n rfl none
      (truncf .bf16 (shapeCast S4000x128 x0 shapeCasts_S4000x128_S4000x128) bitsLt_bf16_f32) (truncf .bf16 x1 bitsLt_bf16_f32) (ix2 p q)).trans ?_
    refine Finset.sum_congr rfl fun k _ => congrArg₂ (fun a b : EReal => a * b) ?_ rfl
    exact congrFun (shapeCast_self x0 shapeCasts_S4000x128_S4000x128) (ix2 p k)
  · refine (region4_broadcastTo_a1_ab_apply _ broadcasts_S4000x1_S4000x64 p q).trans ?_
    exact congrFun (shapeCast_self x2 shapeCasts_S4000x1_S4000x1) (ix2 p (0 : Fin 1))

variable (V : (c : Dev nD) → (b : Ref sig .tc) → Buf (Elt Ideal) ((c : Thread nD τ).loc b)) (c : Dev nD)

/-- The printed index maps over the 25 grid points: the x block, the packed scale block and the two output blocks sit at
    row block `t`, column block 0; the weight matrices are their one block. -/
theorem region4_index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- What point `t` writes back to the first output is row block `t` of the scaled product of x and w₁. -/
theorem region4_flushed4_eq (t : Fin cfg4.N) :
    (dat4 (F := Ideal) V c).flushed 4 t = ((cfg4.win 4).blk t).view.read (Elt Ideal)
      (scaledProd (V c (Pipeline.arrRef spec4 0)) (V c (Pipeline.arrRef spec4 1)) (colOf (V c (Pipeline.arrRef spec4 3)) 0)) := by
  show (cfg4.win 4).cut (grid4.coords t) ((dat4 V c).after 4 t) = _
  rw [after4_4]
  unfold out4_4
  rw [View.canon_unit_zero region4_zero_offsets]
  simp only [View.ld_unit_zero (S := S4000x128) region4_zero_offsets, View.ld_unit_zero (S := S128x64) region4_zero_offsets]
  obtain ⟨e00, e01, e10, e11, e20, e21, e30, e31, e40, e41, e50, e51⟩ := region4_index_facts t
  funext j
  obtain ⟨p, q, rfl⟩ : ∃ (p : Fin 4000) (q : Fin 64), j = ix2 p q := ⟨j 0, j 1, eq_ix2 j⟩
  show k4_pay2 (iblk4 V c 0 t) (iblk4 V c 1 t) (View.ld (iblk4 V c 3 t) r4_2) (ix2 p q)
     = scaledProd (V c (Pipeline.arrRef spec4 0)) (V c (Pipeline.arrRef spec4 1)) (colOf (V c (Pipeline.arrRef spec4 3)) 0)
        (((cfg4.win 4).blk t).view.emb (ix2 p q))
  refine (region4_pay2_apply (iblk4 V c 0 t) (iblk4 V c 1 t) (View.ld (iblk4 V c 3 t) r4_2) p q).trans ?_
  refine congrArg₂ (fun a b : EReal => a * b)
    (Finset.sum_congr rfl fun k _ => congrArg₂ (fun a b : EReal => a * b) ?_ ?_) ?_
  · show (V c (Pipeline.arrRef spec4 0) : S100000x128.Idx → EReal) (((cfg4.win 0).blk t).view.emb (ix2 p k)) = _
    refine congrArg _ (funext fun a => Fin.ext ?_)
    match a with
    | ⟨0, _⟩ => show win4_0.index t (0 : Fin 2) * 4000 + 1 * p.val = win4_4.index t (0 : Fin 2) * 4000 + 1 * p.val; omega
    | ⟨1, _⟩ => show win4_0.index t (1 : Fin 2) * 128 + 1 * k.val = k.val; omega
  · show (V c (Pipeline.arrRef spec4 1) : S128x64.Idx → EReal) (((cfg4.win 1).blk t).view.emb (ix2 k q)) = _
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * q.val = win4_4.index t (1 : Fin 2) * 64 + 1 * q.val; omega
  · show (V c (Pipeline.arrRef spec4 3) : S100000x2.Idx → EReal) (((cfg4.win 3).blk t).view.emb (r4_2.idx (ix2 p (0 : Fin 1)))) = _
    refine congrArg _ (funext fun a => Fin.ext ?_)
    match a with
    | ⟨0, _⟩ => show win4_3.index t (0 : Fin 2) * 4000 + 1 * (0 + 1 * p.val) = win4_4.index t (0 : Fin 2) * 4000 + 1 * p.val; omega
    | ⟨1, _⟩ => show win4_3.index t (1 : Fin 2) * 2 + 1 * (0 + 1 * 0) = 0; omega

/-- What point `t` writes back to the second output is row block `t` of the scaled product of x and w₂. -/
theorem region4_flushed5_eq (t : Fin cfg4.N) :
    (dat4 (F := Ideal) V c).flushed 5 t = ((cfg4.win 5).blk t).view.read (Elt Ideal)
      (scaledProd (V c (Pipeline.arrRef spec4 0)) (V c (Pipeline.arrRef spec4 2)) (colOf (V c (Pipeline.arrRef spec4 3)) 1)) := by
  show (cfg4.win 5).cut (grid4.coords t) ((dat4 V c).after 5 t) = _
  rw [after4_5]
  unfold out4_5
  rw [View.canon_unit_zero region4_zero_offsets]
  simp only [View.ld_unit_zero (S := S4000x128) region4_zero_offsets, View.ld_unit_zero (S := S128x64) region4_zero_offsets]
  obtain ⟨e00, e01, e10, e11, e20, e21, e30, e31, e40, e41, e50, e51⟩ := region4_index_facts t
  funext j
  obtain ⟨p, q, rfl⟩ : ∃ (p : Fin 4000) (q : Fin 64), j = ix2 p q := ⟨j 0, j 1, eq_ix2 j⟩
  show k4_pay3 (iblk4 V c 0 t) (iblk4 V c 2 t) (View.ld (iblk4 V c 3 t) r4_3) (ix2 p q)
     = scaledProd (V c (Pipeline.arrRef spec4 0)) (V c (Pipeline.arrRef spec4 2)) (colOf (V c (Pipeline.arrRef spec4 3)) 1)
        (((cfg4.win 5).blk t).view.emb (ix2 p q))
  refine (region4_pay3_apply (iblk4 V c 0 t) (iblk4 V c 2 t) (View.ld (iblk4 V c 3 t) r4_3) p q).trans ?_
  refine congrArg₂ (fun a b : EReal => a * b)
    (Finset.sum_congr rfl fun k _ => congrArg₂ (fun a b : EReal => a * b) ?_ ?_) ?_
  · show (V c (Pipeline.arrRef spec4 0) : S100000x128.Idx → EReal) (((cfg4.win 0).blk t).view.emb (ix2 p k)) = _
    refine congrArg _ (funext fun a => Fin.ext ?_)
    match a with
    | ⟨0, _⟩ => show win4_0.index t (0 : Fin 2) * 4000 + 1 * p.val = win4_5.index t (0 : Fin 2) * 4000 + 1 * p.val; omega
    | ⟨1, _⟩ => show win4_0.index t (1 : Fin 2) * 128 + 1 * k.val = k.val; omega
  · show (V c (Pipeline.arrRef spec4 2) : S128x64.Idx → EReal) (((cfg4.win 2).blk t).view.emb (ix2 k q)) = _
    refine congrArg _ (funext fun a => Fin.ext ?_)
    match a with
    | ⟨0, _⟩ => show win4_2.index t (0 : Fin 2) * 128 + 1 * k.val = k.val; omega
    | ⟨1, _⟩ => show win4_2.index t (1 : Fin 2) * 64 + 1 * q.val = win4_5.index t (1 : Fin 2) * 64 + 1 * q.val; omega
  · show (V c (Pipeline.arrRef spec4 3) : S100000x2.Idx → EReal) (((cfg4.win 3).blk t).view.emb (r4_3.idx (ix2 p (0 : Fin 1)))) = _
    refine congrArg _ (funext fun a => Fin.ext ?_)
    match a with
    | ⟨0, _⟩ => show win4_3.index t (0 : Fin 2) * 4000 + 1 * (0 + 1 * p.val) = win4_5.index t (0 : Fin 2) * 4000 + 1 * p.val; omega
    | ⟨1, _⟩ => show win4_3.index t (1 : Fin 2) * 2 + 1 * (1 + 1 * 0) = 1; omega

/-- An index of the first output is in point `t`'s block iff each coordinate is in the block's range on its axis. -/
theorem region4_mem_blk4 (t : Fin cfg4.N) (i : S100000x64.Idx) :
    i ∈ ((cfg4.win 4).blk t).view.set ↔ ∀ a : Fin 2, win4_4.index t a * S4000x64.size a ≤ (i a).val
      ∧ (i a).val < win4_4.index t a * S4000x64.size a + S4000x64.size a := by
  show i ∈ ((View.whole main_call0_v99_0).slice (win4_4.rect t)).set ↔ _
  rw [View.set_slice_whole, Rect.mem_set_unit]
  exact Iff.rfl

/-- The same for the second output. -/
theorem region4_mem_blk5 (t : Fin cfg4.N) (i : S100000x64.Idx) :
    i ∈ ((cfg4.win 5).blk t).view.set ↔ ∀ a : Fin 2, win4_5.index t a * S4000x64.size a ≤ (i a).val
      ∧ (i a).val < win4_5.index t a * S4000x64.size a + S4000x64.size a := by
  show i ∈ ((View.whole main_call0_v99_1).slice (win4_5.rect t)).set ↔ _
  rw [View.set_slice_whole, Rect.mem_set_unit]
  exact Iff.rfl

/-- Row `r` of the first output is in the block of point `r / 4000`: the 25 row blocks tile the array. -/
theorem region4_cover4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  obtain ⟨t, ht⟩ : ∃ t : Fin cfg4.N, t.val = (i 0).val / 4000 :=
    ⟨⟨(i 0).val / 4000, by show (i 0).val / 4000 < grid4.N; rw [N_4]; omega⟩, rfl⟩
  obtain ⟨-, -, -, -, -, -, -, -, e40, e41, -, -⟩ := region4_index_facts t
  refine ⟨t, flush4_4 t, ?_⟩
  rw [region4_mem_blk4]
  intro a
  match a with
  | ⟨0, _⟩ => show win4_4.index t (0 : Fin 2) * 4000 ≤ (i 0).val ∧ (i 0).val < win4_4.index t (0 : Fin 2) * 4000 + 4000; omega
  | ⟨1, _⟩ => show win4_4.index t (1 : Fin 2) * 64 ≤ (i 1).val ∧ (i 1).val < win4_4.index t (1 : Fin 2) * 64 + 64; omega

/-- The same for the second output. -/
theorem region4_cover5 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 4000 :=
    ⟨⟨(i 0).val / 4000, by show (i 0).val / 4000 < grid4.N; rw [N_4]; omega⟩, rfl⟩
  obtain ⟨-, -, -, -, -, -, -, -, -, -, e50, e51⟩ := region4_index_facts t
  refine ⟨t, flush4_5 t, ?_⟩
  rw [region4_mem_blk5]
  intro a
  match a with
  | ⟨0, _⟩ => show win4_5.index t (0 : Fin 2) * 4000 ≤ (i 0).val ∧ (i 0).val < win4_5.index t (0 : Fin 2) * 4000 + 4000; omega
  | ⟨1, _⟩ => show win4_5.index t (1 : Fin 2) * 64 ≤ (i 1).val ∧ (i 1).val < win4_5.index t (1 : Fin 2) * 64 + 64; omega

/-- After the region the first output array is the product of x and w₁ with row `i` scaled by the packed scales' column 0. -/
theorem region4_out4 : (dat4 (F := Ideal) V c).arrAt 4 cfg4.N
    = scaledProd (V c (Pipeline.arrRef spec4 0)) (V c (Pipeline.arrRef spec4 1)) (colOf (V c (Pipeline.arrRef spec4 3)) 0) :=
  (dat4 V c).arrAt_eq_of_cover 4 _ (fun t _ => region4_flushed4_eq V c t) region4_cover4

/-- After the region the second output array is the product of x and w₂ with row `i` scaled by the packed scales' column 1. -/
theorem region4_out5 : (dat4 (F := Ideal) V c).arrAt 5 cfg4.N
    = scaledProd (V c (Pipeline.arrRef spec4 0)) (V c (Pipeline.arrRef spec4 2)) (colOf (V c (Pipeline.arrRef spec4 3)) 1) :=
  (dat4 V c).arrAt_eq_of_cover 5 _ (fun t _ => region4_flushed5_eq V c t) region4_cover5

end Cert.KernelIdeal.Hand

end
-- ==== Proof.Region5.lean ====
/-
  Region 5, the dense transform of the second layer. The grid has 25 points; point `t` holds rows `4000 t … 4000 t + 3999` of
  the first operand `x` (100000 × 128), the whole second operand `w` (128 × 64), and the same rows of the scale column `d`
  (100000 × 1), and writes the same rows of the output (100000 × 64). Entry `(r, q)` of the output depends on row `r` of `x`,
  column `q` of `w` and entry `(r, 0)` of `d` only: it is `(∑ₖ x(r,k) · w(k,q)) · d(r,0)`, the sum over the 128 contracted
  coordinates. The 25 row blocks tile the 100000 rows (row `r` is in block `r / 4000`), so after the region the output array
  is that one function of the three input arrays.
-/
import proofs.«181625_j69492570849588_2_alg».proof.Proof.Gen.KernelIdeal.Frame
import proofs.«181625_j69492570849588_2_alg».proof.Proof.LibGraphConv
import proofs.«181625_j69492570849588_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen

/-- The body's payload read at an entry: row `j 0` of the first operand against column `j 1` of the second, summed over the
    128 contracted coordinates, times the scale column's entry of row `j 0`. -/
theorem region5_payload (x0 : Vec Ideal S4000x128 .f32) (x1 : Vec Ideal S128x64 .f32) (x2 : Vec Ideal S4000x1 .f32)
    (j : S4000x64.Idx) :
    k5_pay1 x0 x1 x2 j = (∑ k : Fin 128, x0 (ix2 (j 0) k) * x1 (ix2 k (j 1))) * x2 (ix2 (j 0) 0) := by
  unfold k5_pay1
  show (matmul dot_S4000x128_S128x64_S4000x64_1_0_0_1_n_n none
          (truncf .bf16 (shapeCast S4000x128 x0 shapeCasts_S4000x128_S4000x128) bitsLt_bf16_f32)
          (truncf .bf16 x1 bitsLt_bf16_f32) (constant (F := Ideal) S4000x64 .f32 0x00000000#32) j)
        * (broadcastTo S4000x64 (shapeCast S4000x1 x2 shapeCasts_S4000x1_S4000x1) broadcasts_S4000x1_S4000x64 j) = _
  rw [shapeCast_self, shapeCast_self]
  have hb : broadcastTo S4000x64 x2 broadcasts_S4000x1_S4000x64 j = x2 (ix2 (j 0) 0) := by
    refine broadcastTo_apply x2 broadcasts_S4000x1_S4000x64 j (ix2 (j 0) 0) fun ax => ?_
    match ax with
    | ⟨0, _⟩ => rfl
    | ⟨1, _⟩ => rfl
  rw [hb]
  refine congrArg (· * x2 (ix2 (j 0) 0)) ?_
  exact matmul_zero_plain_apply dot_S4000x128_S128x64_S4000x64_1_0_0_1_n_n rfl none (truncf .bf16 x0 bitsLt_bf16_f32) (truncf .bf16 x1 bitsLt_bf16_f32) j

variable (V : (c : Dev nD) → (b : Ref sig .tc) → Buf (Elt Ideal) ((c : Thread nD τ).loc b)) (c : Dev nD)

/-- The blocks' offsets are all zero. -/
theorem region5_zero_offsets : (![0, 0] : Fin 2 → Nat) = fun _ => 0 := funext fun a => by fin_cases a <;> rfl

/-- The printed index maps over the grid: the row blocks of the first operand, of the scale column and of the output move with
    the grid point; the second operand is one block; no window moves along the columns. -/
theorem region5_index : ∀ t : Fin cfg5.N,
    win5_0.index t (0 : Fin 2) = t.val ∧ win5_0.index t (1 : Fin 2) = 0
  ∧ win5_1.index t (0 : Fin 2) = 0 ∧ win5_1.index t (1 : Fin 2) = 0
  ∧ win5_2.index t (0 : Fin 2) = t.val ∧ win5_2.index t (1 : Fin 2) = 0
  ∧ win5_3.index t (0 : Fin 2) = t.val ∧ win5_3.index t (1 : Fin 2) = 0 :=
  (by decide +kernel : ∀ t : Fin grid5.N, _)

/-- The four blocks at point `t` sit where the output's block says: entry `j` of the product of the blocks, scaled, is the
    whole-array function at the output block's entry `j` (row `4000 t + j 0`, column `j 1`). -/
theorem region5_reads (X : S100000x128.Idx → EReal) (W : S128x64.Idx → EReal) (D : S100000x1.Idx → EReal)
    (t : Fin cfg5.N) (j : S4000x64.Idx) :
    (∑ k : Fin 128, X (((cfg5.win 0).blk t).view.emb (ix2 (j 0) k : S4000x128.Idx))
          * W (((cfg5.win 1).blk t).view.emb (ix2 k (j 1) : S128x64.Idx)))
        * D (((cfg5.win 2).blk t).view.emb (ix2 (j 0) (0 : Fin 1) : S4000x1.Idx))
      = scaledProd X W D (((cfg5.win 3).blk t).view.emb j) := by
  obtain ⟨a0, a1, b0, b1, d0, d1, o0, o1⟩ := region5_index t
  have e0 : ∀ k : Fin 128, (((cfg5.win 0).blk t).view.emb (ix2 (j 0) k : S4000x128.Idx) : S100000x128.Idx)
      = ix2 ((((cfg5.win 3).blk t).view.emb j : S100000x64.Idx) 0) k := fun k => by
    funext a; apply Fin.ext
    match a with
    | ⟨0, _⟩ => show win5_0.index t (0 : Fin 2) * 4000 + 1 * (j 0).val = win5_3.index t (0 : Fin 2) * 4000 + 1 * (j 0).val; omega
    | ⟨1, _⟩ => show win5_0.index t (1 : Fin 2) * 128 + 1 * k.val = k.val; omega
  have e1 : ∀ k : Fin 128, (((cfg5.win 1).blk t).view.emb (ix2 k (j 1) : S128x64.Idx) : S128x64.Idx)
      = ix2 k ((((cfg5.win 3).blk t).view.emb j : S100000x64.Idx) 1) := fun k => by
    funext a; apply Fin.ext
    match a with
    | ⟨0, _⟩ => show win5_1.index t (0 : Fin 2) * 128 + 1 * k.val = k.val; omega
    | ⟨1, _⟩ => show win5_1.index t (1 : Fin 2) * 64 + 1 * (j 1).val = win5_3.index t (1 : Fin 2) * 64 + 1 * (j 1).val; omega
  have e2 : (((cfg5.win 2).blk t).view.emb (ix2 (j 0) (0 : Fin 1) : S4000x1.Idx) : S100000x1.Idx)
      = ix2 ((((cfg5.win 3).blk t).view.emb j : S100000x64.Idx) 0) (0 : Fin 1) := by
    funext a; apply Fin.ext
    match a with
    | ⟨0, _⟩ => show win5_2.index t (0 : Fin 2) * 4000 + 1 * (j 0).val = win5_3.index t (0 : Fin 2) * 4000 + 1 * (j 0).val; omega
    | ⟨1, _⟩ => show win5_2.index t (1 : Fin 2) * 1 + 1 * 0 = 0; omega
  show _ = (∑ k : Fin 128, X (ix2 ((((cfg5.win 3).blk t).view.emb j : S100000x64.Idx) 0) k)
          * W (ix2 k ((((cfg5.win 3).blk t).view.emb j : S100000x64.Idx) 1)))
        * D (ix2 ((((cfg5.win 3).blk t).view.emb j : S100000x64.Idx) 0) (0 : Fin 1))
  rw [e2]
  refine congrArg (· * _) (Finset.sum_congr rfl fun k _ => ?_)
  exact congrArg₂ (· * ·) (congrArg X (e0 k)) (congrArg W (e1 k))

/-- Entry `j` of what point `t` computes from its blocks. -/
theorem region5_block_entry (t : Fin cfg5.N) (j : S4000x64.Idx) :
    k5_pay1 (iblk5 V c 0 t) (iblk5 V c 1 t) (iblk5 V c 2 t) j
      = scaledProd (V c (Pipeline.arrRef spec5 0)) (V c (Pipeline.arrRef spec5 1)) (V c (Pipeline.arrRef spec5 2))
          (((cfg5.win 3).blk t).view.emb j) :=
  (region5_payload (iblk5 V c 0 t) (iblk5 V c 1 t) (iblk5 V c 2 t) j).trans
    (region5_reads (V c (Pipeline.arrRef spec5 0)) (V c (Pipeline.arrRef spec5 1)) (V c (Pipeline.arrRef spec5 2)) t j)

/-- What point `t` writes back is block `t` of the whole-array function. -/
theorem region5_flushed (t : Fin cfg5.N) :
    (dat5 (F := Ideal) V c).flushed 3 t = ((cfg5.win 3).blk t).view.read (Elt Ideal)
      (scaledProd (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero region5_zero_offsets]
  simp only [View.ld_unit_zero (S := S4000x128) region5_zero_offsets, View.ld_unit_zero (S := S128x64) region5_zero_offsets,
    View.ld_unit_zero (S := S4000x1) region5_zero_offsets]
  funext j
  exact region5_block_entry V c t j

/-- An index of the output array is in point `t`'s block iff each coordinate is in the block's range on its axis. -/
theorem region5_mem_blk (t : Fin cfg5.N) (i : S100000x64.Idx) :
    i ∈ ((cfg5.win 3).blk t).view.set ↔ ∀ a : Fin 2, win5_3.index t a * S4000x64.size a ≤ (i a).val
      ∧ (i a).val < win5_3.index t a * S4000x64.size a + S4000x64.size a := by
  show i ∈ ((View.whole main_call0_v101).slice (win5_3.rect t)).set ↔ _
  rw [View.set_slice_whole, Rect.mem_set_unit]
  exact Iff.rfl

/-- Every index of the output array is in the block of the point its row falls to: row `r` is in block `r / 4000`. -/
theorem region5_cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 25 := N_5
  obtain ⟨t, ht⟩ : ∃ t : Fin cfg5.N, t.val = (i 0).val / 4000 :=
    ⟨⟨(i 0).val / 4000, by show (i 0).val / 4000 < grid5.N; omega⟩, rfl⟩
  obtain ⟨-, -, -, -, -, -, o0, o1⟩ := region5_index t
  refine ⟨t, flush5_3 t, ?_⟩
  rw [region5_mem_blk]
  intro a
  match a with
  | ⟨0, _⟩ =>
    show win5_3.index t (0 : Fin 2) * 4000 ≤ (i 0).val ∧ (i 0).val < win5_3.index t (0 : Fin 2) * 4000 + 4000
    omega
  | ⟨1, _⟩ =>
    show win5_3.index t (1 : Fin 2) * 64 ≤ (i 1).val ∧ (i 1).val < win5_3.index t (1 : Fin 2) * 64 + 64
    omega

/-- The output array after the region: the first operand times the second, each row scaled by the scale column's entry. -/
theorem region5_out3 : (dat5 (F := Ideal) V c).arrAt 3 cfg5.N
    = scaledProd (V c (Pipeline.arrRef spec5 0)) (V c (Pipeline.arrRef spec5 1)) (V c (Pipeline.arrRef spec5 2)) :=
  (dat5 (F := Ideal) V c).arrAt_eq_of_cover 3 _ (fun t _ => region5_flushed V c t) region5_cover

end Cert.KernelIdeal.Hand

end
-- ==== Proof.Region6.lean ====
/-
  Region 6, the second layer's scale-and-bias step, as one function of its three input arrays. The aggregate `a` is
  100000 × 64, the scale column `d` is 100000 × 1, the bias row `b` is 1 × 64, and the output `y` is 100000 × 64. The
  25 grid points each take one block of 4000 consecutive rows of `a`, of `d` and of `y` (point `t` takes rows
  `4000 t … 4000 t + 3999`) and the whole of `b`. Entry `(R, q)` of the output depends on entry `(R, q)` of `a`, on
  entry `(R, 0)` of `d` and on entry `(0, q)` of `b` only:

      y(R, q) = a(R, q) · d(R, 0) + b(0, q).

  The steps: the body's value at an entry of its block (`region6_lin_apply`, `region6_lin_point`); each input block as
  rows of its array (`region6_agg_block_apply`, `region6_scale_block_apply`, `region6_bias_block_apply`); what a point
  writes back is its block of the function (`region6_flushed`); the 25 blocks tile the rows (`region6_cover`); the array
  after the run (`region6_out3`).
-/
import proofs.«181625_j69492570849588_2_alg».proof.Proof.Gen.KernelIdeal.Frame
import proofs.«181625_j69492570849588_2_alg».proof.Proof.LibGraphConv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

theorem region6_zero_offsets : (![0, 0] : Fin 2 → Nat) = fun _ => 0 := funext fun a => by fin_cases a <;> rfl

/-- A column of 4000 entries spread over 64 columns reads its row's entry. -/
theorem region6_col_spread_apply (h : S4000x1.Broadcasts S4000x64) (x : Vec Ideal S4000x1 .f32) (r : Fin 4000) (q : Fin 64) :
    broadcastTo S4000x64 x h (ix2 r q) = x (ix2 r 0) := by
  refine broadcastTo_apply x h (ix2 r q) (ix2 r 0) fun a => ?_
  match a with
  | ⟨0, _⟩ => rfl
  | ⟨1, _⟩ => rfl

/-- A row of 64 entries spread over 4000 rows reads its column's entry. -/
theorem region6_row_spread_apply (h : S1x64.Broadcasts S4000x64) (x : Vec Ideal S1x64 .f32) (r : Fin 4000) (q : Fin 64) :
    broadcastTo S4000x64 x h (ix2 r q) = x (ix2 0 q) := by
  refine broadcastTo_apply x h (ix2 r q) (ix2 0 q) fun a => ?_
  match a with
  | ⟨0, _⟩ => rfl
  | ⟨1, _⟩ => rfl

/-- The body's value at row `r`, column `q` of its block: the aggregate entry times the row's scale plus the column's
    bias. -/
theorem region6_lin_apply (x0 : Vec Ideal S4000x64 .f32) (x1 : Vec Ideal S4000x1 .f32) (x2 : Vec Ideal S1x64 .f32) (r : Fin 4000) (q : Fin 64) :
    k6_pay1 x0 x1 x2 (ix2 r q) = x0 (ix2 r q) * x1 (ix2 r 0) + x2 (ix2 0 q) := by
  unfold k6_pay1
  rw [shapeCast_self, shapeCast_self, shapeCast_self]
  show x0 (ix2 r q) * broadcastTo S4000x64 x1 _ (ix2 r q) + broadcastTo S4000x64 x2 _ (ix2 r q) = _
  rw [region6_col_spread_apply, region6_row_spread_apply]

/-- When the three blocks hold row `R` of the aggregate and of the scale column and the bias row, the body's value at
    `(r, q)` is the whole-array function at `(R, q)`. -/
theorem region6_lin_point (A : S100000x64.Idx → EReal) (D : S100000x1.Idx → EReal) (B : S1x64.Idx → EReal)
    (x0 : Vec Ideal S4000x64 .f32) (x1 : Vec Ideal S4000x1 .f32) (x2 : Vec Ideal S1x64 .f32) (r : Fin 4000) (q : Fin 64) (R : Fin 100000)
    (h0 : x0 (ix2 r q) = A (ix2 R q)) (h1 : x1 (ix2 r 0) = D (ix2 R 0)) (h2 : x2 (ix2 0 q) = B (ix2 0 q)) :
    k6_pay1 x0 x1 x2 (ix2 r q) = scaleBias A D B (ix2 R q) := by
  refine (region6_lin_apply x0 x1 x2 r q).trans ?_
  rw [h0, h1, h2]
  rfl

/-- The index maps over the 25 grid points: the aggregate, the scale column and the output move together, one block of
    4000 rows per point; the bias row stays. -/
theorem region6_index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The aggregate's block at point `t` holds rows `4000 t … 4000 t + 3999`. -/
theorem region6_agg_block_apply (t : Fin cfg6.N) (r : Fin 4000) (q : Fin 64) (R : Fin 100000) (hR : R.val = t.val * 4000 + r.val) :
    (iblk6 V c 0 t : Vec Ideal S4000x64 .f32) (ix2 r q) = (V c (Pipeline.arrRef spec6 0) : S100000x64.Idx → EReal) (ix2 R q) := by
  obtain ⟨e0, e1, -⟩ := region6_index_facts t
  unfold iblk6
  rw [View.read_apply]
  show (V c (Pipeline.arrRef spec6 0) : S100000x64.Idx → EReal) _ = _
  congr 1
  funext a
  apply Fin.ext
  match a with
  | ⟨0, _⟩ => show win6_0.index t (0 : Fin 2) * 4000 + 1 * r.val = R.val; rw [e0, hR]; omega
  | ⟨1, _⟩ => show win6_0.index t (1 : Fin 2) * 64 + 1 * q.val = q.val; rw [e1]; omega

/-- The scale column's block at point `t` holds the same rows. -/
theorem region6_scale_block_apply (t : Fin cfg6.N) (r : Fin 4000) (R : Fin 100000) (hR : R.val = t.val * 4000 + r.val) :
    (iblk6 V c 1 t : Vec Ideal S4000x1 .f32) (ix2 r 0) = (V c (Pipeline.arrRef spec6 1) : S100000x1.Idx → EReal) (ix2 R 0) := by
  obtain ⟨-, -, e2, e3, -⟩ := region6_index_facts t
  unfold iblk6
  rw [View.read_apply]
  show (V c (Pipeline.arrRef spec6 1) : S100000x1.Idx → EReal) _ = _
  congr 1
  funext a
  apply Fin.ext
  match a with
  | ⟨0, _⟩ => show win6_1.index t (0 : Fin 2) * 4000 + 1 * r.val = R.val; rw [e2, hR]; omega
  | ⟨1, _⟩ => show win6_1.index t (1 : Fin 2) * 1 + 1 * 0 = 0; rw [e3]

/-- The bias row's block at every point is the whole row. -/
theorem region6_bias_block_apply (t : Fin cfg6.N) (q : Fin 64) :
    (iblk6 V c 2 t : Vec Ideal S1x64 .f32) (ix2 0 q) = (V c (Pipeline.arrRef spec6 2) : S1x64.Idx → EReal) (ix2 0 q) := by
  obtain ⟨-, -, -, -, e4, e5, -⟩ := region6_index_facts t
  unfold iblk6
  rw [View.read_apply]
  show (V c (Pipeline.arrRef spec6 2) : S1x64.Idx → EReal) _ = _
  congr 1
  funext a
  apply Fin.ext
  match a with
  | ⟨0, _⟩ => show win6_2.index t (0 : Fin 2) * 1 + 1 * 0 = 0; rw [e4]
  | ⟨1, _⟩ => show win6_2.index t (1 : Fin 2) * 64 + 1 * q.val = q.val; rw [e5]; omega

/-- What grid point `t` writes back is block `t` of the whole-array function. -/
theorem region6_flushed (t : Fin cfg6.N) :
    (dat6 (F := Ideal) V c).flushed 3 t = ((cfg6.win 3).blk t).view.read (Elt Ideal)
      (scaleBias (V c (Pipeline.arrRef spec6 0) : S100000x64.Idx → EReal) (V c (Pipeline.arrRef spec6 1) : S100000x1.Idx → EReal)
        (V c (Pipeline.arrRef spec6 2) : S1x64.Idx → EReal)) := by
  show (cfg6.win 3).cut (grid6.coords t) ((dat6 V c).after 3 t) = _
  rw [after6_3]
  unfold out6_3
  rw [View.canon_unit_zero region6_zero_offsets]
  simp only [View.ld_unit_zero (S := S4000x64) region6_zero_offsets, View.ld_unit_zero (S := S4000x1) region6_zero_offsets,
    View.ld_unit_zero (S := S1x64) region6_zero_offsets]
  obtain ⟨-, -, -, -, -, -, e6, e7⟩ := region6_index_facts t
  have ht : t.val < 25 := lt_of_lt_of_eq t.isLt (N_6 : cfg6.N = 25)
  refine funext fun (j : S4000x64.Idx) => ?_
  obtain ⟨r, q, rfl⟩ : ∃ (r : Fin 4000) (q : Fin 64), j = ix2 r q := ⟨j 0, j 1, eq_ix2 j⟩
  have hr : r.val < 4000 := r.isLt
  have hemb : ((cfg6.win 3).blk t).view.emb (ix2 r q) = (ix2 (⟨t.val * 4000 + r.val, by omega⟩ : Fin 100000) q : S100000x64.Idx) := by
    funext a; apply Fin.ext
    match a with
    | ⟨0, _⟩ => show win6_3.index t (0 : Fin 2) * 4000 + 1 * r.val = t.val * 4000 + r.val; rw [e6]; omega
    | ⟨1, _⟩ => show win6_3.index t (1 : Fin 2) * 64 + 1 * q.val = q.val; rw [e7]; omega
  exact (region6_lin_point _ _ _ _ _ _ r q _ (region6_agg_block_apply V c t r q _ rfl) (region6_scale_block_apply V c t r _ rfl) (region6_bias_block_apply V c t q)).trans
    (congrArg (scaleBias (V c (Pipeline.arrRef spec6 0) : S100000x64.Idx → EReal) (V c (Pipeline.arrRef spec6 1) : S100000x1.Idx → EReal)
        (V c (Pipeline.arrRef spec6 2) : S1x64.Idx → EReal)) hemb).symm

/-- An index of the array is in point `t`'s block iff each coordinate is in the block's range on its axis. -/
theorem region6_mem_blk (t : Fin cfg6.N) (i : S100000x64.Idx) :
    i ∈ ((cfg6.win 3).blk t).view.set ↔ ∀ a : Fin 2, win6_3.index t a * S4000x64.size a ≤ (i a).val ∧ (i a).val < win6_3.index t a * S4000x64.size a + S4000x64.size a := by
  show i ∈ ((View.whole main_call0_v137).slice (win6_3.rect t)).set ↔ _
  rw [View.set_slice_whole, Rect.mem_set_unit]
  exact Iff.rfl

/-- Row `R` of the array is in the block of point `R / 4000`: the 25 blocks of 4000 rows tile the 100000 rows. -/
theorem region6_cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ : ∃ t : Fin cfg6.N, t.val = (i 0).val / 4000 :=
    ⟨⟨(i 0).val / 4000, lt_of_lt_of_eq (by omega : (i 0).val / 4000 < 25) (N_6 : cfg6.N = 25).symm⟩, rfl⟩
  obtain ⟨-, -, -, -, -, -, e6, e7⟩ := region6_index_facts t
  refine ⟨t, flush6_3 t, ?_⟩
  rw [region6_mem_blk]
  intro a
  match a with
  | ⟨0, _⟩ => show win6_3.index t (0 : Fin 2) * 4000 ≤ (i 0).val ∧ (i 0).val < win6_3.index t (0 : Fin 2) * 4000 + 4000; omega
  | ⟨1, _⟩ => show win6_3.index t (1 : Fin 2) * 64 ≤ (i 1).val ∧ (i 1).val < win6_3.index t (1 : Fin 2) * 64 + 64; omega

/-- After the run the output array holds, at row `R` and column `q`, the aggregate's entry `(R, q)` times the scale
    of row `R` plus the bias of column `q`. -/
theorem region6_out3 : (dat6 (F := Ideal) V c).arrAt 3 cfg6.N
    = scaleBias (V c (Pipeline.arrRef spec6 0)) (V c (Pipeline.arrRef spec6 1)) (V c (Pipeline.arrRef spec6 2)) :=
  (dat6 (F := Ideal) V c).arrAt_eq_of_cover 3 _ (fun t _ => region6_flushed V c t) region6_cover

end Cert.KernelIdeal.Hand

end
-- ==== Proof.Region7.lean ====
/-
  Region 7 of the two-layer graph convolution: the second post-aggregation step of layer two.

  The output array has 100000 rows of 64 entries. Entry (i, j) depends on row i of the two aggregate arrays (at
  column j), on row i of the packed scale array (its two columns 0 and 1), and on column j of the two bias rows:

      out(i, j) = ((a₁(i,j) · p(i,0) + b₁(0,j)) + a₂(i,j) · p(i,1)) + b₂(0,j).

  The run visits 25 grid points; point t computes rows 4000·t … 4000·t + 3999 from the same rows of the aggregates and of
  the packed scales and from the whole bias rows, and the 25 row blocks tile the array.
-/
import proofs.«181625_j69492570849588_2_alg».proof.Proof.Gen.KernelIdeal.Frame
import proofs.«181625_j69492570849588_2_alg».proof.Proof.LibGraphConv
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx Cert.KernelIdeal Cert.KernelIdeal.Gen
open Idealize.ShloMosaic.Pipeline (Dat)

/-! ## The body's arithmetic at one entry of a block -/

/-- The offsets of a whole-block rectangle are zero on both axes. -/
theorem region7_zero_offsets : (![0, 0] : Fin 2 → Nat) = fun _ => 0 := funext fun a => by fin_cases a <;> rfl

/-- A scale column [4000,1] broadcast along the 64 columns, read at (r, q), is the column at row r. -/
theorem region7_bcast_col (x : Vec Ideal S4000x1 .f32) (r : Fin 4000) (q : Fin 64) :
    broadcastTo S4000x64 x broadcasts_S4000x1_S4000x64 (ix2 r q) = x (ix2 r 0) :=
  broadcastTo_apply x broadcasts_S4000x1_S4000x64 (ix2 r q) (ix2 r 0) (fun a => match a with
    | ⟨0, _⟩ => rfl
    | ⟨1, _⟩ => rfl)

/-- A bias row [1,64] broadcast along the 4000 rows, read at (r, q), is the row at column q. -/
theorem region7_bcast_row (x : Vec Ideal S1x64 .f32) (r : Fin 4000) (q : Fin 64) :
    broadcastTo S4000x64 x broadcasts_S1x64_S4000x64 (ix2 r q) = x (ix2 0 q) :=
  broadcastTo_apply x broadcasts_S1x64_S4000x64 (ix2 r q) (ix2 0 q) (fun a => match a with
    | ⟨0, _⟩ => rfl
    | ⟨1, _⟩ => rfl)

/-- The stored value at entry (r, q) of a block: the two scaled aggregates and their bias rows summed from left to
    right. -/
theorem region7_payload (p0 p1 : Vec Ideal S4000x1 .f32) (a1 : Vec Ideal S4000x64 .f32) (b1 : Vec Ideal S1x64 .f32)
    (a2 : Vec Ideal S4000x64 .f32) (b2 : Vec Ideal S1x64 .f32) (r : Fin 4000) (q : Fin 64) :
    k7_pay1 p0 p1 a1 b1 a2 b2 (ix2 r q)
      = ((a1 (ix2 r q) * p0 (ix2 r 0) + b1 (ix2 0 q)) + a2 (ix2 r q) * p1 (ix2 r 0)) + b2 (ix2 0 q) := by
  unfold k7_pay1
  simp only [shapeCast_self]
  show ((a1 (ix2 r q) * broadcastTo S4000x64 p0 broadcasts_S4000x1_S4000x64 (ix2 r q)
        + broadcastTo S4000x64 b1 broadcasts_S1x64_S4000x64 (ix2 r q))
        + a2 (ix2 r q) * broadcastTo S4000x64 p1 broadcasts_S4000x1_S4000x64 (ix2 r q))
        + broadcastTo S4000x64 b2 broadcasts_S1x64_S4000x64 (ix2 r q) = _
  rw [region7_bcast_col p0 r q, region7_bcast_col p1 r q, region7_bcast_row b1 r q, region7_bcast_row b2 r q]

/-- Column q of the packed [4000,2] block, loaded as a [4000,1] column, read at row r. -/
theorem region7_ld_col0 (x : Vec Ideal S4000x2 .f32) (r : Fin 4000) : View.ld x r7_0 (ix2 r 0) = x (ix2 r 0) := by
  show x (r7_0.idx (ix2 r 0)) = x (ix2 r 0)
  refine congrArg x (funext fun a => Fin.ext ?_)
  match a with
  | ⟨0, _⟩ => show 0 + 1 * r.val = r.val; omega
  | ⟨1, _⟩ => rfl

theorem region7_ld_col1 (x : Vec Ideal S4000x2 .f32) (r : Fin 4000) : View.ld x r7_1 (ix2 r 0) = x (ix2 r 1) := by
  show x (r7_1.idx (ix2 r 0)) = x (ix2 r 1)
  refine congrArg x (funext fun a => Fin.ext ?_)
  match a with
  | ⟨0, _⟩ => show 0 + 1 * r.val = r.val; omega
  | ⟨1, _⟩ => rfl

/-- What the body leaves in the output block, entry by entry, from the five input blocks. -/
theorem region7_out_apply (x0 x1 : Vec Ideal S4000x64 .f32) (x2 : Vec Ideal S4000x2 .f32) (x3 x4 : Vec Ideal S1x64 .f32)
    (r : Fin 4000) (q : Fin 64) :
    out7_5 x0 x1 x2 x3 x4 (ix2 r q)
      = ((x0 (ix2 r q) * x2 (ix2 r 0) + x3 (ix2 0 q)) + x1 (ix2 r q) * x2 (ix2 r 1)) + x4 (ix2 0 q) := by
  unfold out7_5
  rw [View.canon_unit_zero region7_zero_offsets]
  simp only [View.ld_unit_zero (S := S4000x64) region7_zero_offsets, View.ld_unit_zero (S := S1x64) region7_zero_offsets]
  refine (region7_payload (View.ld x2 r7_0) (View.ld x2 r7_1) x0 x3 x1 x4 r q).trans ?_
  rw [region7_ld_col0 x2 r, region7_ld_col1 x2 r]

/-! ## From blocks to the array -/

section Blocks

variable (V : (c : Dev nD) → (b : Ref sig .tc) → Buf (Elt Ideal) ((c : Thread nD τ).loc b)) (c : Dev nD)

/-- The printed index maps over the grid: the two aggregate windows, the packed scale window and the output window are at
    row block t of point t and column block 0; the two bias windows stay at block (0, 0). -/
theorem region7_index_facts : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = t.val ∧ win7_5.index t (1 : Fin 2) = 0) :=
  (by decide +kernel : ∀ t : Fin grid7.N, _)

/-- Aggregate 1's block at point t is rows 4000·t … 4000·t + 3999 of its array. -/
theorem region7_blk0 (t : Fin cfg7.N) (x : S4000x64.Idx) (k : S100000x64.Idx)
    (hk0 : (k 0).val = 4000 * t.val + (x 0).val) (hk1 : (k 1).val = (x 1).val) :
    (iblk7 V c 0 t : Vec Ideal S4000x64 .f32) x = (V c (Pipeline.arrRef spec7 0) : S100000x64.Idx → EReal) k := by
  obtain ⟨⟨e0, e1⟩, -⟩ := region7_index_facts t
  unfold iblk7
  rw [View.read_apply]
  refine congrArg (V c (Pipeline.arrRef spec7 0) : S100000x64.Idx → EReal) (funext fun a => Fin.ext ?_)
  match a with
  | ⟨0, _⟩ => show win7_0.index t 0 * 4000 + 1 * (x 0).val = (k 0).val; rw [e0, hk0]; omega
  | ⟨1, _⟩ => show win7_0.index t 1 * 64 + 1 * (x 1).val = (k 1).val; rw [e1, hk1]; omega

/-- Aggregate 2's block at point t is the same rows of its array. -/
theorem region7_blk1 (t : Fin cfg7.N) (x : S4000x64.Idx) (k : S100000x64.Idx)
    (hk0 : (k 0).val = 4000 * t.val + (x 0).val) (hk1 : (k 1).val = (x 1).val) :
    (iblk7 V c 1 t : Vec Ideal S4000x64 .f32) x = (V c (Pipeline.arrRef spec7 1) : S100000x64.Idx → EReal) k := by
  obtain ⟨-, ⟨e0, e1⟩, -⟩ := region7_index_facts t
  unfold iblk7
  rw [View.read_apply]
  refine congrArg (V c (Pipeline.arrRef spec7 1) : S100000x64.Idx → EReal) (funext fun a => Fin.ext ?_)
  match a with
  | ⟨0, _⟩ => show win7_1.index t 0 * 4000 + 1 * (x 0).val = (k 0).val; rw [e0, hk0]; omega
  | ⟨1, _⟩ => show win7_1.index t 1 * 64 + 1 * (x 1).val = (k 1).val; rw [e1, hk1]; omega

/-- The packed scales' block at point t is the same rows of the [100000,2] array, both columns. -/
theorem region7_blk2 (t : Fin cfg7.N) (x : S4000x2.Idx) (k : S100000x2.Idx)
    (hk0 : (k 0).val = 4000 * t.val + (x 0).val) (hk1 : (k 1).val = (x 1).val) :
    (iblk7 V c 2 t : Vec Ideal S4000x2 .f32) x = (V c (Pipeline.arrRef spec7 2) : S100000x2.Idx → EReal) k := by
  obtain ⟨-, -, ⟨e0, e1⟩, -⟩ := region7_index_facts t
  unfold iblk7
  rw [View.read_apply]
  refine congrArg (V c (Pipeline.arrRef spec7 2) : S100000x2.Idx → EReal) (funext fun a => Fin.ext ?_)
  match a with
  | ⟨0, _⟩ => show win7_2.index t 0 * 4000 + 1 * (x 0).val = (k 0).val; rw [e0, hk0]; omega
  | ⟨1, _⟩ => show win7_2.index t 1 * 2 + 1 * (x 1).val = (k 1).val; rw [e1, hk1]; omega

/-- Each bias window's block at every point is the whole bias row. -/
theorem region7_blk3 (t : Fin cfg7.N) (x : S1x64.Idx) :
    (iblk7 V c 3 t : Vec Ideal S1x64 .f32) x = (V c (Pipeline.arrRef spec7 3) : S1x64.Idx → EReal) x := by
  obtain ⟨-, -, -, ⟨e0, e1⟩, -⟩ := region7_index_facts t
  unfold iblk7
  rw [View.read_apply]
  refine congrArg (V c (Pipeline.arrRef spec7 3) : S1x64.Idx → EReal) (funext fun a => Fin.ext ?_)
  match a with
  | ⟨0, _⟩ => show win7_3.index t 0 * 1 + 1 * (x 0).val = (x 0).val; rw [e0]; omega
  | ⟨1, _⟩ => show win7_3.index t 1 * 64 + 1 * (x 1).val = (x 1).val; rw [e1]; omega

theorem region7_blk4 (t : Fin cfg7.N) (x : S1x64.Idx) :
    (iblk7 V c 4 t : Vec Ideal S1x64 .f32) x = (V c (Pipeline.arrRef spec7 4) : S1x64.Idx → EReal) x := by
  obtain ⟨-, -, -, -, ⟨e0, e1⟩, -⟩ := region7_index_facts t
  unfold iblk7
  rw [View.read_apply]
  refine congrArg (V c (Pipeline.arrRef spec7 4) : S1x64.Idx → EReal) (funext fun a => Fin.ext ?_)
  match a with
  | ⟨0, _⟩ => show win7_4.index t 0 * 1 + 1 * (x 0).val = (x 0).val; rw [e0]; omega
  | ⟨1, _⟩ => show win7_4.index t 1 * 64 + 1 * (x 1).val = (x 1).val; rw [e1]; omega

/-- The whole output array as one function of the five input arrays. -/
abbrev region7_G : S100000x64.Idx → EReal :=
  scaleBias2 (M := 100000) (N := 64)
    (V c (Pipeline.arrRef spec7 0) : S100000x64.Idx → EReal) (V c (Pipeline.arrRef spec7 1) : S100000x64.Idx → EReal)
    (V c (Pipeline.arrRef spec7 2) : S100000x2.Idx → EReal)
    (V c (Pipeline.arrRef spec7 3) : S1x64.Idx → EReal) (V c (Pipeline.arrRef spec7 4) : S1x64.Idx → EReal)

/-- Two functions on a [4000,64] block agree when they agree at every (r, q). -/
theorem region7_funext {α : Type} (f g : S4000x64.Idx → α) (h : ∀ (r : Fin 4000) (q : Fin 64), f (ix2 r q) = g (ix2 r q)) :
    f = g := funext fun j => by rw [eq_ix2 j]; exact h (j 0) (j 1)

/-- What point t writes back is block t of the whole-array function. -/
theorem region7_flushed_eq (t : Fin cfg7.N) :
    (dat7 (F := Ideal) V c).flushed 5 t = ((cfg7.win 5).blk t).view.read (Elt Ideal) (region7_G V c) := by
  show (cfg7.win 5).cut (grid7.coords t) ((dat7 (F := Ideal) V c).after 5 t) = _
  rw [after7_5]
  obtain ⟨-, -, -, -, -, ⟨e0, e1⟩⟩ := region7_index_facts t
  refine region7_funext _ _ (fun r q => ?_)
  refine (region7_out_apply (iblk7 V c 0 t) (iblk7 V c 1 t) (iblk7 V c 2 t) (iblk7 V c 3 t) (iblk7 V c 4 t) r q).trans ?_
  rw [View.read_apply]
  have hr : r.val < 4000 := r.isLt
  have ht : t.val < 25 := Nat.lt_of_lt_of_eq t.isLt N_7
  have hi0 : ((((cfg7.win 5).blk t).view.emb (ix2 r q) : S100000x64.Idx) 0).val = 4000 * t.val + r.val := by
    show win7_5.index t 0 * 4000 + 1 * r.val = _; rw [e0]; omega
  have hi1 : ((((cfg7.win 5).blk t).view.emb (ix2 r q) : S100000x64.Idx) 1).val = q.val := by
    show win7_5.index t 1 * 64 + 1 * q.val = _; rw [e1]; omega
  generalize (((cfg7.win 5).blk t).view.emb (ix2 r q) : S100000x64.Idx) = i at hi0 hi1
  rw [region7_blk0 V c t (ix2 r q) i hi0 hi1, region7_blk1 V c t (ix2 r q) i hi0 hi1,
    region7_blk2 V c t (ix2 r 0) (ix2 (i 0) 0) hi0 rfl, region7_blk2 V c t (ix2 r 1) (ix2 (i 0) 1) hi0 rfl,
    region7_blk3 V c t (ix2 0 q), region7_blk4 V c t (ix2 0 q)]
  have hq : (ix2 0 q : S1x64.Idx) = ix2 0 (i 1) := by
    funext a; apply Fin.ext
    match a with
    | ⟨0, _⟩ => rfl
    | ⟨1, _⟩ => exact hi1.symm
  rw [hq]
  rfl

/-- An index of the array is in point t's block iff each coordinate is in the block's range on its axis. -/
theorem region7_mem_blk (t : Fin cfg7.N) (i : S100000x64.Idx) :
    i ∈ ((cfg7.win 5).blk t).view.set ↔ ∀ a : Fin 2, win7_5.index t a * S4000x64.size a ≤ (i a).val ∧ (i a).val < win7_5.index t a * S4000x64.size a + S4000x64.size a := by
  show i ∈ ((View.whole main_call0_v143).slice (win7_5.rect t)).set ↔ _
  rw [View.set_slice_whole, Rect.mem_set_unit]
  exact Iff.rfl

/-- Every row block is some point's. -/
theorem region7_index_onto : ∀ (q0 : Fin 25), ∃ t : Fin cfg7.N, win7_5.index t = ![q0.val, 0] :=
  (by decide +kernel : ∀ (q0 : Fin 25), ∃ t : Fin grid7.N, win7_5.index t = ![q0.val, 0])

/-- The 25 row blocks cover the array: row i is in the block of point i / 4000. -/
theorem region7_cover (i : S100000x64.Idx) :
    ∃ t : Fin cfg7.N, (cfg7.win 5).flush t = true ∧ i ∈ ((cfg7.win 5).blk t).view.set := by
  have hi0 : (i 0).val < 100000 := (i 0).isLt
  have hi1 : (i 1).val < 64 := (i 1).isLt
  obtain ⟨t, ht⟩ := region7_index_onto ⟨(i 0).val / 4000, by omega⟩
  have q0 : win7_5.index t (0 : Fin 2) = (i 0).val / 4000 := congrFun ht 0
  have q1 : win7_5.index t (1 : Fin 2) = 0 := congrFun ht 1
  refine ⟨t, flush7_5 t, ?_⟩
  rw [region7_mem_blk]
  intro a
  match a with
  | ⟨0, _⟩ => show win7_5.index t (0 : Fin 2) * 4000 ≤ (i 0).val ∧ (i 0).val < win7_5.index t (0 : Fin 2) * 4000 + 4000; omega
  | ⟨1, _⟩ => show win7_5.index t (1 : Fin 2) * 64 ≤ (i 1).val ∧ (i 1).val < win7_5.index t (1 : Fin 2) * 64 + 64; omega

/-- THE ARRAY after the run of region 7: the two scaled aggregates and their biases summed from left to right. -/
theorem region7_out5 : (dat7 (F := Ideal) V c).arrAt 5 cfg7.N
    = scaleBias2 (M := 100000) (N := 64)
        (V c (Pipeline.arrRef spec7 0) : S100000x64.Idx → EReal) (V c (Pipeline.arrRef spec7 1) : S100000x64.Idx → EReal)
        (V c (Pipeline.arrRef spec7 2) : S100000x2.Idx → EReal)
        (V c (Pipeline.arrRef spec7 3) : S1x64.Idx → EReal) (V c (Pipeline.arrRef spec7 4) : S1x64.Idx → EReal) :=
  (dat7 (F := Ideal) V c).arrAt_eq_of_cover 5 (region7_G V c) (fun t _ => region7_flushed_eq V c t) region7_cover

end Blocks

end Cert.KernelIdeal.Hand

end
-- ==== Proof.Chain.lean ====
/-
  The idealized kernel program's result array, read back through its nine stretches of host operations and eight grid
  regions, is the reference's result as a function of the argument arrays: stage by stage the two programs compute the
  same whole-array values — the inverse-square-root degree vectors, the scaled dense transforms, the gathered and
  scatter-added aggregates, the scaled and biased sums — the kernel's regions by blocks of 4000 rows, the reference in one
  piece.
-/
import proofs.«181625_j69492570849588_2_alg».proof.Proof.Gen.KernelIdeal.Frame
import proofs.«181625_j69492570849588_2_alg».proof.Proof.Gen.ReferenceIdeal.Read
import proofs.«181625_j69492570849588_2_alg».proof.Proof.LibGraphConv
import proofs.«181625_j69492570849588_2_alg».proof.Proof.LibHostForms
import proofs.«181625_j69492570849588_2_alg».proof.Proof.Region0
import proofs.«181625_j69492570849588_2_alg».proof.Proof.Region1
import proofs.«181625_j69492570849588_2_alg».proof.Proof.Region2
import proofs.«181625_j69492570849588_2_alg».proof.Proof.Region3
import proofs.«181625_j69492570849588_2_alg».proof.Proof.Region4
import proofs.«181625_j69492570849588_2_alg».proof.Proof.Region5
import proofs.«181625_j69492570849588_2_alg».proof.Proof.Region6
import proofs.«181625_j69492570849588_2_alg».proof.Proof.Region7
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen

/-- Contents carried to a buffer's own type and back are the contents. -/
theorem ofBuf_toBuf {T : BufTy} {Val : EltTy → Type} (x : StableHlo.TRef sig T) (v : T.Contents Val) : x.ofBuf (x.toBuf v) = v := by
  obtain ⟨ref, rfl, h1, h2⟩ := x
  rfl

section Chain
open Cert.ReferenceIdeal.Read
variable (m : (ℓ : Loc nD τ sig) → Buf (Elt Ideal) ℓ) (ρ : Dev nD → PrngReg) (c : Dev nD)
/-! ## The first stretch: the six inverse-square-root degree vectors and the packed pair of the two that region 0 scales by -/
theorem W1_v11 : W1 (F := Ideal) m ρ c (Proc.devRef .tc main_call0_v11) = Cert.ReferenceIdeal.Read.val_main_v10 (F := Ideal) (m ((c : Thread nD τ).loc main_arg2)) := by
  show StableHlo.after hostOps0 (W0 m ρ c) _ = _
  dsimp only [hostOps0]
  after_results_simp
  try simp only [ofBuf_toBuf]
  rfl
theorem W1_v15 : W1 (F := Ideal) m ρ c (Proc.devRef .tc main_call0_v15) = Cert.ReferenceIdeal.Read.val_main_v14 (F := Ideal) (m ((c : Thread nD τ).loc main_arg3)) := by
  show StableHlo.after hostOps0 (W0 m ρ c) _ = _
  dsimp only [hostOps0]
  after_results_simp
  try simp only [ofBuf_toBuf]
  rfl
theorem W1_v27 : W1 (F := Ideal) m ρ c (Proc.devRef .tc main_call0_v27) = Cert.ReferenceIdeal.Read.val_main_v45 (F := Ideal) (m ((c : Thread nD τ).loc main_arg4)) := by
  show StableHlo.after hostOps0 (W0 m ρ c) _ = _
  dsimp only [hostOps0]
  after_results_simp
  try simp only [ofBuf_toBuf]
  rfl
theorem W1_v31 : W1 (F := Ideal) m ρ c (Proc.devRef .tc main_call0_v31) = Cert.ReferenceIdeal.Read.val_main_v49 (F := Ideal) (m ((c : Thread nD τ).loc main_arg5)) := by
  show StableHlo.after hostOps0 (W0 m ρ c) _ = _
  dsimp only [hostOps0]
  after_results_simp
  try simp only [ofBuf_toBuf]
  rfl
theorem W1_v43 : W1 (F := Ideal) m ρ c (Proc.devRef .tc main_call0_v43) = Cert.ReferenceIdeal.Read.val_main_v80 (F := Ideal) (m ((c : Thread nD τ).loc main_arg6)) := by
  show StableHlo.after hostOps0 (W0 m ρ c) _ = _
  dsimp only [hostOps0]
  after_results_simp
  try simp only [ofBuf_toBuf]
  rfl
theorem W1_v47 : W1 (F := Ideal) m ρ c (Proc.devRef .tc main_call0_v47) = Cert.ReferenceIdeal.Read.val_main_v84 (F := Ideal) (m ((c : Thread nD τ).loc main_arg7)) := by
  show StableHlo.after hostOps0 (W0 m ρ c) _ = _
  dsimp only [hostOps0]
  after_results_simp
  try simp only [ofBuf_toBuf]
  rfl
/-- The first stretch ends with the three operations that pack two of its degree vectors side by side. -/
theorem hostOps0_tail : List.drop 72 (hostOps0 (F := Ideal))
    = [StableHlo.TRef.unary (.of main_call0_v11 : StableHlo.TRef sig ⟨S100000, .f32⟩) (.of main_call0_v48 : StableHlo.TRef sig ⟨S100000x1, .f32⟩) (broadcastInDim S100000x1 ![0] bcast_S100000_S100000x1_0),
      StableHlo.TRef.unary (.of main_call0_v43 : StableHlo.TRef sig ⟨S100000, .f32⟩) (.of main_call0_v49 : StableHlo.TRef sig ⟨S100000x1, .f32⟩) (broadcastInDim S100000x1 ![0] bcast_S100000_S100000x1_0),
      StableHlo.TRef.binary (.of main_call0_v48 : StableHlo.TRef sig ⟨S100000x1, .f32⟩) (.of main_call0_v49 : StableHlo.TRef sig ⟨S100000x1, .f32⟩) (.of main_call0_v50 : StableHlo.TRef sig ⟨S100000x2, .f32⟩) (fun a b => concatenate S100000x2 1 [⟨S100000x1, a⟩, ⟨S100000x1, b⟩] concatenates_S100000x1_S100000x1_S100000x2_d1)] := rfl
/-- Those three operations, run from any contents: the packed pair of the two vectors they read. -/
theorem tail_v50 (F : Valuation τ sig (Elt Ideal)) (b1 b2 : FVec Ideal S100000 .f32) (h1 : F (Proc.devRef .tc main_call0_v11) = b1) (h2 : F (Proc.devRef .tc main_call0_v43) = b2) :
    StableHlo.after [StableHlo.TRef.unary (.of main_call0_v11 : StableHlo.TRef sig ⟨S100000, .f32⟩) (.of main_call0_v48 : StableHlo.TRef sig ⟨S100000x1, .f32⟩) (broadcastInDim S100000x1 ![0] bcast_S100000_S100000x1_0),
      StableHlo.TRef.unary (.of main_call0_v43 : StableHlo.TRef sig ⟨S100000, .f32⟩) (.of main_call0_v49 : StableHlo.TRef sig ⟨S100000x1, .f32⟩) (broadcastInDim S100000x1 ![0] bcast_S100000_S100000x1_0),
      StableHlo.TRef.binary (.of main_call0_v48 : StableHlo.TRef sig ⟨S100000x1, .f32⟩) (.of main_call0_v49 : StableHlo.TRef sig ⟨S100000x1, .f32⟩) (.of main_call0_v50 : StableHlo.TRef sig ⟨S100000x2, .f32⟩) (fun a b => concatenate S100000x2 1 [⟨S100000x1, a⟩, ⟨S100000x1, b⟩] concatenates_S100000x1_S100000x1_S100000x2_d1)] F (Proc.devRef .tc main_call0_v50) = concatenate S100000x2 1 [⟨S100000x1, broadcastInDim S100000x1 ![0] bcast_S100000_S100000x1_0 b1⟩, ⟨S100000x1, broadcastInDim S100000x1 ![0] bcast_S100000_S100000x1_0 b2⟩] concatenates_S100000x1_S100000x1_S100000x2_d1 := by
  after_results
  rw [h1, h2]
  rfl
/-- They leave the two vectors where they were. -/
theorem tail_v11 (F : Valuation τ sig (Elt Ideal)) : StableHlo.after [StableHlo.TRef.unary (.of main_call0_v11 : StableHlo.TRef sig ⟨S100000, .f32⟩) (.of main_call0_v48 : StableHlo.TRef sig ⟨S100000x1, .f32⟩) (broadcastInDim S100000x1 ![0] bcast_S100000_S100000x1_0),
      StableHlo.TRef.unary (.of main_call0_v43 : StableHlo.TRef sig ⟨S100000, .f32⟩) (.of main_call0_v49 : StableHlo.TRef sig ⟨S100000x1, .f32⟩) (broadcastInDim S100000x1 ![0] bcast_S100000_S100000x1_0),
      StableHlo.TRef.binary (.of main_call0_v48 : StableHlo.TRef sig ⟨S100000x1, .f32⟩) (.of main_call0_v49 : StableHlo.TRef sig ⟨S100000x1, .f32⟩) (.of main_call0_v50 : StableHlo.TRef sig ⟨S100000x2, .f32⟩) (fun a b => concatenate S100000x2 1 [⟨S100000x1, a⟩, ⟨S100000x1, b⟩] concatenates_S100000x1_S100000x1_S100000x2_d1)] F (Proc.devRef .tc main_call0_v11) = F (Proc.devRef .tc main_call0_v11) := by
  after_results
theorem tail_v43 (F : Valuation τ sig (Elt Ideal)) : StableHlo.after [StableHlo.TRef.unary (.of main_call0_v11 : StableHlo.TRef sig ⟨S100000, .f32⟩) (.of main_call0_v48 : StableHlo.TRef sig ⟨S100000x1, .f32⟩) (broadcastInDim S100000x1 ![0] bcast_S100000_S100000x1_0),
      StableHlo.TRef.unary (.of main_call0_v43 : StableHlo.TRef sig ⟨S100000, .f32⟩) (.of main_call0_v49 : StableHlo.TRef sig ⟨S100000x1, .f32⟩) (broadcastInDim S100000x1 ![0] bcast_S100000_S100000x1_0),
      StableHlo.TRef.binary (.of main_call0_v48 : StableHlo.TRef sig ⟨S100000x1, .f32⟩) (.of main_call0_v49 : StableHlo.TRef sig ⟨S100000x1, .f32⟩) (.of main_call0_v50 : StableHlo.TRef sig ⟨S100000x2, .f32⟩) (fun a b => concatenate S100000x2 1 [⟨S100000x1, a⟩, ⟨S100000x1, b⟩] concatenates_S100000x1_S100000x1_S100000x2_d1)] F (Proc.devRef .tc main_call0_v43) = F (Proc.devRef .tc main_call0_v43) := by
  after_results
/-- The first stretch as its first seventy-two operations followed by the last three. -/
theorem W1_eq_tail : W1 (F := Ideal) m ρ c = StableHlo.after [StableHlo.TRef.unary (.of main_call0_v11 : StableHlo.TRef sig ⟨S100000, .f32⟩) (.of main_call0_v48 : StableHlo.TRef sig ⟨S100000x1, .f32⟩) (broadcastInDim S100000x1 ![0] bcast_S100000_S100000x1_0),
      StableHlo.TRef.unary (.of main_call0_v43 : StableHlo.TRef sig ⟨S100000, .f32⟩) (.of main_call0_v49 : StableHlo.TRef sig ⟨S100000x1, .f32⟩) (broadcastInDim S100000x1 ![0] bcast_S100000_S100000x1_0),
      StableHlo.TRef.binary (.of main_call0_v48 : StableHlo.TRef sig ⟨S100000x1, .f32⟩) (.of main_call0_v49 : StableHlo.TRef sig ⟨S100000x1, .f32⟩) (.of main_call0_v50 : StableHlo.TRef sig ⟨S100000x2, .f32⟩) (fun a b => concatenate S100000x2 1 [⟨S100000x1, a⟩, ⟨S100000x1, b⟩] concatenates_S100000x1_S100000x1_S100000x2_d1)] (StableHlo.after (List.take 72 hostOps0) (W0 m ρ c)) := by
  show StableHlo.after hostOps0 (W0 m ρ c) = _
  rw [← hostOps0_tail, ← StableHlo.after_append, List.take_append_drop]
theorem W1_v50 : W1 (F := Ideal) m ρ c (Proc.devRef .tc main_call0_v50) = concatenate S100000x2 1 [⟨S100000x1, broadcastInDim S100000x1 ![0] bcast_S100000_S100000x1_0 (Cert.ReferenceIdeal.Read.val_main_v10 (F := Ideal) (m ((c : Thread nD τ).loc main_arg2)))⟩, ⟨S100000x1, broadcastInDim S100000x1 ![0] bcast_S100000_S100000x1_0 (Cert.ReferenceIdeal.Read.val_main_v80 (F := Ideal) (m ((c : Thread nD τ).loc main_arg6)))⟩] concatenates_S100000x1_S100000x1_S100000x2_d1 := by
  have e11 := W1_v11 m ρ c
  have e43 := W1_v43 m ρ c
  rw [W1_eq_tail] at e11 e43 ⊢
  rw [tail_v11] at e11
  rw [tail_v43] at e43
  exact tail_v50 _ _ _ e11 e43
theorem W1_arg0 : W1 (F := Ideal) m ρ c (Proc.devRef .tc main_arg0) = (m ((c : Thread nD τ).loc main_arg0)) := by
  dsimp only [W1, hostOps0]
  after_results_simp
theorem W1_arg8 : W1 (F := Ideal) m ρ c (Proc.devRef .tc main_arg8) = (m ((c : Thread nD τ).loc main_arg8)) := by
  dsimp only [W1, hostOps0]
  after_results_simp
theorem W1_arg12 : W1 (F := Ideal) m ρ c (Proc.devRef .tc main_arg12) = (m ((c : Thread nD τ).loc main_arg12)) := by
  dsimp only [W1, hostOps0]
  after_results_simp
/-! ## Region 0: the two scaled dense transforms of the user features -/
theorem W2_v51_0 : W2 (F := Ideal) m ρ c (Proc.devRef .tc main_call0_v51_0) = Cert.ReferenceIdeal.Read.val_main_v18 (F := Ideal) (m ((c : Thread nD τ).loc main_arg0)) (m ((c : Thread nD τ).loc main_arg2)) (m ((c : Thread nD τ).loc main_arg8)) := by
  refine (W2_arr m ρ c 4).trans ?_
  rw [region0_out4 (V1 m ρ) c]
  show scaledProd (W1 m ρ c (Proc.devRef .tc main_arg0)) (W1 m ρ c (Proc.devRef .tc main_arg8)) (colOf (W1 m ρ c (Proc.devRef .tc main_call0_v50)) 0) = _
  rw [W1_arg0, W1_arg8, W1_v50, colOf_concat_zero,
    ← hostScaledProd_eq Cert.ReferenceIdeal.dot_S100000x256_S256x128_S100000x128_1_0_0_1_n_n ?_ none _ _ Cert.ReferenceIdeal.Gen.bcast_S100000x1_S100000x128_0_1]
  · rfl
  · rfl
theorem W2_v51_1 : W2 (F := Ideal) m ρ c (Proc.devRef .tc main_call0_v51_1) = Cert.ReferenceIdeal.Read.val_main_v88 (F := Ideal) (m ((c : Thread nD τ).loc main_arg0)) (m ((c : Thread nD τ).loc main_arg6)) (m ((c : Thread nD τ).loc main_arg12)) := by
  refine (W2_arr m ρ c 5).trans ?_
  rw [region0_out5 (V1 m ρ) c]
  show scaledProd (W1 m ρ c (Proc.devRef .tc main_arg0)) (W1 m ρ c (Proc.devRef .tc main_arg12)) (colOf (W1 m ρ c (Proc.devRef .tc main_call0_v50)) 1) = _
  rw [W1_arg0, W1_arg12, W1_v50, colOf_concat_one,
    ← hostScaledProd_eq Cert.ReferenceIdeal.dot_S100000x256_S256x128_S100000x128_1_0_0_1_n_n ?_ none _ _ Cert.ReferenceIdeal.Gen.bcast_S100000x1_S100000x128_0_1]
  · rfl
  · rfl
/-! ## A degree vector reshaped to a column, and region 1: the scaled dense transform of the item features -/
theorem W2_v27 : W2 (F := Ideal) m ρ c (Proc.devRef .tc main_call0_v27) = Cert.ReferenceIdeal.Read.val_main_v45 (F := Ideal) (m ((c : Thread nD τ).loc main_arg4)) := by
  rw [W2_of_ne m ρ c main_call0_v27 (by decide)]
  exact W1_v27 m ρ c
theorem W3_v52 : W3 (F := Ideal) m ρ c (Proc.devRef .tc main_call0_v52) = broadcastInDim S100000x1 ![0] bcast_S100000_S100000x1_0 (Cert.ReferenceIdeal.Read.val_main_v45 (F := Ideal) (m ((c : Thread nD τ).loc main_arg4))) := by
  show StableHlo.after hostOps1 (W2 m ρ c) _ = _
  dsimp only [hostOps1]
  after_results_simp
  try simp only [ofBuf_toBuf]
  rw [W2_v27]
  exact shapeCast_col_eq (M := 100000) shapeCasts_S100000_S100000x1 bcast_S100000_S100000x1_0 (Cert.ReferenceIdeal.Read.val_main_v45 (F := Ideal) (m ((c : Thread nD τ).loc main_arg4)))
theorem W3_arg1 : W3 (F := Ideal) m ρ c (Proc.devRef .tc main_arg1) = (m ((c : Thread nD τ).loc main_arg1)) := by
  dsimp only [W3, hostOps1]
  after_results_simp
  rw [W2_of_ne m ρ c main_arg1 (by decide)]
  dsimp only [W1, hostOps0]
  after_results_simp
theorem W3_arg10 : W3 (F := Ideal) m ρ c (Proc.devRef .tc main_arg10) = (m ((c : Thread nD τ).loc main_arg10)) := by
  dsimp only [W3, hostOps1]
  after_results_simp
  rw [W2_of_ne m ρ c main_arg10 (by decide)]
  dsimp only [W1, hostOps0]
  after_results_simp
theorem W4_v53 : W4 (F := Ideal) m ρ c (Proc.devRef .tc main_call0_v53) = Cert.ReferenceIdeal.Read.val_main_v53 (F := Ideal) (m ((c : Thread nD τ).loc main_arg1)) (m ((c : Thread nD τ).loc main_arg4)) (m ((c : Thread nD τ).loc main_arg10)) := by
  refine (W4_arr m ρ c 3).trans ?_
  rw [region1_out3 (V3 m ρ) c]
  show scaledProd (W3 m ρ c (Proc.devRef .tc main_arg1)) (W3 m ρ c (Proc.devRef .tc main_arg10)) (W3 m ρ c (Proc.devRef .tc main_call0_v52)) = _
  rw [W3_arg1, W3_arg10, W3_v52,
    ← hostScaledProd_eq Cert.ReferenceIdeal.dot_S100000x128_S128x128_S100000x128_1_0_0_1_n_n ?_ none _ _ Cert.ReferenceIdeal.Gen.bcast_S100000x1_S100000x128_0_1]
  · rfl
  · rfl
/-! ## The three first-layer aggregates: each transform gathered along its relation's sources and summed into the destinations -/
theorem W4_v51_0 : W4 (F := Ideal) m ρ c (Proc.devRef .tc main_call0_v51_0) = Cert.ReferenceIdeal.Read.val_main_v18 (F := Ideal) (m ((c : Thread nD τ).loc main_arg0)) (m ((c : Thread nD τ).loc main_arg2)) (m ((c : Thread nD τ).loc main_arg8)) := by
  rw [W4_of_ne m ρ c main_call0_v51_0 (by decide)]
  dsimp only [W3, hostOps1]
  after_results_simp
  exact W2_v51_0 m ρ c
theorem W4_v51_1 : W4 (F := Ideal) m ρ c (Proc.devRef .tc main_call0_v51_1) = Cert.ReferenceIdeal.Read.val_main_v88 (F := Ideal) (m ((c : Thread nD τ).loc main_arg0)) (m ((c : Thread nD τ).loc main_arg6)) (m ((c : Thread nD τ).loc main_arg12)) := by
  rw [W4_of_ne m ρ c main_call0_v51_1 (by decide)]
  dsimp only [W3, hostOps1]
  after_results_simp
  exact W2_v51_1 m ρ c
theorem W4_v15 : W4 (F := Ideal) m ρ c (Proc.devRef .tc main_call0_v15) = Cert.ReferenceIdeal.Read.val_main_v14 (F := Ideal) (m ((c : Thread nD τ).loc main_arg3)) := by
  rw [W4_of_ne m ρ c main_call0_v15 (by decide)]
  dsimp only [W3, hostOps1]
  after_results_simp
  rw [W2_of_ne m ρ c main_call0_v15 (by decide)]
  exact W1_v15 m ρ c
theorem W4_arg2 : W4 (F := Ideal) m ρ c (Proc.devRef .tc main_arg2) = (m ((c : Thread nD τ).loc main_arg2)) := by
  rw [W4_of_ne m ρ c main_arg2 (by decide)]
  dsimp only [W3, hostOps1]
  after_results_simp
  rw [W2_of_ne m ρ c main_arg2 (by decide)]
  dsimp only [W1, hostOps0]
  after_results_simp
theorem W4_arg3 : W4 (F := Ideal) m ρ c (Proc.devRef .tc main_arg3) = (m ((c : Thread nD τ).loc main_arg3)) := by
  rw [W4_of_ne m ρ c main_arg3 (by decide)]
  dsimp only [W3, hostOps1]
  after_results_simp
  rw [W2_of_ne m ρ c main_arg3 (by decide)]
  dsimp only [W1, hostOps0]
  after_results_simp
theorem W4_arg4 : W4 (F := Ideal) m ρ c (Proc.devRef .tc main_arg4) = (m ((c : Thread nD τ).loc main_arg4)) := by
  rw [W4_of_ne m ρ c main_arg4 (by decide)]
  dsimp only [W3, hostOps1]
  after_results_simp
  rw [W2_of_ne m ρ c main_arg4 (by decide)]
  dsimp only [W1, hostOps0]
  after_results_simp
theorem W4_arg5 : W4 (F := Ideal) m ρ c (Proc.devRef .tc main_arg5) = (m ((c : Thread nD τ).loc main_arg5)) := by
  rw [W4_of_ne m ρ c main_arg5 (by decide)]
  dsimp only [W3, hostOps1]
  after_results_simp
  rw [W2_of_ne m ρ c main_arg5 (by decide)]
  dsimp only [W1, hostOps0]
  after_results_simp
theorem W4_arg6 : W4 (F := Ideal) m ρ c (Proc.devRef .tc main_arg6) = (m ((c : Thread nD τ).loc main_arg6)) := by
  rw [W4_of_ne m ρ c main_arg6 (by decide)]
  dsimp only [W3, hostOps1]
  after_results_simp
  rw [W2_of_ne m ρ c main_arg6 (by decide)]
  dsimp only [W1, hostOps0]
  after_results_simp
theorem W4_arg7 : W4 (F := Ideal) m ρ c (Proc.devRef .tc main_arg7) = (m ((c : Thread nD τ).loc main_arg7)) := by
  rw [W4_of_ne m ρ c main_arg7 (by decide)]
  dsimp only [W3, hostOps1]
  after_results_simp
  rw [W2_of_ne m ρ c main_arg7 (by decide)]
  dsimp only [W1, hostOps0]
  after_results_simp
theorem W4_arg9 : W4 (F := Ideal) m ρ c (Proc.devRef .tc main_arg9) = (m ((c : Thread nD τ).loc main_arg9)) := by
  rw [W4_of_ne m ρ c main_arg9 (by decide)]
  dsimp only [W3, hostOps1]
  after_results_simp
  rw [W2_of_ne m ρ c main_arg9 (by decide)]
  dsimp only [W1, hostOps0]
  after_results_simp
theorem W5_v64 : W5 (F := Ideal) m ρ c (Proc.devRef .tc main_call0_v64) = Cert.ReferenceIdeal.Read.val_main_v28 (F := Ideal) (m ((c : Thread nD τ).loc main_arg0)) (m ((c : Thread nD τ).loc main_arg2)) (m ((c : Thread nD τ).loc main_arg3)) (m ((c : Thread nD τ).loc main_arg8)) := by
  show StableHlo.after hostOps2 (W4 m ρ c) _ = _
  dsimp only [hostOps2]
  after_results_simp
  try simp only [ofBuf_toBuf]
  generalize hb : W4 m ρ c (Proc.tc.devRef main_call0_v51_0) = b
  have eb : Cert.ReferenceIdeal.Read.val_main_v18 (F := Ideal) (m ((c : Thread nD τ).loc main_arg0)) (m ((c : Thread nD τ).loc main_arg2)) (m ((c : Thread nD τ).loc main_arg8)) = b := (W4_v51_0 m ρ c).symm.trans hb
  rw [W4_arg2, W4_arg3]
  unfold Cert.ReferenceIdeal.Read.val_main_v28 Cert.ReferenceIdeal.Read.val_main_v25
  rw [eb]
  rfl
theorem W5_v75 : W5 (F := Ideal) m ρ c (Proc.devRef .tc main_call0_v75) = Cert.ReferenceIdeal.Read.val_main_v63 (F := Ideal) (m ((c : Thread nD τ).loc main_arg1)) (m ((c : Thread nD τ).loc main_arg4)) (m ((c : Thread nD τ).loc main_arg5)) (m ((c : Thread nD τ).loc main_arg10)) := by
  show StableHlo.after hostOps2 (W4 m ρ c) _ = _
  dsimp only [hostOps2]
  after_results_simp
  try simp only [ofBuf_toBuf]
  generalize hb : W4 m ρ c (Proc.tc.devRef main_call0_v53) = b
  have eb : Cert.ReferenceIdeal.Read.val_main_v53 (F := Ideal) (m ((c : Thread nD τ).loc main_arg1)) (m ((c : Thread nD τ).loc main_arg4)) (m ((c : Thread nD τ).loc main_arg10)) = b := (W4_v53 m ρ c).symm.trans hb
  rw [W4_arg4, W4_arg5]
  unfold Cert.ReferenceIdeal.Read.val_main_v63 Cert.ReferenceIdeal.Read.val_main_v60
  rw [eb]
  rfl
theorem W5_v86 : W5 (F := Ideal) m ρ c (Proc.devRef .tc main_call0_v86) = Cert.ReferenceIdeal.Read.val_main_v98 (F := Ideal) (m ((c : Thread nD τ).loc main_arg0)) (m ((c : Thread nD τ).loc main_arg6)) (m ((c : Thread nD τ).loc main_arg7)) (m ((c : Thread nD τ).loc main_arg12)) := by
  show StableHlo.after hostOps2 (W4 m ρ c) _ = _
  dsimp only [hostOps2]
  after_results_simp
  try simp only [ofBuf_toBuf]
  generalize hb : W4 m ρ c (Proc.tc.devRef main_call0_v51_1) = b
  have eb : Cert.ReferenceIdeal.Read.val_main_v88 (F := Ideal) (m ((c : Thread nD τ).loc main_arg0)) (m ((c : Thread nD τ).loc main_arg6)) (m ((c : Thread nD τ).loc main_arg12)) = b := (W4_v51_1 m ρ c).symm.trans hb
  rw [W4_arg6, W4_arg7]
  unfold Cert.ReferenceIdeal.Read.val_main_v98 Cert.ReferenceIdeal.Read.val_main_v95
  rw [eb]
  rfl
theorem W5_v87 : W5 (F := Ideal) m ρ c (Proc.devRef .tc main_call0_v87) = broadcastInDim S100000x1 ![0] bcast_S100000_S100000x1_0 (Cert.ReferenceIdeal.Read.val_main_v14 (F := Ideal) (m ((c : Thread nD τ).loc main_arg3))) := by
  show StableHlo.after hostOps2 (W4 m ρ c) _ = _
  dsimp only [hostOps2]
  after_results_simp
  try simp only [ofBuf_toBuf]
  rw [W4_v15]
  exact shapeCast_col_eq (M := 100000) shapeCasts_S100000_S100000x1 bcast_S100000_S100000x1_0 (Cert.ReferenceIdeal.Read.val_main_v14 (F := Ideal) (m ((c : Thread nD τ).loc main_arg3)))
theorem W5_v88 : W5 (F := Ideal) m ρ c (Proc.devRef .tc main_call0_v88) = broadcastInDim S1x128 ![1] Cert.ReferenceIdeal.Gen.bcast_S128_S1x128_1 ((m ((c : Thread nD τ).loc main_arg9))) := by
  show StableHlo.after hostOps2 (W4 m ρ c) _ = _
  dsimp only [hostOps2]
  after_results_simp
  try simp only [ofBuf_toBuf]
  rw [W4_arg9]
  exact shapeCast_row_eq (N := 128) shapeCasts_S128_S1x128 Cert.ReferenceIdeal.Gen.bcast_S128_S1x128_1 (m ((c : Thread nD τ).loc main_arg9))
/-! ## Region 2: the item nodes' hidden features, one relation scaled and biased, clamped at zero -/
theorem W6_v89 : W6 (F := Ideal) m ρ c (Proc.devRef .tc main_call0_v89) = Cert.ReferenceIdeal.Read.val_main_v107 (F := Ideal) (m ((c : Thread nD τ).loc main_arg0)) (m ((c : Thread nD τ).loc main_arg2)) (m ((c : Thread nD τ).loc main_arg3)) (m ((c : Thread nD τ).loc main_arg8)) (m ((c : Thread nD τ).loc main_arg9)) := by
  refine (W6_arr m ρ c 3).trans ?_
  rw [region2_out3 (V5 m ρ) c]
  show reluOf (scaleBias (W5 m ρ c (Proc.devRef .tc main_call0_v64)) (W5 m ρ c (Proc.devRef .tc main_call0_v87)) (W5 m ρ c (Proc.devRef .tc main_call0_v88))) = _
  rw [W5_v64, W5_v87, W5_v88, ← hostScaleBias_eq _ Cert.ReferenceIdeal.Gen.bcast_S100000x1_S100000x128_0_1 _ Cert.ReferenceIdeal.Gen.bcast_S1x128_S100000x128_0_1 _, ← hostRelu_eq _ Cert.ReferenceIdeal.Gen.bcast_S_S100000x128]
  rfl
/-! ## Region 3: the user nodes' hidden features, two relations scaled, biased and summed, clamped at zero -/
theorem W6_v31 : W6 (F := Ideal) m ρ c (Proc.devRef .tc main_call0_v31) = Cert.ReferenceIdeal.Read.val_main_v49 (F := Ideal) (m ((c : Thread nD τ).loc main_arg5)) := by
  rw [W6_of_ne m ρ c main_call0_v31 (by decide)]
  dsimp only [W5, hostOps2]
  after_results_simp
  rw [W4_of_ne m ρ c main_call0_v31 (by decide)]
  dsimp only [W3, hostOps1]
  after_results_simp
  rw [W2_of_ne m ρ c main_call0_v31 (by decide)]
  exact W1_v31 m ρ c
theorem W6_v47 : W6 (F := Ideal) m ρ c (Proc.devRef .tc main_call0_v47) = Cert.ReferenceIdeal.Read.val_main_v84 (F := Ideal) (m ((c : Thread nD τ).loc main_arg7)) := by
  rw [W6_of_ne m ρ c main_call0_v47 (by decide)]
  dsimp only [W5, hostOps2]
  after_results_simp
  rw [W4_of_ne m ρ c main_call0_v47 (by decide)]
  dsimp only [W3, hostOps1]
  after_results_simp
  rw [W2_of_ne m ρ c main_call0_v47 (by decide)]
  exact W1_v47 m ρ c
theorem W6_arg11 : W6 (F := Ideal) m ρ c (Proc.devRef .tc main_arg11) = (m ((c : Thread nD τ).loc main_arg11)) := by
  rw [W6_of_ne m ρ c main_arg11 (by decide)]
  dsimp only [W5, hostOps2]
  after_results_simp
  rw [W4_of_ne m ρ c main_arg11 (by decide)]
  dsimp only [W3, hostOps1]
  after_results_simp
  rw [W2_of_ne m ρ c main_arg11 (by decide)]
  dsimp only [W1, hostOps0]
  after_results_simp
theorem W6_arg13 : W6 (F := Ideal) m ρ c (Proc.devRef .tc main_arg13) = (m ((c : Thread nD τ).loc main_arg13)) := by
  rw [W6_of_ne m ρ c main_arg13 (by decide)]
  dsimp only [W5, hostOps2]
  after_results_simp
  rw [W4_of_ne m ρ c main_arg13 (by decide)]
  dsimp only [W3, hostOps1]
  after_results_simp
  rw [W2_of_ne m ρ c main_arg13 (by decide)]
  dsimp only [W1, hostOps0]
  after_results_simp
theorem W7_v75 : W7 (F := Ideal) m ρ c (Proc.devRef .tc main_call0_v75) = Cert.ReferenceIdeal.Read.val_main_v63 (F := Ideal) (m ((c : Thread nD τ).loc main_arg1)) (m ((c : Thread nD τ).loc main_arg4)) (m ((c : Thread nD τ).loc main_arg5)) (m ((c : Thread nD τ).loc main_arg10)) := by
  dsimp only [W7, hostOps3]
  after_results_simp
  rw [W6_of_ne m ρ c main_call0_v75 (by decide)]
  exact W5_v75 m ρ c
theorem W7_v86 : W7 (F := Ideal) m ρ c (Proc.devRef .tc main_call0_v86) = Cert.ReferenceIdeal.Read.val_main_v98 (F := Ideal) (m ((c : Thread nD τ).loc main_arg0)) (m ((c : Thread nD τ).loc main_arg6)) (m ((c : Thread nD τ).loc main_arg7)) (m ((c : Thread nD τ).loc main_arg12)) := by
  dsimp only [W7, hostOps3]
  after_results_simp
  rw [W6_of_ne m ρ c main_call0_v86 (by decide)]
  exact W5_v86 m ρ c
theorem W7_v92 : W7 (F := Ideal) m ρ c (Proc.devRef .tc main_call0_v92) = concatenate S100000x2 1 [⟨S100000x1, broadcastInDim S100000x1 ![0] bcast_S100000_S100000x1_0 (Cert.ReferenceIdeal.Read.val_main_v49 (F := Ideal) (m ((c : Thread nD τ).loc main_arg5)))⟩, ⟨S100000x1, broadcastInDim S100000x1 ![0] bcast_S100000_S100000x1_0 (Cert.ReferenceIdeal.Read.val_main_v84 (F := Ideal) (m ((c : Thread nD τ).loc main_arg7)))⟩] concatenates_S100000x1_S100000x1_S100000x2_d1 := by
  show StableHlo.after hostOps3 (W6 m ρ c) _ = _
  dsimp only [hostOps3]
  after_results
  try simp only [ofBuf_toBuf]
  generalize h1 : W6 m ρ c (Proc.tc.devRef main_call0_v31) = b1
  generalize h2 : W6 m ρ c (Proc.tc.devRef main_call0_v47) = b2
  rw [show Cert.ReferenceIdeal.Read.val_main_v49 (F := Ideal) (m ((c : Thread nD τ).loc main_arg5)) = b1 from (W6_v31 m ρ c).symm.trans h1, show Cert.ReferenceIdeal.Read.val_main_v84 (F := Ideal) (m ((c : Thread nD τ).loc main_arg7)) = b2 from (W6_v47 m ρ c).symm.trans h2]
  rfl
theorem W7_v93 : W7 (F := Ideal) m ρ c (Proc.devRef .tc main_call0_v93) = broadcastInDim S1x128 ![1] Cert.ReferenceIdeal.Gen.bcast_S128_S1x128_1 ((m ((c : Thread nD τ).loc main_arg11))) := by
  show StableHlo.after hostOps3 (W6 m ρ c) _ = _
  dsimp only [hostOps3]
  after_results_simp
  try simp only [ofBuf_toBuf]
  rw [W6_arg11]
  exact shapeCast_row_eq (N := 128) shapeCasts_S128_S1x128 Cert.ReferenceIdeal.Gen.bcast_S128_S1x128_1 (m ((c : Thread nD τ).loc main_arg11))
theorem W7_v94 : W7 (F := Ideal) m ρ c (Proc.devRef .tc main_call0_v94) = broadcastInDim S1x128 ![1] Cert.ReferenceIdeal.Gen.bcast_S128_S1x128_1 ((m ((c : Thread nD τ).loc main_arg13))) := by
  show StableHlo.after hostOps3 (W6 m ρ c) _ = _
  dsimp only [hostOps3]
  after_results_simp
  try simp only [ofBuf_toBuf]
  rw [W6_arg13]
  exact shapeCast_row_eq (N := 128) shapeCasts_S128_S1x128 Cert.ReferenceIdeal.Gen.bcast_S128_S1x128_1 (m ((c : Thread nD τ).loc main_arg13))
theorem W8_v95 : W8 (F := Ideal) m ρ c (Proc.devRef .tc main_call0_v95) = Cert.ReferenceIdeal.Read.val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) := by
  refine (W8_arr m ρ c 5).trans ?_
  rw [region3_out5 (V7 m ρ) c]
  show reluOf (scaleBias2 (W7 m ρ c (Proc.devRef .tc main_call0_v75)) (W7 m ρ c (Proc.devRef .tc main_call0_v86)) (W7 m ρ c (Proc.devRef .tc main_call0_v92)) (W7 m ρ c (Proc.devRef .tc main_call0_v93)) (W7 m ρ c (Proc.devRef .tc main_call0_v94))) = _
  rw [W7_v75, W7_v86, W7_v92, W7_v93, W7_v94, ← hostSum2_eq, colOf_concat_zero, colOf_concat_one,
    ← hostScaleBias_eq _ Cert.ReferenceIdeal.Gen.bcast_S100000x1_S100000x128_0_1 _ Cert.ReferenceIdeal.Gen.bcast_S1x128_S100000x128_0_1 _,
    ← hostScaleBias_eq _ Cert.ReferenceIdeal.Gen.bcast_S100000x1_S100000x128_0_1 _ Cert.ReferenceIdeal.Gen.bcast_S1x128_S100000x128_0_1 _,
    ← hostRelu_eq _ Cert.ReferenceIdeal.Gen.bcast_S_S100000x128]
  rfl
/-! ## Region 4: the two scaled dense transforms of the users' hidden features -/
theorem W8_v11 : W8 (F := Ideal) m ρ c (Proc.devRef .tc main_call0_v11) = Cert.ReferenceIdeal.Read.val_main_v10 (F := Ideal) (m ((c : Thread nD τ).loc main_arg2)) := by
  rw [W8_of_ne m ρ c main_call0_v11 (by decide)]
  dsimp only [W7, hostOps3]
  after_results_simp
  rw [W6_of_ne m ρ c main_call0_v11 (by decide)]
  dsimp only [W5, hostOps2]
  after_results_simp
  rw [W4_of_ne m ρ c main_call0_v11 (by decide)]
  dsimp only [W3, hostOps1]
  after_results_simp
  rw [W2_of_ne m ρ c main_call0_v11 (by decide)]
  exact W1_v11 m ρ c
theorem W8_v43 : W8 (F := Ideal) m ρ c (Proc.devRef .tc main_call0_v43) = Cert.ReferenceIdeal.Read.val_main_v80 (F := Ideal) (m ((c : Thread nD τ).loc main_arg6)) := by
  rw [W8_of_ne m ρ c main_call0_v43 (by decide)]
  dsimp only [W7, hostOps3]
  after_results_simp
  rw [W6_of_ne m ρ c main_call0_v43 (by decide)]
  dsimp only [W5, hostOps2]
  after_results_simp
  rw [W4_of_ne m ρ c main_call0_v43 (by decide)]
  dsimp only [W3, hostOps1]
  after_results_simp
  rw [W2_of_ne m ρ c main_call0_v43 (by decide)]
  exact W1_v43 m ρ c
theorem W9_v98 : W9 (F := Ideal) m ρ c (Proc.devRef .tc main_call0_v98) = concatenate S100000x2 1 [⟨S100000x1, broadcastInDim S100000x1 ![0] bcast_S100000_S100000x1_0 (Cert.ReferenceIdeal.Read.val_main_v10 (F := Ideal) (m ((c : Thread nD τ).loc main_arg2)))⟩, ⟨S100000x1, broadcastInDim S100000x1 ![0] bcast_S100000_S100000x1_0 (Cert.ReferenceIdeal.Read.val_main_v80 (F := Ideal) (m ((c : Thread nD τ).loc main_arg6)))⟩] concatenates_S100000x1_S100000x1_S100000x2_d1 := by
  show StableHlo.after hostOps4 (W8 m ρ c) _ = _
  dsimp only [hostOps4]
  after_results
  try simp only [ofBuf_toBuf]
  generalize h1 : W8 m ρ c (Proc.tc.devRef main_call0_v11) = b1
  generalize h2 : W8 m ρ c (Proc.tc.devRef main_call0_v43) = b2
  rw [show Cert.ReferenceIdeal.Read.val_main_v10 (F := Ideal) (m ((c : Thread nD τ).loc main_arg2)) = b1 from (W8_v11 m ρ c).symm.trans h1, show Cert.ReferenceIdeal.Read.val_main_v80 (F := Ideal) (m ((c : Thread nD τ).loc main_arg6)) = b2 from (W8_v43 m ρ c).symm.trans h2]
  rfl
theorem W9_v95 : W9 (F := Ideal) m ρ c (Proc.devRef .tc main_call0_v95) = Cert.ReferenceIdeal.Read.val_main_v106 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) := by
  dsimp only [W9, hostOps4]
  after_results_simp
  exact W8_v95 m ρ c
theorem W9_arg14 : W9 (F := Ideal) m ρ c (Proc.devRef .tc main_arg14) = (m ((c : Thread nD τ).loc main_arg14)) := by
  dsimp only [W9, hostOps4]
  after_results_simp
  rw [W8_of_ne m ρ c main_arg14 (by decide)]
  dsimp only [W7, hostOps3]
  after_results_simp
  rw [W6_of_ne m ρ c main_arg14 (by decide)]
  dsimp only [W5, hostOps2]
  after_results_simp
  rw [W4_of_ne m ρ c main_arg14 (by decide)]
  dsimp only [W3, hostOps1]
  after_results_simp
  rw [W2_of_ne m ρ c main_arg14 (by decide)]
  dsimp only [W1, hostOps0]
  after_results_simp
theorem W9_arg18 : W9 (F := Ideal) m ρ c (Proc.devRef .tc main_arg18) = (m ((c : Thread nD τ).loc main_arg18)) := by
  dsimp only [W9, hostOps4]
  after_results_simp
  rw [W8_of_ne m ρ c main_arg18 (by decide)]
  dsimp only [W7, hostOps3]
  after_results_simp
  rw [W6_of_ne m ρ c main_arg18 (by decide)]
  dsimp only [W5, hostOps2]
  after_results_simp
  rw [W4_of_ne m ρ c main_arg18 (by decide)]
  dsimp only [W3, hostOps1]
  after_results_simp
  rw [W2_of_ne m ρ c main_arg18 (by decide)]
  dsimp only [W1, hostOps0]
  after_results_simp
theorem W10_v99_0 : W10 (F := Ideal) m ρ c (Proc.devRef .tc main_call0_v99_0) = Cert.ReferenceIdeal.Read.val_main_v126 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 4).trans ?_
  rw [region4_out4 (V9 m ρ) c]
  show scaledProd (W9 m ρ c (Proc.devRef .tc main_call0_v95)) (W9 m ρ c (Proc.devRef .tc main_arg14)) (colOf (W9 m ρ c (Proc.devRef .tc main_call0_v98)) 0) = _
  rw [W9_v95, W9_arg14, W9_v98, colOf_concat_zero,
    ← hostScaledProd_eq Cert.ReferenceIdeal.dot_S100000x128_S128x64_S100000x64_1_0_0_1_n_n ?_ none _ _ Cert.ReferenceIdeal.Gen.bcast_S100000x1_S100000x64_0_1]
  · rfl
  · rfl
theorem W10_v99_1 : W10 (F := Ideal) m ρ c (Proc.devRef .tc main_call0_v99_1) = Cert.ReferenceIdeal.Read.val_main_v196 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg18)) := by
  refine (W10_arr m ρ c 5).trans ?_
  rw [region4_out5 (V9 m ρ) c]
  show scaledProd (W9 m ρ c (Proc.devRef .tc main_call0_v95)) (W9 m ρ c (Proc.devRef .tc main_arg18)) (colOf (W9 m ρ c (Proc.devRef .tc main_call0_v98)) 1) = _
  rw [W9_v95, W9_arg18, W9_v98, colOf_concat_one,
    ← hostScaledProd_eq Cert.ReferenceIdeal.dot_S100000x128_S128x64_S100000x64_1_0_0_1_n_n ?_ none _ _ Cert.ReferenceIdeal.Gen.bcast_S100000x1_S100000x64_0_1]
  · rfl
  · rfl
/-! ## Region 5: the scaled dense transform of the items' hidden features -/
theorem W10_v27 : W10 (F := Ideal) m ρ c (Proc.devRef .tc main_call0_v27) = Cert.ReferenceIdeal.Read.val_main_v45 (F := Ideal) (m ((c : Thread nD τ).loc main_arg4)) := by
  rw [W10_of_ne m ρ c main_call0_v27 (by decide)]
  dsimp only [W9, hostOps4]
  after_results_simp
  rw [W8_of_ne m ρ c main_call0_v27 (by decide)]
  dsimp only [W7, hostOps3]
  after_results_simp
  rw [W6_of_ne m ρ c main_call0_v27 (by decide)]
  dsimp only [W5, hostOps2]
  after_results_simp
  rw [W4_of_ne m ρ c main_call0_v27 (by decide)]
  dsimp only [W3, hostOps1]
  after_results_simp
  rw [W2_of_ne m ρ c main_call0_v27 (by decide)]
  exact W1_v27 m ρ c
theorem W11_v100 : W11 (F := Ideal) m ρ c (Proc.devRef .tc main_call0_v100) = broadcastInDim S100000x1 ![0] bcast_S100000_S100000x1_0 (Cert.ReferenceIdeal.Read.val_main_v45 (F := Ideal) (m ((c : Thread nD τ).loc main_arg4))) := by
  show StableHlo.after hostOps5 (W10 m ρ c) _ = _
  dsimp only [hostOps5]
  after_results_simp
  try simp only [ofBuf_toBuf]
  rw [W10_v27]
  exact shapeCast_col_eq (M := 100000) shapeCasts_S100000_S100000x1 bcast_S100000_S100000x1_0 (Cert.ReferenceIdeal.Read.val_main_v45 (F := Ideal) (m ((c : Thread nD τ).loc main_arg4)))
theorem W11_v89 : W11 (F := Ideal) m ρ c (Proc.devRef .tc main_call0_v89) = Cert.ReferenceIdeal.Read.val_main_v107 (F := Ideal) (m ((c : Thread nD τ).loc main_arg0)) (m ((c : Thread nD τ).loc main_arg2)) (m ((c : Thread nD τ).loc main_arg3)) (m ((c : Thread nD τ).loc main_arg8)) (m ((c : Thread nD τ).loc main_arg9)) := by
  dsimp only [W11, hostOps5]
  after_results_simp
  rw [W10_of_ne m ρ c main_call0_v89 (by decide)]
  dsimp only [W9, hostOps4]
  after_results_simp
  rw [W8_of_ne m ρ c main_call0_v89 (by decide)]
  dsimp only [W7, hostOps3]
  after_results_simp
  exact W6_v89 m ρ c
theorem W11_arg16 : W11 (F := Ideal) m ρ c (Proc.devRef .tc main_arg16) = (m ((c : Thread nD τ).loc main_arg16)) := by
  dsimp only [W11, hostOps5]
  after_results_simp
  rw [W10_of_ne m ρ c main_arg16 (by decide)]
  dsimp only [W9, hostOps4]
  after_results_simp
  rw [W8_of_ne m ρ c main_arg16 (by decide)]
  dsimp only [W7, hostOps3]
  after_results_simp
  rw [W6_of_ne m ρ c main_arg16 (by decide)]
  dsimp only [W5, hostOps2]
  after_results_simp
  rw [W4_of_ne m ρ c main_arg16 (by decide)]
  dsimp only [W3, hostOps1]
  after_results_simp
  rw [W2_of_ne m ρ c main_arg16 (by decide)]
  dsimp only [W1, hostOps0]
  after_results_simp
theorem W12_v101 : W12 (F := Ideal) m ρ c (Proc.devRef .tc main_call0_v101) = Cert.ReferenceIdeal.Read.val_main_v161 (F := Ideal) (m ((c : Thread nD τ).loc main_arg0)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg16)) := by
  refine (W12_arr m ρ c 3).trans ?_
  rw [region5_out3 (V11 m ρ) c]
  show scaledProd (W11 m ρ c (Proc.devRef .tc main_call0_v89)) (W11 m ρ c (Proc.devRef .tc main_arg16)) (W11 m ρ c (Proc.devRef .tc main_call0_v100)) = _
  rw [W11_v89, W11_arg16, W11_v100,
    ← hostScaledProd_eq Cert.ReferenceIdeal.dot_S100000x128_S128x64_S100000x64_1_0_0_1_n_n ?_ none _ _ Cert.ReferenceIdeal.Gen.bcast_S100000x1_S100000x64_0_1]
  · rfl
  · rfl
/-! ## The three second-layer aggregates -/
theorem W12_v99_0 : W12 (F := Ideal) m ρ c (Proc.devRef .tc main_call0_v99_0) = Cert.ReferenceIdeal.Read.val_main_v126 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W12_of_ne m ρ c main_call0_v99_0 (by decide)]
  dsimp only [W11, hostOps5]
  after_results_simp
  exact W10_v99_0 m ρ c
theorem W12_v99_1 : W12 (F := Ideal) m ρ c (Proc.devRef .tc main_call0_v99_1) = Cert.ReferenceIdeal.Read.val_main_v196 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg18)) := by
  rw [W12_of_ne m ρ c main_call0_v99_1 (by decide)]
  dsimp only [W11, hostOps5]
  after_results_simp
  exact W10_v99_1 m ρ c
theorem W12_v15 : W12 (F := Ideal) m ρ c (Proc.devRef .tc main_call0_v15) = Cert.ReferenceIdeal.Read.val_main_v14 (F := Ideal) (m ((c : Thread nD τ).loc main_arg3)) := by
  rw [W12_of_ne m ρ c main_call0_v15 (by decide)]
  dsimp only [W11, hostOps5]
  after_results_simp
  rw [W10_of_ne m ρ c main_call0_v15 (by decide)]
  dsimp only [W9, hostOps4]
  after_results_simp
  rw [W8_of_ne m ρ c main_call0_v15 (by decide)]
  dsimp only [W7, hostOps3]
  after_results_simp
  rw [W6_of_ne m ρ c main_call0_v15 (by decide)]
  dsimp only [W5, hostOps2]
  after_results_simp
  rw [W4_of_ne m ρ c main_call0_v15 (by decide)]
  dsimp only [W3, hostOps1]
  after_results_simp
  rw [W2_of_ne m ρ c main_call0_v15 (by decide)]
  exact W1_v15 m ρ c
theorem W12_arg2 : W12 (F := Ideal) m ρ c (Proc.devRef .tc main_arg2) = (m ((c : Thread nD τ).loc main_arg2)) := by
  rw [W12_of_ne m ρ c main_arg2 (by decide)]
  dsimp only [W11, hostOps5]
  after_results_simp
  rw [W10_of_ne m ρ c main_arg2 (by decide)]
  dsimp only [W9, hostOps4]
  after_results_simp
  rw [W8_of_ne m ρ c main_arg2 (by decide)]
  dsimp only [W7, hostOps3]
  after_results_simp
  rw [W6_of_ne m ρ c main_arg2 (by decide)]
  dsimp only [W5, hostOps2]
  after_results_simp
  rw [W4_of_ne m ρ c main_arg2 (by decide)]
  dsimp only [W3, hostOps1]
  after_results_simp
  rw [W2_of_ne m ρ c main_arg2 (by decide)]
  dsimp only [W1, hostOps0]
  after_results_simp
theorem W12_arg3 : W12 (F := Ideal) m ρ c (Proc.devRef .tc main_arg3) = (m ((c : Thread nD τ).loc main_arg3)) := by
  rw [W12_of_ne m ρ c main_arg3 (by decide)]
  dsimp only [W11, hostOps5]
  after_results_simp
  rw [W10_of_ne m ρ c main_arg3 (by decide)]
  dsimp only [W9, hostOps4]
  after_results_simp
  rw [W8_of_ne m ρ c main_arg3 (by decide)]
  dsimp only [W7, hostOps3]
  after_results_simp
  rw [W6_of_ne m ρ c main_arg3 (by decide)]
  dsimp only [W5, hostOps2]
  after_results_simp
  rw [W4_of_ne m ρ c main_arg3 (by decide)]
  dsimp only [W3, hostOps1]
  after_results_simp
  rw [W2_of_ne m ρ c main_arg3 (by decide)]
  dsimp only [W1, hostOps0]
  after_results_simp
theorem W12_arg4 : W12 (F := Ideal) m ρ c (Proc.devRef .tc main_arg4) = (m ((c : Thread nD τ).loc main_arg4)) := by
  rw [W12_of_ne m ρ c main_arg4 (by decide)]
  dsimp only [W11, hostOps5]
  after_results_simp
  rw [W10_of_ne m ρ c main_arg4 (by decide)]
  dsimp only [W9, hostOps4]
  after_results_simp
  rw [W8_of_ne m ρ c main_arg4 (by decide)]
  dsimp only [W7, hostOps3]
  after_results_simp
  rw [W6_of_ne m ρ c main_arg4 (by decide)]
  dsimp only [W5, hostOps2]
  after_results_simp
  rw [W4_of_ne m ρ c main_arg4 (by decide)]
  dsimp only [W3, hostOps1]
  after_results_simp
  rw [W2_of_ne m ρ c main_arg4 (by decide)]
  dsimp only [W1, hostOps0]
  after_results_simp
theorem W12_arg5 : W12 (F := Ideal) m ρ c (Proc.devRef .tc main_arg5) = (m ((c : Thread nD τ).loc main_arg5)) := by
  rw [W12_of_ne m ρ c main_arg5 (by decide)]
  dsimp only [W11, hostOps5]
  after_results_simp
  rw [W10_of_ne m ρ c main_arg5 (by decide)]
  dsimp only [W9, hostOps4]
  after_results_simp
  rw [W8_of_ne m ρ c main_arg5 (by decide)]
  dsimp only [W7, hostOps3]
  after_results_simp
  rw [W6_of_ne m ρ c main_arg5 (by decide)]
  dsimp only [W5, hostOps2]
  after_results_simp
  rw [W4_of_ne m ρ c main_arg5 (by decide)]
  dsimp only [W3, hostOps1]
  after_results_simp
  rw [W2_of_ne m ρ c main_arg5 (by decide)]
  dsimp only [W1, hostOps0]
  after_results_simp
theorem W12_arg6 : W12 (F := Ideal) m ρ c (Proc.devRef .tc main_arg6) = (m ((c : Thread nD τ).loc main_arg6)) := by
  rw [W12_of_ne m ρ c main_arg6 (by decide)]
  dsimp only [W11, hostOps5]
  after_results_simp
  rw [W10_of_ne m ρ c main_arg6 (by decide)]
  dsimp only [W9, hostOps4]
  after_results_simp
  rw [W8_of_ne m ρ c main_arg6 (by decide)]
  dsimp only [W7, hostOps3]
  after_results_simp
  rw [W6_of_ne m ρ c main_arg6 (by decide)]
  dsimp only [W5, hostOps2]
  after_results_simp
  rw [W4_of_ne m ρ c main_arg6 (by decide)]
  dsimp only [W3, hostOps1]
  after_results_simp
  rw [W2_of_ne m ρ c main_arg6 (by decide)]
  dsimp only [W1, hostOps0]
  after_results_simp
theorem W12_arg7 : W12 (F := Ideal) m ρ c (Proc.devRef .tc main_arg7) = (m ((c : Thread nD τ).loc main_arg7)) := by
  rw [W12_of_ne m ρ c main_arg7 (by decide)]
  dsimp only [W11, hostOps5]
  after_results_simp
  rw [W10_of_ne m ρ c main_arg7 (by decide)]
  dsimp only [W9, hostOps4]
  after_results_simp
  rw [W8_of_ne m ρ c main_arg7 (by decide)]
  dsimp only [W7, hostOps3]
  after_results_simp
  rw [W6_of_ne m ρ c main_arg7 (by decide)]
  dsimp only [W5, hostOps2]
  after_results_simp
  rw [W4_of_ne m ρ c main_arg7 (by decide)]
  dsimp only [W3, hostOps1]
  after_results_simp
  rw [W2_of_ne m ρ c main_arg7 (by decide)]
  dsimp only [W1, hostOps0]
  after_results_simp
theorem W12_arg15 : W12 (F := Ideal) m ρ c (Proc.devRef .tc main_arg15) = (m ((c : Thread nD τ).loc main_arg15)) := by
  rw [W12_of_ne m ρ c main_arg15 (by decide)]
  dsimp only [W11, hostOps5]
  after_results_simp
  rw [W10_of_ne m ρ c main_arg15 (by decide)]
  dsimp only [W9, hostOps4]
  after_results_simp
  rw [W8_of_ne m ρ c main_arg15 (by decide)]
  dsimp only [W7, hostOps3]
  after_results_simp
  rw [W6_of_ne m ρ c main_arg15 (by decide)]
  dsimp only [W5, hostOps2]
  after_results_simp
  rw [W4_of_ne m ρ c main_arg15 (by decide)]
  dsimp only [W3, hostOps1]
  after_results_simp
  rw [W2_of_ne m ρ c main_arg15 (by decide)]
  dsimp only [W1, hostOps0]
  after_results_simp
theorem W13_v112 : W13 (F := Ideal) m ρ c (Proc.devRef .tc main_call0_v112) = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps6 (W12 m ρ c) _ = _
  dsimp only [hostOps6]
  after_results_simp
  try simp only [ofBuf_toBuf]
  generalize hb : W12 m ρ c (Proc.tc.devRef main_call0_v99_0) = b
  have eb : Cert.ReferenceIdeal.Read.val_main_v126 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) = b := (W12_v99_0 m ρ c).symm.trans hb
  rw [W12_arg2, W12_arg3]
  unfold Cert.ReferenceIdeal.Read.val_main_v136 Cert.ReferenceIdeal.Read.val_main_v133
  rw [eb]
  rfl
theorem W13_v123 : W13 (F := Ideal) m ρ c (Proc.devRef .tc main_call0_v123) = Cert.ReferenceIdeal.Read.val_main_v171 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg16)) := by
  show StableHlo.after hostOps6 (W12 m ρ c) _ = _
  dsimp only [hostOps6]
  after_results_simp
  try simp only [ofBuf_toBuf]
  generalize hb : W12 m ρ c (Proc.tc.devRef main_call0_v101) = b
  have eb : Cert.ReferenceIdeal.Read.val_main_v161 (F := Ideal) (m ((c : Thread nD τ).loc main_arg0)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg16)) = b := (W12_v101 m ρ c).symm.trans hb
  rw [W12_arg4, W12_arg5]
  unfold Cert.ReferenceIdeal.Read.val_main_v171 Cert.ReferenceIdeal.Read.val_main_v168
  rw [eb]
  rfl
theorem W13_v134 : W13 (F := Ideal) m ρ c (Proc.devRef .tc main_call0_v134) = Cert.ReferenceIdeal.Read.val_main_v206 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg18)) := by
  show StableHlo.after hostOps6 (W12 m ρ c) _ = _
  dsimp only [hostOps6]
  after_results_simp
  try simp only [ofBuf_toBuf]
  generalize hb : W12 m ρ c (Proc.tc.devRef main_call0_v99_1) = b
  have eb : Cert.ReferenceIdeal.Read.val_main_v196 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg18)) = b := (W12_v99_1 m ρ c).symm.trans hb
  rw [W12_arg6, W12_arg7]
  unfold Cert.ReferenceIdeal.Read.val_main_v206 Cert.ReferenceIdeal.Read.val_main_v203
  rw [eb]
  rfl
theorem W13_v135 : W13 (F := Ideal) m ρ c (Proc.devRef .tc main_call0_v135) = broadcastInDim S100000x1 ![0] bcast_S100000_S100000x1_0 (Cert.ReferenceIdeal.Read.val_main_v14 (F := Ideal) (m ((c : Thread nD τ).loc main_arg3))) := by
  show StableHlo.after hostOps6 (W12 m ρ c) _ = _
  dsimp only [hostOps6]
  after_results_simp
  try simp only [ofBuf_toBuf]
  rw [W12_v15]
  exact shapeCast_col_eq (M := 100000) shapeCasts_S100000_S100000x1 bcast_S100000_S100000x1_0 (Cert.ReferenceIdeal.Read.val_main_v14 (F := Ideal) (m ((c : Thread nD τ).loc main_arg3)))
theorem W13_v136 : W13 (F := Ideal) m ρ c (Proc.devRef .tc main_call0_v136) = broadcastInDim S1x64 ![1] Cert.ReferenceIdeal.Gen.bcast_S64_S1x64_1 ((m ((c : Thread nD τ).loc main_arg15))) := by
  show StableHlo.after hostOps6 (W12 m ρ c) _ = _
  dsimp only [hostOps6]
  after_results_simp
  try simp only [ofBuf_toBuf]
  rw [W12_arg15]
  exact shapeCast_row_eq (N := 64) shapeCasts_S64_S1x64 Cert.ReferenceIdeal.Gen.bcast_S64_S1x64_1 (m ((c : Thread nD τ).loc main_arg15))
/-! ## Region 6: the item nodes' outputs -/
theorem W14_v137 : W14 (F := Ideal) m ρ c (Proc.devRef .tc main_call0_v137) = Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W14_arr m ρ c 3).trans ?_
  rw [region6_out3 (V13 m ρ) c]
  show scaleBias (W13 m ρ c (Proc.devRef .tc main_call0_v112)) (W13 m ρ c (Proc.devRef .tc main_call0_v135)) (W13 m ρ c (Proc.devRef .tc main_call0_v136)) = _
  rw [W13_v112, W13_v135, W13_v136, ← hostScaleBias_eq _ Cert.ReferenceIdeal.Gen.bcast_S100000x1_S100000x64_0_1 _ Cert.ReferenceIdeal.Gen.bcast_S1x64_S100000x64_0_1 _]
  rfl
/-! ## Region 7: the user nodes' outputs -/
theorem W14_v31 : W14 (F := Ideal) m ρ c (Proc.devRef .tc main_call0_v31) = Cert.ReferenceIdeal.Read.val_main_v49 (F := Ideal) (m ((c : Thread nD τ).loc main_arg5)) := by
  rw [W14_of_ne m ρ c main_call0_v31 (by decide)]
  dsimp only [W13, hostOps6]
  after_results_simp
  rw [W12_of_ne m ρ c main_call0_v31 (by decide)]
  dsimp only [W11, hostOps5]
  after_results_simp
  rw [W10_of_ne m ρ c main_call0_v31 (by decide)]
  dsimp only [W9, hostOps4]
  after_results_simp
  rw [W8_of_ne m ρ c main_call0_v31 (by decide)]
  dsimp only [W7, hostOps3]
  after_results_simp
  rw [W6_of_ne m ρ c main_call0_v31 (by decide)]
  dsimp only [W5, hostOps2]
  after_results_simp
  rw [W4_of_ne m ρ c main_call0_v31 (by decide)]
  dsimp only [W3, hostOps1]
  after_results_simp
  rw [W2_of_ne m ρ c main_call0_v31 (by decide)]
  exact W1_v31 m ρ c
theorem W14_v47 : W14 (F := Ideal) m ρ c (Proc.devRef .tc main_call0_v47) = Cert.ReferenceIdeal.Read.val_main_v84 (F := Ideal) (m ((c : Thread nD τ).loc main_arg7)) := by
  rw [W14_of_ne m ρ c main_call0_v47 (by decide)]
  dsimp only [W13, hostOps6]
  after_results_simp
  rw [W12_of_ne m ρ c main_call0_v47 (by decide)]
  dsimp only [W11, hostOps5]
  after_results_simp
  rw [W10_of_ne m ρ c main_call0_v47 (by decide)]
  dsimp only [W9, hostOps4]
  after_results_simp
  rw [W8_of_ne m ρ c main_call0_v47 (by decide)]
  dsimp only [W7, hostOps3]
  after_results_simp
  rw [W6_of_ne m ρ c main_call0_v47 (by decide)]
  dsimp only [W5, hostOps2]
  after_results_simp
  rw [W4_of_ne m ρ c main_call0_v47 (by decide)]
  dsimp only [W3, hostOps1]
  after_results_simp
  rw [W2_of_ne m ρ c main_call0_v47 (by decide)]
  exact W1_v47 m ρ c
theorem W14_arg17 : W14 (F := Ideal) m ρ c (Proc.devRef .tc main_arg17) = (m ((c : Thread nD τ).loc main_arg17)) := by
  rw [W14_of_ne m ρ c main_arg17 (by decide)]
  dsimp only [W13, hostOps6]
  after_results_simp
  rw [W12_of_ne m ρ c main_arg17 (by decide)]
  dsimp only [W11, hostOps5]
  after_results_simp
  rw [W10_of_ne m ρ c main_arg17 (by decide)]
  dsimp only [W9, hostOps4]
  after_results_simp
  rw [W8_of_ne m ρ c main_arg17 (by decide)]
  dsimp only [W7, hostOps3]
  after_results_simp
  rw [W6_of_ne m ρ c main_arg17 (by decide)]
  dsimp only [W5, hostOps2]
  after_results_simp
  rw [W4_of_ne m ρ c main_arg17 (by decide)]
  dsimp only [W3, hostOps1]
  after_results_simp
  rw [W2_of_ne m ρ c main_arg17 (by decide)]
  dsimp only [W1, hostOps0]
  after_results_simp
theorem W14_arg19 : W14 (F := Ideal) m ρ c (Proc.devRef .tc main_arg19) = (m ((c : Thread nD τ).loc main_arg19)) := by
  rw [W14_of_ne m ρ c main_arg19 (by decide)]
  dsimp only [W13, hostOps6]
  after_results_simp
  rw [W12_of_ne m ρ c main_arg19 (by decide)]
  dsimp only [W11, hostOps5]
  after_results_simp
  rw [W10_of_ne m ρ c main_arg19 (by decide)]
  dsimp only [W9, hostOps4]
  after_results_simp
  rw [W8_of_ne m ρ c main_arg19 (by decide)]
  dsimp only [W7, hostOps3]
  after_results_simp
  rw [W6_of_ne m ρ c main_arg19 (by decide)]
  dsimp only [W5, hostOps2]
  after_results_simp
  rw [W4_of_ne m ρ c main_arg19 (by decide)]
  dsimp only [W3, hostOps1]
  after_results_simp
  rw [W2_of_ne m ρ c main_arg19 (by decide)]
  dsimp only [W1, hostOps0]
  after_results_simp
theorem W15_v123 : W15 (F := Ideal) m ρ c (Proc.devRef .tc main_call0_v123) = Cert.ReferenceIdeal.Read.val_main_v171 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg16)) := by
  dsimp only [W15, hostOps7]
  after_results_simp
  rw [W14_of_ne m ρ c main_call0_v123 (by decide)]
  exact W13_v123 m ρ c
theorem W15_v134 : W15 (F := Ideal) m ρ c (Proc.devRef .tc main_call0_v134) = Cert.ReferenceIdeal.Read.val_main_v206 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg18)) := by
  dsimp only [W15, hostOps7]
  after_results_simp
  rw [W14_of_ne m ρ c main_call0_v134 (by decide)]
  exact W13_v134 m ρ c
theorem W15_v140 : W15 (F := Ideal) m ρ c (Proc.devRef .tc main_call0_v140) = concatenate S100000x2 1 [⟨S100000x1, broadcastInDim S100000x1 ![0] bcast_S100000_S100000x1_0 (Cert.ReferenceIdeal.Read.val_main_v49 (F := Ideal) (m ((c : Thread nD τ).loc main_arg5)))⟩, ⟨S100000x1, broadcastInDim S100000x1 ![0] bcast_S100000_S100000x1_0 (Cert.ReferenceIdeal.Read.val_main_v84 (F := Ideal) (m ((c : Thread nD τ).loc main_arg7)))⟩] concatenates_S100000x1_S100000x1_S100000x2_d1 := by
  show StableHlo.after hostOps7 (W14 m ρ c) _ = _
  dsimp only [hostOps7]
  after_results
  try simp only [ofBuf_toBuf]
  generalize h1 : W14 m ρ c (Proc.tc.devRef main_call0_v31) = b1
  generalize h2 : W14 m ρ c (Proc.tc.devRef main_call0_v47) = b2
  rw [show Cert.ReferenceIdeal.Read.val_main_v49 (F := Ideal) (m ((c : Thread nD τ).loc main_arg5)) = b1 from (W14_v31 m ρ c).symm.trans h1, show Cert.ReferenceIdeal.Read.val_main_v84 (F := Ideal) (m ((c : Thread nD τ).loc main_arg7)) = b2 from (W14_v47 m ρ c).symm.trans h2]
  rfl
theorem W15_v141 : W15 (F := Ideal) m ρ c (Proc.devRef .tc main_call0_v141) = broadcastInDim S1x64 ![1] Cert.ReferenceIdeal.Gen.bcast_S64_S1x64_1 ((m ((c : Thread nD τ).loc main_arg17))) := by
  show StableHlo.after hostOps7 (W14 m ρ c) _ = _
  dsimp only [hostOps7]
  after_results_simp
  try simp only [ofBuf_toBuf]
  rw [W14_arg17]
  exact shapeCast_row_eq (N := 64) shapeCasts_S64_S1x64 Cert.ReferenceIdeal.Gen.bcast_S64_S1x64_1 (m ((c : Thread nD τ).loc main_arg17))
theorem W15_v142 : W15 (F := Ideal) m ρ c (Proc.devRef .tc main_call0_v142) = broadcastInDim S1x64 ![1] Cert.ReferenceIdeal.Gen.bcast_S64_S1x64_1 ((m ((c : Thread nD τ).loc main_arg19))) := by
  show StableHlo.after hostOps7 (W14 m ρ c) _ = _
  dsimp only [hostOps7]
  after_results_simp
  try simp only [ofBuf_toBuf]
  rw [W14_arg19]
  exact shapeCast_row_eq (N := 64) shapeCasts_S64_S1x64 Cert.ReferenceIdeal.Gen.bcast_S64_S1x64_1 (m ((c : Thread nD τ).loc main_arg19))
theorem W16_v143 : W16 (F := Ideal) m ρ c (Proc.devRef .tc main_call0_v143) = Cert.ReferenceIdeal.Read.val_main_v213 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) := by
  refine (W16_arr m ρ c 5).trans ?_
  rw [region7_out5 (V15 m ρ) c]
  show scaleBias2 (W15 m ρ c (Proc.devRef .tc main_call0_v123)) (W15 m ρ c (Proc.devRef .tc main_call0_v134)) (W15 m ρ c (Proc.devRef .tc main_call0_v140)) (W15 m ρ c (Proc.devRef .tc main_call0_v141)) (W15 m ρ c (Proc.devRef .tc main_call0_v142)) = _
  rw [W15_v123, W15_v134, W15_v140, W15_v141, W15_v142, ← hostSum2_eq, colOf_concat_zero, colOf_concat_one,
    ← hostScaleBias_eq _ Cert.ReferenceIdeal.Gen.bcast_S100000x1_S100000x64_0_1 _ Cert.ReferenceIdeal.Gen.bcast_S1x64_S100000x64_0_1 _,
    ← hostScaleBias_eq _ Cert.ReferenceIdeal.Gen.bcast_S100000x1_S100000x64_0_1 _ Cert.ReferenceIdeal.Gen.bcast_S1x64_S100000x64_0_1 _]
  rfl
/-! ## The last stretch stacks the two outputs -/
theorem W16_v137 : W16 (F := Ideal) m ρ c (Proc.devRef .tc main_call0_v137) = Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [W16_of_ne m ρ c main_call0_v137 (by decide)]
  dsimp only [W15, hostOps7]
  after_results_simp
  exact W14_v137 m ρ c
end Chain

/-- The kernel program's result is the reference's last stage at the same arguments. -/
theorem value_eq (m : (ℓ : Loc nD τ sig) → Buf (Elt Ideal) ℓ) (ρ : Dev nD → PrngReg) (c : Dev nD) :
    W17 (F := Ideal) m ρ c (Proc.devRef .tc main_v0) = Cert.ReferenceIdeal.Read.val_main_v216 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after hostOps8 (W16 m ρ c) _ = _
  dsimp only [hostOps8]
  after_results
  try simp only [ofBuf_toBuf]
  generalize h1 : W16 m ρ c (Proc.tc.devRef main_call0_v143) = b1
  generalize h2 : W16 m ρ c (Proc.tc.devRef main_call0_v137) = b2
  unfold Cert.ReferenceIdeal.Read.val_main_v216 Cert.ReferenceIdeal.Read.val_main_v214 Cert.ReferenceIdeal.Read.val_main_v215
  rw [show Cert.ReferenceIdeal.Read.val_main_v213 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) (m ((c : Thread nD τ).loc main_arg17)) (m ((c : Thread nD τ).loc main_arg18)) (m ((c : Thread nD τ).loc main_arg19)) = b1 from (W16_v143 m ρ c).symm.trans h1, show Cert.ReferenceIdeal.Read.val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = b2 from (W16_v137 m ρ c).symm.trans h2]
  rfl

end Cert.KernelIdeal.Hand

end
-- ==== Proof.lean ====
/-
  The certificate's claim, assembled. Each of the three programs runs to the end with its twenty argument arrays
  unchanged: the kernel program at the bit patterns and at the extended reals by its frame, the reference at the extended
  reals by its run. The idealization rewrote no operation, so what it preserves is stated as `True`. At the extended
  reals, from memories that agree on the arguments, the kernel program's result array ends at the last stretch's
  contents of it and the reference's at its last stage of the arguments; the two are one function of the arguments, so the
  results are equal element by element.
-/
import proofs.«181625_j69492570849588_2_alg».proof.Defs
import proofs.«181625_j69492570849588_2_alg».proof.Proof.Gen.Kernel
import proofs.«181625_j69492570849588_2_alg».proof.Proof.Gen.Kernel.Skeleton
import proofs.«181625_j69492570849588_2_alg».proof.Proof.Gen.Kernel.Launch
import proofs.«181625_j69492570849588_2_alg».proof.Proof.Gen.Kernel.Points
import proofs.«181625_j69492570849588_2_alg».proof.Proof.Gen.Kernel.Frame
import proofs.«181625_j69492570849588_2_alg».proof.Proof.Gen.KernelIdeal
import proofs.«181625_j69492570849588_2_alg».proof.Proof.Gen.KernelIdeal.Skeleton
import proofs.«181625_j69492570849588_2_alg».proof.Proof.Gen.KernelIdeal.Launch
import proofs.«181625_j69492570849588_2_alg».proof.Proof.Gen.KernelIdeal.Points
import proofs.«181625_j69492570849588_2_alg».proof.Proof.Gen.KernelIdeal.Frame
import proofs.«181625_j69492570849588_2_alg».proof.Proof.Gen.ReferenceIdeal
import proofs.«181625_j69492570849588_2_alg».proof.Proof.Gen.ReferenceIdeal.Run
import proofs.«181625_j69492570849588_2_alg».proof.Proof.Gen.ReferenceIdeal.Read
import proofs.«181625_j69492570849588_2_alg».proof.Proof.KernelRun
import proofs.«181625_j69492570849588_2_alg».proof.Proof.Chain
import proofs.«181625_j69492570849588_2_alg».proof.Proof.Gen.Pre_finite_inputs
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel program's result array ends at the last stretch's contents of it, the reference's at
    its last stage of arguments that agree with the kernel's, and the former is the latter at the same arguments. -/
theorem algebraic : Cert.algebraic_KernelIdeal_ReferenceIdeal := by
  intro m ρ m' ρ' _ hagree
  refine ⟨fun c => Cert.KernelIdeal.Gen.W17 (F := Ideal) m ρ c (Proc.devRef .tc Cert.KernelIdeal.main_v0),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v216_eq, h0, h1, h2, h3, h4, h5, h6, h7, h8, h9, h10, h11, h12, h13, h14, h15, h16, h17, h18, h19]
  exact (Cert.KernelIdeal.Hand.value_eq m ρ c).symm

/-- The five claims, behind the witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
